-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x3072x3072 : Shape := ⟨4, ![1, 1, 3072, 3072]⟩
abbrev S943718 : Shape := ⟨1, ![943718]⟩
abbrev S8988306 : Shape := ⟨1, ![8988306]⟩
abbrev S_ : Shape := ⟨0, ![]⟩

class Facts : Prop where
  bcast_S_S1x1x3072x3072 : S_.BroadcastsInDim S1x1x3072x3072 (![] : Fin 0 → Fin S1x1x3072x3072.rank)
  reducesTo_S1x1x3072x3072_S_d0_1_2_3 : S1x1x3072x3072.ReducesTo [0, 1, 2, 3] S_
  h_S_ : 0 < S_.numel

variable [Facts]

def fn {F : FTy → Type} [FloatOps F] (main_arg0 : FVec F S1x1x3072x3072 .f32) (main_arg1 : FVec F S1x1x3072x3072 .f32) (main_arg2 : IVec S943718 32) (main_arg3 : IVec S943718 32) (main_arg4 : IVec S8988306 32) (main_arg5 : IVec S8988306 32) : IVec S_ 1 :=
  let main_v0 : FVec F S1x1x3072x3072 .f32 := Host.absf main_arg0
  let main_cst : FVec F S_ .f32 := constant S_ .f32 0x7F800000#32
  let main_v1 : FVec F S1x1x3072x3072 .f32 := broadcastInDim S1x1x3072x3072 ![] bcast_S_S1x1x3072x3072 main_cst
  let main_v2 : IVec S1x1x3072x3072 1 := cmpf .olt main_v0 main_v1
  let main_c : IVec S_ 1 := constantI S_ 1 1#1
  let main_v3 : IVec S_ 1 := (fun x v => Host.reduce IntOp.andi x v reducesTo_S1x1x3072x3072_S_d0_1_2_3 h_S_) main_v2 main_c
  let main_v4 : FVec F S1x1x3072x3072 .f32 := Host.absf main_arg1
  let main_cst_0 : FVec F S_ .f32 := constant S_ .f32 0x7F800000#32
  let main_v5 : FVec F S1x1x3072x3072 .f32 := broadcastInDim S1x1x3072x3072 ![] bcast_S_S1x1x3072x3072 main_cst_0
  let main_v6 : IVec S1x1x3072x3072 1 := cmpf .olt main_v4 main_v5
  let main_c_1 : IVec S_ 1 := constantI S_ 1 1#1
  let main_v7 : IVec S_ 1 := (fun x v => Host.reduce IntOp.andi x v reducesTo_S1x1x3072x3072_S_d0_1_2_3 h_S_) main_v6 main_c_1
  let main_v8 : IVec S_ 1 := andi main_v3 main_v7
  main_v8
-- ==== Kernel.lean ====
abbrev S1x1x3072x3072 : Shape := ⟨4, ![1, 1, 3072, 3072]⟩
abbrev S943718 : Shape := ⟨1, ![943718]⟩
abbrev S8988306 : Shape := ⟨1, ![8988306]⟩
abbrev S9437184 : Shape := ⟨1, ![9437184]⟩
abbrev S9932024 : Shape := ⟨1, ![9932024]⟩
abbrev S_ : Shape := ⟨0, ![]⟩
abbrev S9932024x1 : Shape := ⟨2, ![9932024, 1]⟩
abbrev S9961472 : Shape := ⟨1, ![9961472]⟩
abbrev S77824x128 : Shape := ⟨2, ![77824, 128]⟩
abbrev S1x1 : Shape := ⟨2, ![1, 1]⟩
abbrev S2048x128 : Shape := ⟨2, ![2048, 128]⟩
abbrev S2048 : Shape := ⟨1, ![2048]⟩
abbrev S2048x1 : Shape := ⟨2, ![2048, 1]⟩
abbrev S1 : Shape := ⟨1, ![1]⟩

abbrev nBuf : Space → Nat
  | .hbm => 83
  | .vmem => 14
  | .smem => 0
  | _ => 0

abbrev bufTy : (tb : Table) → Fin (tcTables nBuf tb) → BufTy
  | .hbm, ⟨0, _⟩ => ⟨S1x1x3072x3072, .f32⟩
  | .hbm, ⟨1, _⟩ => ⟨S1x1x3072x3072, .f32⟩
  | .hbm, ⟨2, _⟩ => ⟨S943718, .i32⟩
  | .hbm, ⟨3, _⟩ => ⟨S943718, .i32⟩
  | .hbm, ⟨4, _⟩ => ⟨S8988306, .i32⟩
  | .hbm, ⟨5, _⟩ => ⟨S8988306, .i32⟩
  | .hbm, ⟨6, _⟩ => ⟨S9437184, .f32⟩
  | .hbm, ⟨7, _⟩ => ⟨S9437184, .f32⟩
  | .hbm, ⟨8, _⟩ => ⟨S9932024, .i32⟩
  | .hbm, ⟨9, _⟩ => ⟨S9932024, .i32⟩
  | .hbm, ⟨10, _⟩ => ⟨S_, .i32⟩
  | .hbm, ⟨11, _⟩ => ⟨S9932024, .i32⟩
  | .hbm, ⟨12, _⟩ => ⟨S9932024, .i1⟩
  | .hbm, ⟨13, _⟩ => ⟨S_, .i32⟩
  | .hbm, ⟨14, _⟩ => ⟨S9932024, .i32⟩
  | .hbm, ⟨15, _⟩ => ⟨S9932024, .i32⟩
  | .hbm, ⟨16, _⟩ => ⟨S9932024, .i32⟩
  | .hbm, ⟨17, _⟩ => ⟨S9932024x1, .i32⟩
  | .hbm, ⟨18, _⟩ => ⟨S9932024, .f32⟩
  | .hbm, ⟨19, _⟩ => ⟨S_, .i32⟩
  | .hbm, ⟨20, _⟩ => ⟨S9932024, .i32⟩
  | .hbm, ⟨21, _⟩ => ⟨S9932024, .i1⟩
  | .hbm, ⟨22, _⟩ => ⟨S_, .i32⟩
  | .hbm, ⟨23, _⟩ => ⟨S9932024, .i32⟩
  | .hbm, ⟨24, _⟩ => ⟨S9932024, .i32⟩
  | .hbm, ⟨25, _⟩ => ⟨S9932024, .i32⟩
  | .hbm, ⟨26, _⟩ => ⟨S9932024x1, .i32⟩
  | .hbm, ⟨27, _⟩ => ⟨S9932024, .f32⟩
  | .hbm, ⟨28, _⟩ => ⟨S_, .i32⟩
  | .hbm, ⟨29, _⟩ => ⟨S9932024, .i32⟩
  | .hbm, ⟨30, _⟩ => ⟨S9932024, .i1⟩
  | .hbm, ⟨31, _⟩ => ⟨S_, .i32⟩
  | .hbm, ⟨32, _⟩ => ⟨S9932024, .i32⟩
  | .hbm, ⟨33, _⟩ => ⟨S9932024, .i32⟩
  | .hbm, ⟨34, _⟩ => ⟨S9932024, .i32⟩
  | .hbm, ⟨35, _⟩ => ⟨S9932024x1, .i32⟩
  | .hbm, ⟨36, _⟩ => ⟨S9932024, .f32⟩
  | .hbm, ⟨37, _⟩ => ⟨S_, .i32⟩
  | .hbm, ⟨38, _⟩ => ⟨S9932024, .i32⟩
  | .hbm, ⟨39, _⟩ => ⟨S9932024, .i1⟩
  | .hbm, ⟨40, _⟩ => ⟨S_, .i32⟩
  | .hbm, ⟨41, _⟩ => ⟨S9932024, .i32⟩
  | .hbm, ⟨42, _⟩ => ⟨S9932024, .i32⟩
  | .hbm, ⟨43, _⟩ => ⟨S9932024, .i32⟩
  | .hbm, ⟨44, _⟩ => ⟨S9932024x1, .i32⟩
  | .hbm, ⟨45, _⟩ => ⟨S9932024, .f32⟩
  | .hbm, ⟨46, _⟩ => ⟨S_, .f32⟩
  | .hbm, ⟨47, _⟩ => ⟨S_, .f32⟩
  | .hbm, ⟨48, _⟩ => ⟨S9961472, .f32⟩
  | .hbm, ⟨49, _⟩ => ⟨S_, .f32⟩
  | .hbm, ⟨50, _⟩ => ⟨S_, .f32⟩
  | .hbm, ⟨51, _⟩ => ⟨S9961472, .f32⟩
  | .hbm, ⟨52, _⟩ => ⟨S_, .f32⟩
  | .hbm, ⟨53, _⟩ => ⟨S_, .f32⟩
  | .hbm, ⟨54, _⟩ => ⟨S9961472, .f32⟩
  | .hbm, ⟨55, _⟩ => ⟨S_, .f32⟩
  | .hbm, ⟨56, _⟩ => ⟨S_, .f32⟩
  | .hbm, ⟨57, _⟩ => ⟨S9961472, .f32⟩
  | .hbm, ⟨58, _⟩ => ⟨S77824x128, .f32⟩
  | .hbm, ⟨59, _⟩ => ⟨S77824x128, .f32⟩
  | .hbm, ⟨60, _⟩ => ⟨S77824x128, .f32⟩
  | .hbm, ⟨61, _⟩ => ⟨S77824x128, .f32⟩
  | .hbm, ⟨62, _⟩ => ⟨S1x1, .f32⟩
  | .hbm, ⟨63, _⟩ => ⟨S1x1, .f32⟩
  | .hbm, ⟨64, _⟩ => ⟨S1x1, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S1x1x3072x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_call0_v0 : Ref sig .tc := ⟨.hbm, 47, rfl⟩
abbrev main_v32 : Ref sig .tc := ⟨.hbm, 48, rfl⟩
abbrev main_cst_7 : Ref sig .tc := ⟨.hbm, 49, rfl⟩
abbrev main_call1_v0 : Ref sig .tc := ⟨.hbm, 50, rfl⟩
abbrev main_v33 : Ref sig .tc := ⟨.hbm, 51, rfl⟩
abbrev main_cst_8 : Ref sig .tc := ⟨.hbm, 52, rfl⟩
abbrev main_call2_v0 : Ref sig .tc := ⟨.hbm, 53, rfl⟩
abbrev main_v34 : Ref sig .tc := ⟨.hbm, 54, rfl⟩
abbrev main_cst_9 : Ref sig .tc := ⟨.hbm, 55, rfl⟩
abbrev main_call3_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev main_v40_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_cst_14 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![38], ![false]⟩

def k0_cond2 (i : grid0.Coords) : BitVec 1 :=
  let arg0 : BitVec 32 := BitVec.ofNat 32 (i 0).val
  let c37_i32 : BitVec 32 := 37#32
  let v90 : BitVec 1 := Scalar.cmpi .eq arg0 c37_i32
  let v91 : BitVec 32 := Scalar.extui v90
  let c0_i32_39 : BitVec 32 := 0#32
  let v92 : BitVec 1 := Scalar.cmpi .ne v91 c0_i32_39
  v92

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S1x1x3072x3072_S9437184 : S1x1x3072x3072.ShapeCasts S9437184
  concatenates_S943718_S8988306_S9932024_d0 : Shape.Concatenates [S943718, S8988306] S9932024 0
  bcast_S_S9932024 : S_.BroadcastsInDim S9932024 (![] : Fin 0 → Fin S9932024.rank)
  bcast_S9932024_S9932024x1_0 : S9932024.BroadcastsInDim S9932024x1 (![0] : Fin 1 → Fin S9932024x1.rank)
  pads_S9932024_S9961472_0294480 : S9932024.Pads (![0] : Fin 1 → Nat) ![29448] ![0] S9961472
  h_S_ : 0 < S_.numel
  shapeCasts_S9961472_S77824x128 : S9961472.ShapeCasts S77824x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S2048x128_d0_w32 : S2048x128.Iotas .tc 32 [0]
  iota_S2048x128_d1_w32 : S2048x128.Iotas .tc 32 [1]
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S_ : S1x1.ShapeCasts S_
  gather_S9437184_S9932024x1_S9932024_n_0_n_n_0_1_1_wf : GatherDims.WF S9437184 S9932024x1 S9932024 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S77824x128.size a
  hwx0_0 : ∀ i : grid0.Coords, EltTy.bits .f32 = 32 ∨ (Rect.block (s := S77824x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S77824x128.size a
  hwx0_1 : ∀ i : grid0.Coords, EltTy.bits .f32 = 32 ∨ (Rect.block (s := S77824x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S77824x128.size a
  hwx0_2 : ∀ i : grid0.Coords, EltTy.bits .f32 = 32 ∨ (Rect.block (s := S77824x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S77824x128.size a
  hwx0_3 : ∀ i : grid0.Coords, EltTy.bits .f32 = 32 ∨ (Rect.block (s := S77824x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def gather_S9437184_S9932024x1_S9932024_n_0_n_n_0_1_1 : GatherDims S9437184 S9932024x1 S9932024 where
  offsetDims := []
  collapsedSliceDims := [0]
  operandBatchingDims := []
  startIndicesBatchingDims := []
  startIndexMap := [0]
  indexVectorDim := 1
  sliceSizes := ![1]
  wf := gather_S9437184_S9932024x1_S9932024_n_0_n_n_0_1_1_wf

abbrev win0_0 : Pipeline.Window sig grid0 :=
  Pipeline.Window.ofSpec (Memref.whole main_v36) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40_1) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40_2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1x1x3072x3072 : Shape := ⟨4, ![1, 1, 3072, 3072]⟩
abbrev S943718 : Shape := ⟨1, ![943718]⟩
abbrev S8988306 : Shape := ⟨1, ![8988306]⟩
abbrev S9437184 : Shape := ⟨1, ![9437184]⟩
abbrev S_ : Shape := ⟨0, ![]⟩
abbrev S943718x1 : Shape := ⟨2, ![943718, 1]⟩
abbrev S8988306x1 : Shape := ⟨2, ![8988306, 1]⟩
abbrev S9932024 : Shape := ⟨1, ![9932024]⟩

abbrev nBuf : Space → Nat
  | .hbm => 170
  | .vmem => 0
  | .smem => 0
  | _ => 0

abbrev hbmTy0_0 (i : Nat) : BufTy := match i % 128 with
  | 0 => ⟨S1x1x3072x3072, .f32⟩
  | 1 => ⟨S1x1x3072x3072, .f32⟩
  | 2 => ⟨S943718, .i32⟩
  | 3 => ⟨S943718, .i32⟩
  | 4 => ⟨S8988306, .i32⟩
  | 5 => ⟨S8988306, .i32⟩
  | 6 => ⟨S9437184, .f32⟩
  | 7 => ⟨S9437184, .f32⟩
  | 8 => ⟨S_, .i32⟩
  | 9 => ⟨S943718, .i32⟩
  | 10 => ⟨S943718, .i1⟩
  | 11 => ⟨S_, .i32⟩
  | 12 => ⟨S943718, .i32⟩
  | 13 => ⟨S943718, .i32⟩
  | 14 => ⟨S943718, .i32⟩
  | 15 => ⟨S943718x1, .i32⟩
  | 16 => ⟨S943718, .f32⟩
  | 17 => ⟨S_, .i32⟩
  | 18 => ⟨S943718, .i32⟩
  | 19 => ⟨S943718, .i1⟩
  | 20 => ⟨S_, .i32⟩
  | 21 => ⟨S943718, .i32⟩
  | 22 => ⟨S943718, .i32⟩
  | 23 => ⟨S943718, .i32⟩
  | 24 => ⟨S943718x1, .i32⟩
  | 25 => ⟨S943718, .f32⟩
  | 26 => ⟨S943718, .f32⟩
  | 27 => ⟨S_, .f32⟩
  | 28 => ⟨S943718, .f32⟩
  | 29 => ⟨S943718, .i1⟩
  | 30 => ⟨S943718, .f32⟩
  | 31 => ⟨S_, .f32⟩
  | 32 => ⟨S943718, .f32⟩
  | 33 => ⟨S943718, .i1⟩
  | 34 => ⟨S_, .f32⟩
  | 35 => ⟨S_, .f32⟩
  | 36 => ⟨S943718, .f32⟩
  | 37 => ⟨S943718, .f32⟩
  | 38 => ⟨S943718, .f32⟩
  | 39 => ⟨S_, .f32⟩
  | 40 => ⟨S943718, .f32⟩
  | 41 => ⟨S943718, .f32⟩
  | 42 => ⟨S943718, .f32⟩
  | 43 => ⟨S_, .i32⟩
  | 44 => ⟨S8988306, .i32⟩
  | 45 => ⟨S8988306, .i1⟩
  | 46 => ⟨S_, .i32⟩
  | 47 => ⟨S8988306, .i32⟩
  | 48 => ⟨S8988306, .i32⟩
  | 49 => ⟨S8988306, .i32⟩
  | 50 => ⟨S8988306x1, .i32⟩
  | 51 => ⟨S8988306, .f32⟩
  | 52 => ⟨S_, .i32⟩
  | 53 => ⟨S8988306, .i32⟩
  | 54 => ⟨S8988306, .i1⟩
  | 55 => ⟨S_, .i32⟩
  | 56 => ⟨S8988306, .i32⟩
  | 57 => ⟨S8988306, .i32⟩
  | 58 => ⟨S8988306, .i32⟩
  | 59 => ⟨S8988306x1, .i32⟩
  | 60 => ⟨S8988306, .f32⟩
  | 61 => ⟨S8988306, .f32⟩
  | 62 => ⟨S_, .f32⟩
  | 63 => ⟨S8988306, .f32⟩
  | 64 => ⟨S8988306, .i1⟩
  | 65 => ⟨S8988306, .f32⟩
  | 66 => ⟨S_, .f32⟩
  | 67 => ⟨S8988306, .f32⟩
  | 68 => ⟨S8988306, .i1⟩
  | 69 => ⟨S_, .f32⟩
  | 70 => ⟨S_, .f32⟩
  | 71 => ⟨S8988306, .f32⟩
  | 72 => ⟨S8988306, .f32⟩
  | 73 => ⟨S8988306, .f32⟩
  | 74 => ⟨S_, .f32⟩
  | 75 => ⟨S8988306, .f32⟩
  | 76 => ⟨S8988306, .f32⟩
  | 77 => ⟨S8988306, .f32⟩
  | 78 => ⟨S_, .i32⟩
  | 79 => ⟨S943718, .i32⟩
  | 80 => ⟨S943718, .i1⟩
  | 81 => ⟨S_, .i32⟩
  | 82 => ⟨S943718, .i32⟩
  | 83 => ⟨S943718, .i32⟩
  | 84 => ⟨S943718, .i32⟩
  | 85 => ⟨S943718x1, .i32⟩
  | 86 => ⟨S943718, .f32⟩
  | 87 => ⟨S_, .i32⟩
  | 88 => ⟨S8988306, .i32⟩
  | 89 => ⟨S8988306, .i1⟩
  | 90 => ⟨S_, .i32⟩
  | 91 => ⟨S8988306, .i32⟩
  | 92 => ⟨S8988306, .i32⟩
  | 93 => ⟨S8988306, .i32⟩
  | 94 => ⟨S8988306x1, .i32⟩
  | 95 => ⟨S8988306, .f32⟩
  | 96 => ⟨S9932024, .f32⟩
  | 97 => ⟨S_, .i32⟩
  | 98 => ⟨S943718, .i32⟩
  | 99 => ⟨S943718, .i1⟩
  | 100 => ⟨S_, .i32⟩
  | 101 => ⟨S943718, .i32⟩
  | 102 => ⟨S943718, .i32⟩
  | 103 => ⟨S943718, .i32⟩
  | 104 => ⟨S943718x1, .i32⟩
  | 105 => ⟨S943718, .f32⟩
  | 106 => ⟨S_, .i32⟩
  | 107 => ⟨S8988306, .i32⟩
  | 108 => ⟨S8988306, .i1⟩
  | 109 => ⟨S_, .i32⟩
  | 110 => ⟨S8988306, .i32⟩
  | 111 => ⟨S8988306, .i32⟩
  | 112 => ⟨S8988306, .i32⟩
  | 113 => ⟨S8988306x1, .i32⟩
  | 114 => ⟨S8988306, .f32⟩
  | 115 => ⟨S9932024, .f32⟩
  | 116 => ⟨S9932024, .f32⟩
  | 117 => ⟨S9932024, .f32⟩
  | 118 => ⟨S_, .f32⟩
  | 119 => ⟨S9932024, .f32⟩
  | 120 => ⟨S9932024, .i1⟩
  | 121 => ⟨S9932024, .i32⟩
  | 122 => ⟨S_, .i32⟩
  | 123 => ⟨S_, .i32⟩
  | 124 => ⟨S_, .i32⟩
  | 125 => ⟨S_, .i32⟩
  | 126 => ⟨S9932024, .f32⟩
  | 127 => ⟨S9932024, .f32⟩
  | _ => ⟨S1x1x3072x3072, .f32⟩

abbrev hbmTy0_1 (i : Nat) : BufTy := match i % 128 with
  | 0 => ⟨S_, .f32⟩
  | 1 => ⟨S9932024, .f32⟩
  | 2 => ⟨S9932024, .f32⟩
  | 3 => ⟨S9932024, .f32⟩
  | 4 => ⟨S9932024, .f32⟩
  | 5 => ⟨S9932024, .i1⟩
  | 6 => ⟨S9932024, .f32⟩
  | 7 => ⟨S9932024, .f32⟩
  | 8 => ⟨S9932024, .f32⟩
  | 9 => ⟨S9932024, .f32⟩
  | 10 => ⟨S9932024, .f32⟩
  | 11 => ⟨S9932024, .f32⟩
  | 12 => ⟨S9932024, .f32⟩
  | 13 => ⟨S9932024, .f32⟩
  | 14 => ⟨S_, .f32⟩
  | 15 => ⟨S_, .f32⟩
  | 16 => ⟨S9932024, .f32⟩
  | 17 => ⟨S9932024, .f32⟩
  | 18 => ⟨S_, .f32⟩
  | 19 => ⟨S_, .f32⟩
  | 20 => ⟨S_, .i32⟩
  | 21 => ⟨S_, .i32⟩
  | 22 => ⟨S_, .f32⟩
  | 23 => ⟨S_, .f32⟩
  | 24 => ⟨S9932024, .f32⟩
  | 25 => ⟨S_, .f32⟩
  | 26 => ⟨S_, .f32⟩
  | 27 => ⟨S9932024, .f32⟩
  | 28 => ⟨S9932024, .f32⟩
  | 29 => ⟨S_, .f32⟩
  | 30 => ⟨S_, .f32⟩
  | 31 => ⟨S_, .i32⟩
  | 32 => ⟨S_, .i32⟩
  | 33 => ⟨S_, .f32⟩
  | 34 => ⟨S_, .f32⟩
  | 35 => ⟨S_, .i32⟩
  | 36 => ⟨S_, .i1⟩
  | 37 => ⟨S_, .i32⟩
  | 38 => ⟨S_, .i1⟩
  | 39 => ⟨S_, .f32⟩
  | 40 => ⟨S_, .f32⟩
  | 41 => ⟨S_, .f32⟩
  | _ => ⟨S1x1x3072x3072, .f32⟩

abbrev hbmTy (i : Nat) : BufTy := match i / 128 with
  | 0 => hbmTy0_0 i
  | 1 => hbmTy0_1 i
  | _ => ⟨S1x1x3072x3072, .f32⟩

abbrev bufTy : (tb : Table) → Fin (tcTables nBuf tb) → BufTy
  | .hbm, ⟨i, _⟩ => hbmTy i
  | _, _ => ⟨S1x1x3072x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_cst_6 : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_c_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_cst_14 : Ref sig .tc := ⟨.hbm, 70, rfl⟩
abbrev main_call2_v0 : Ref sig .tc := ⟨.hbm, 71, rfl⟩
abbrev main_call2_v1 : Ref sig .tc := ⟨.hbm, 72, rfl⟩
abbrev main_v45 : Ref sig .tc := ⟨.hbm, 73, rfl⟩
abbrev main_cst_15 : Ref sig .tc := ⟨.hbm, 74, rfl⟩
abbrev main_call3_v0 : Ref sig .tc := ⟨.hbm, 75, rfl⟩
abbrev main_v46 : Ref sig .tc := ⟨.hbm, 76, rfl⟩
abbrev main_v47 : Ref sig .tc := ⟨.hbm, 77, rfl⟩
abbrev main_c_16 : Ref sig .tc := ⟨.hbm, 78, rfl⟩
abbrev main_v48 : Ref sig .tc := ⟨.hbm, 79, rfl⟩
abbrev main_v49 : Ref sig .tc := ⟨.hbm, 80, rfl⟩
abbrev main_c_17 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_18 : Ref sig .tc := ⟨.hbm, 87, rfl⟩
abbrev main_v55 : Ref sig .tc := ⟨.hbm, 88, rfl⟩
abbrev main_v56 : Ref sig .tc := ⟨.hbm, 89, rfl⟩
abbrev main_c_19 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_20 : Ref sig .tc := ⟨.hbm, 97, rfl⟩
abbrev main_v63 : Ref sig .tc := ⟨.hbm, 98, rfl⟩
abbrev main_v64 : Ref sig .tc := ⟨.hbm, 99, rfl⟩
abbrev main_c_21 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_22 : Ref sig .tc := ⟨.hbm, 106, rfl⟩
abbrev main_v70 : Ref sig .tc := ⟨.hbm, 107, rfl⟩
abbrev main_v71 : Ref sig .tc := ⟨.hbm, 108, rfl⟩
abbrev main_c_23 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_24 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_25 : Ref sig .tc := ⟨.hbm, 122, rfl⟩
abbrev main_v83 : Ref sig .tc := ⟨.hbm, 123, rfl⟩
abbrev main_c_26 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_call4_cst : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_v9 : Ref sig .tc := ⟨.hbm, 138, rfl⟩
abbrev main_call4_v10 : Ref sig .tc := ⟨.hbm, 139, rfl⟩
abbrev main_call4_v11 : Ref sig .tc := ⟨.hbm, 140, rfl⟩
abbrev main_v87 : Ref sig .tc := ⟨.hbm, 141, rfl⟩
abbrev main_cst_27 : Ref sig .tc := ⟨.hbm, 142, rfl⟩
abbrev main_call5_v0 : Ref sig .tc := ⟨.hbm, 143, rfl⟩
abbrev main_call5_v1 : Ref sig .tc := ⟨.hbm, 144, rfl⟩
abbrev main_v88 : Ref sig .tc := ⟨.hbm, 145, rfl⟩
abbrev main_cst_28 : Ref sig .tc := ⟨.hbm, 146, rfl⟩
abbrev main_v89 : Ref sig .tc := ⟨.hbm, 147, rfl⟩
abbrev main_c_29 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_30 : Ref sig .tc := ⟨.hbm, 153, rfl⟩
abbrev main_call6_v0 : Ref sig .tc := ⟨.hbm, 154, rfl⟩
abbrev main_call6_v1 : Ref sig .tc := ⟨.hbm, 155, rfl⟩
abbrev main_v94 : Ref sig .tc := ⟨.hbm, 156, rfl⟩
abbrev main_cst_31 : Ref sig .tc := ⟨.hbm, 157, rfl⟩
abbrev main_v95 : Ref sig .tc := ⟨.hbm, 158, rfl⟩
abbrev main_c_32 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_c_33 : Ref sig .tc := ⟨.hbm, 163, rfl⟩
abbrev main_v99 : Ref sig .tc := ⟨.hbm, 164, rfl⟩
abbrev main_c_34 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩

abbrev nD : Nat := 1
abbrev τ : Topo := Topo.v7x

variable {F : FTy → Type} [FloatOps F]

class Facts₀ : Prop where
  shapeCasts_S1x1x3072x3072_S9437184 : S1x1x3072x3072.ShapeCasts S9437184
  bcast_S_S943718 : S_.BroadcastsInDim S943718 (![] : Fin 0 → Fin S943718.rank)
  bcast_S943718_S943718x1_0 : S943718.BroadcastsInDim S943718x1 (![0] : Fin 1 → Fin S943718x1.rank)
  bcast_S_S8988306 : S_.BroadcastsInDim S8988306 (![] : Fin 0 → Fin S8988306.rank)
  bcast_S8988306_S8988306x1_0 : S8988306.BroadcastsInDim S8988306x1 (![0] : Fin 1 → Fin S8988306x1.rank)
  concatenates_S943718_S8988306_S9932024_d0 : Shape.Concatenates [S943718, S8988306] S9932024 0
  bcast_S_S9932024 : S_.BroadcastsInDim S9932024 (![] : Fin 0 → Fin S9932024.rank)
  natLt_1_32 : 1 < 32
  reducesTo_S9932024_S_d0 : S9932024.ReducesTo [0] S_
  h_S_ : 0 < S_.numel
  gather_S9437184_S943718x1_S943718_n_0_n_n_0_1_1_wf : GatherDims.WF S9437184 S943718x1 S943718 [] [0] [] [0] [] 1 ![1]
  gather_S9437184_S8988306x1_S8988306_n_0_n_n_0_1_1_wf : GatherDims.WF S9437184 S8988306x1 S8988306 [] [0] [] [0] [] 1 ![1]

variable [Facts₀]

def gather_S9437184_S943718x1_S943718_n_0_n_n_0_1_1 : GatherDims S9437184 S943718x1 S943718 where
  offsetDims := []
  collapsedSliceDims := [0]
  operandBatchingDims := []
  startIndicesBatchingDims := []
  startIndexMap := [0]
  indexVectorDim := 1
  sliceSizes := ![1]
  wf := gather_S9437184_S943718x1_S943718_n_0_n_n_0_1_1_wf
def gather_S9437184_S8988306x1_S8988306_n_0_n_n_0_1_1 : GatherDims S9437184 S8988306x1 S8988306 where
  offsetDims := []
  collapsedSliceDims := [0]
  operandBatchingDims := []
  startIndicesBatchingDims := []
  startIndexMap := [0]
  indexVectorDim := 1
  sliceSizes := ![1]
  wf := gather_S9437184_S8988306x1_S8988306_n_0_n_n_0_1_1_wf

class Facts : Prop extends Facts₀ where

variable [Facts]
-- ==== Proof.Spec.lean ====
/-
  The common specification of the ranking loss, over the extended reals.

  Inputs: two depth maps (prediction p and ground truth g) of 3072 × 3072 entries, read flat, and four
  integer index arrays.  Pair number k (k < 9 932 024 = 943 718 + 8 988 306) takes its first pixel from
  the concatenation of the index arrays 2 and 4 and its second pixel from the concatenation of arrays 3
  and 5; a negative index is shifted by the array length and the result clamped into the array.  With
  ga, gb the ground-truth depths and pa, pb the predicted depths of the two pixels, the pair's target is
  +1 when ga / gb ≥ 1.15, else -1 when gb / ga > 1.15, else 0; d = pa - pb.  The loss is

      mean over pairs with target ≠ 0 of  softplus (-target · d)
    + mean over pairs with target = 0 of  d²,

  each mean with its count replaced by 1 when the count is below 1, and only the other term when one of
  the counts is 0.  softplus x is written max x 0 + log1p (exp (-|x|)), guarded by a test x - 0 ≠ x - 0
  that never fires on the extended reals.
-/
import Idealize.ShloMosaic.PureOps.Ideal
import Idealize.ShloMosaic.Lib.ValueIdx

noncomputable section

namespace Cert.RankSpec

open Idealize.ShloMosaic Idealize.ShloMosaic.ValueIdx

/-- An extended real. -/
abbrev R := Ideal .f32

/-- The number of pixels of a depth map, 3072². -/
abbrev nPix : Nat := 9437184
/-- The number of pairs. -/
abbrev nPair : Nat := 9932024
/-- The number of pairs drawn at random (the first part of the concatenations). -/
abbrev nRand : Nat := 943718
/-- The number of object-guided pairs (the second part). -/
abbrev nObj : Nat := 8988306

abbrev SMap : Shape := ⟨4, ![1, 1, 3072, 3072]⟩
abbrev SPix : Shape := ⟨1, ![9437184]⟩
abbrev SRand : Shape := ⟨1, ![943718]⟩
abbrev SObj : Shape := ⟨1, ![8988306]⟩
abbrev SPair : Shape := ⟨1, ![9932024]⟩

def zero : R := Ideal.ofBits .f32 0x00000000#32
def one : R := Ideal.ofBits .f32 0x3F800000#32
def negOne : R := Ideal.ofBits .f32 0xBF800000#32
/-- The threshold 1 + σ as the 32-bit float nearest 1.15. -/
def thr : R := Ideal.ofBits .f32 0x3F933333#32
/-- The number of pairs as an extended real. -/
def nPairR : R := Ideal.ofBits .f32 0x4B178CF8#32

/-! ## One pair -/

/-- The target of a pair from the two ground-truth depths. -/
def tgt (ga gb : R) : R :=
  Scalar.select (FloatOps.cmpf .oge (Ideal.div ga gb) thr) one
    (Scalar.select (FloatOps.cmpf .ogt (Ideal.div gb ga) thr) negOne zero)

/-- The bit "the target is not 0". -/
def nzb (ga gb : R) : BitVec 1 := FloatOps.cmpf .one (tgt ga gb) zero

/-- softplus, in the guarded form both programs compute. -/
def splus (x : R) : R :=
  Scalar.select (FloatOps.cmpf .one (x - zero) (x - zero)) (x + zero)
    (max x zero + Ideal.log1p (Ideal.exp (zero - FloatOps.absf (x - zero))))

/-- A ranked pair's term (0 for an unranked pair). -/
def lgTerm (ga gb pa pb : R) : R :=
  Scalar.select (nzb ga gb) (splus ((zero - tgt ga gb) * (pa - pb))) zero

/-- An unranked pair's term (0 for a ranked pair). -/
def sqTerm (ga gb pa pb : R) : R :=
  Scalar.select (IntOp.xori (nzb ga gb) 1#1) ((pa - pb) * (pa - pb)) zero

/-- 1 for a ranked pair, 0 for an unranked one. -/
def cntTerm (ga gb : R) : R := Scalar.select (nzb ga gb) one zero

/-! ## The pixels of a pair -/

/-- A negative index counts from the end. -/
def normIdx (b : BitVec 32) : BitVec 32 :=
  Scalar.select (IntOp.cmpi .slt b 0#32) (IntOp.addi b 9437184#32) b

/-- An index read signed and clamped into the map. -/
def clampIdx (b : BitVec 32) : Fin nPix := ⟨min b.toInt.toNat (nPix - 1), Nat.lt_of_le_of_lt (Nat.min_le_right _ _) (by decide)⟩

/-- Pair k's index word: the first nRand pairs read the random-sampling array, the others the object array. -/
def catIdx (a : SRand.Idx → BitVec 32) (b : SObj.Idx → BitVec 32) (k : Fin nPair) : BitVec 32 :=
  if h : k.val < nRand then a (ix1 ⟨k.val, h⟩) else b (ix1 ⟨k.val - nRand, by have h1 : k.val < 9932024 := k.isLt; have h2 : ¬ k.val < 943718 := h; show k.val - 943718 < 8988306; omega⟩)

/-- A depth map read flat at pair k's pixel. -/
def gat (x : SMap.Idx → R) (a : SRand.Idx → BitVec 32) (b : SObj.Idx → BitVec 32) (k : Fin nPair) : R :=
  shapeCast SPix x (by decide) (ix1 (clampIdx (normIdx (catIdx a b k))))

/-! ## The loss -/

/-- The loss from the two sums and the count of ranked pairs. -/
def finish (slg ssq cnt : R) : R :=
  Scalar.select (FloatOps.cmpf .oeq cnt zero) (Ideal.div ssq (max (nPairR - cnt) one))
    (Scalar.select (FloatOps.cmpf .oeq (nPairR - cnt) zero) (Ideal.div slg (max cnt one))
      (Ideal.div slg (max cnt one) + Ideal.div ssq (max (nPairR - cnt) one)))

/-- The three sums over all pairs. -/
def sumLg (p g : SMap.Idx → R) (a2 a3 : SRand.Idx → BitVec 32) (a4 a5 : SObj.Idx → BitVec 32) : R :=
  ∑ k : Fin nPair, lgTerm (gat g a2 a4 k) (gat g a3 a5 k) (gat p a2 a4 k) (gat p a3 a5 k)
def sumSq (p g : SMap.Idx → R) (a2 a3 : SRand.Idx → BitVec 32) (a4 a5 : SObj.Idx → BitVec 32) : R :=
  ∑ k : Fin nPair, sqTerm (gat g a2 a4 k) (gat g a3 a5 k) (gat p a2 a4 k) (gat p a3 a5 k)
def sumCnt (g : SMap.Idx → R) (a2 a3 : SRand.Idx → BitVec 32) (a4 a5 : SObj.Idx → BitVec 32) : R :=
  ∑ k : Fin nPair, cntTerm (gat g a2 a4 k) (gat g a3 a5 k)

/-- THE LOSS as one function of the six argument arrays (p = argument 0, g = argument 1). -/
def loss (p g : SMap.Idx → R) (a2 a3 : SRand.Idx → BitVec 32) (a4 a5 : SObj.Idx → BitVec 32) : R :=
  finish (sumLg p g a2 a3 a4 a5) (sumSq p g a2 a3 a4 a5) (sumCnt g a2 a3 a4 a5)

/-! ## The same loss with the ranked pairs counted in integers

The count of ranked pairs as a 32-bit integer sum of the bits, the count of unranked pairs as 9 932 024 minus it,
both converted to reals only for the two divisions; the two sums start from an explicit 0. -/

/-- The loss from the two sums and the integer count of ranked pairs. -/
def finishR (slg ssq : R) (n1 : BitVec 32) : R :=
  Scalar.select (IntOp.cmpi .eq n1 0#32)
    (Ideal.div ssq (FloatOps.sitofp (F := Ideal) .f32 (IntOp.maxsi (IntOp.subi 9932024#32 n1) 1#32)))
    (Scalar.select (IntOp.cmpi .eq (IntOp.subi 9932024#32 n1) 0#32)
      (Ideal.div slg (FloatOps.sitofp (F := Ideal) .f32 (IntOp.maxsi n1 1#32)))
      (Ideal.div slg (FloatOps.sitofp (F := Ideal) .f32 (IntOp.maxsi n1 1#32))
        + Ideal.div ssq (FloatOps.sitofp (F := Ideal) .f32 (IntOp.maxsi (IntOp.subi 9932024#32 n1) 1#32))))

/-- The ranked-pair bits, widened to 32-bit integers, as an array over the pairs. -/
def nzWords (g : SMap.Idx → R) (a2 a3 : SRand.Idx → BitVec 32) (a4 a5 : SObj.Idx → BitVec 32) : SPair.Idx → BitVec 32 :=
  fun j => (nzb (gat g a2 a4 (j 0)) (gat g a3 a5 (j 0))).setWidth 32

/-- The loss with the integer count: the integer sum is the host's reduction by integer addition from 0. -/
def lossR (p g : SMap.Idx → R) (a2 a3 : SRand.Idx → BitVec 32) (a4 a5 : SObj.Idx → BitVec 32)
    (h : SPair.ReducesTo [0] (⟨0, ![]⟩ : Shape)) (hu : 0 < (⟨0, ![]⟩ : Shape).numel) : R :=
  finishR (zero + sumLg p g a2 a3 a4 a5) (zero + sumSq p g a2 a3 a4 a5)
    (Host.reduce IntOp.addi (nzWords g a2 a3 a4 a5) (fun _ : (⟨0, ![]⟩ : Shape).Idx => 0#32) h hu ix0)

end Cert.RankSpec

end
-- ==== Proof.KBody.lean ====
import proofs.«129107_j71382356459609_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

/-! # What one grid point leaves in the three running sums

The kernel keeps three 1×1 accumulators (the sum of the ranked pairs' terms, the sum of the unranked pairs' squared
differences, the count of ranked pairs).  At the first grid point they are reset to 0 before the block's three partial
sums are added; at every later point the block's partial sums are added to what the point before left; at the last
point the three accumulators are also copied to the three 1×1 results.  Here each of the three cases (first, middle,
last point) is read: what it leaves in each accumulator, and at the last point in each result, as a function of the
four input blocks and of the accumulators' previous contents. -/

namespace Cert.KernelIdeal.KBody
open Cert.KernelIdeal Cert.KernelIdeal.Gen
variable {F : FTy → Type} [FloatOps F]

theorem hz : (![0, 0] : Fin 2 → Nat) = fun _ => 0 := funext fun a => by fin_cases a <;> rfl

/-- The block's contribution to the first accumulator, added to its previous contents xs. -/
abbrev accLg (i : grid0.Coords) (x0 x1 x2 x3 : Vec F S2048x128 .f32) (xs : Vec F S1x1 .f32) : Vec F S1x1 .f32 :=
  k0_pay14 (k0_pay6 x0 x1) (k0_pay7 x2 x3) (k0_pay10 i x0 x1) xs
/-- The block's contribution to the second accumulator, added to its previous contents xs. -/
abbrev accSq (i : grid0.Coords) (x0 x1 x2 x3 : Vec F S2048x128 .f32) (xs : Vec F S1x1 .f32) : Vec F S1x1 .f32 :=
  k0_pay1 (k0_pay12 (k0_pay7 x2 x3) (k0_pay11 i x0 x1)) xs
/-- The block's contribution to the third accumulator, added to its previous contents xs. -/
abbrev accCnt (i : grid0.Coords) (x0 x1 : Vec F S2048x128 .f32) (xs : Vec F S1x1 .f32) : Vec F S1x1 .f32 :=
  k0_pay2 (k0_pay13 (k0_pay10 i x0 x1)) xs

section
variable (c : Dev nD) (i : grid0.Coords) (a1 : Memref sig .tc .vmem S2048x128 .f32) (h1 : a1.IsWhole)
    (a2 : Memref sig .tc .vmem S2048x128 .f32) (h2 : a2.IsWhole) (a3 : Memref sig .tc .vmem S2048x128 .f32) (h3 : a3.IsWhole)
    (a4 : Memref sig .tc .vmem S2048x128 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (a8 : Memref sig .tc .vmem S1x1 .f32) (h8 : a8.IsWhole) (a9 : Memref sig .tc .vmem S1x1 .f32) (h9 : a9.IsWhole)
    (a10 : Memref sig .tc .vmem S1x1 .f32) (h10 : a10.IsWhole)
    (x0 x1 x2 x3 : Vec F S2048x128 .f32) (xs0 xs1 xs2 : Vec F S1x1 .f32)

/-! ## The first point: the accumulators start from 0 -/

theorem sA0 (hc0 : cond0_0 i) (hc1 : ¬cond0_1 i) :
    sout0_A_0 c i a1 h1 a2 h2 a3 h3 a4 h4 a5 h5 a6 h6 a7 h7 a8 h8 a9 h9 a10 h10 hc0 hc1 x0 x1 x2 x3 = accLg i x0 x1 x2 x3 k0_pay3 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h8.read_unread, h9.read_unread, h10.read_unread, View.ld_unit_zero (S := S2048x128) hz, View.ld_unit_zero (S := S1x1) hz]

theorem sA1 (hc0 : cond0_0 i) (hc1 : ¬cond0_1 i) :
    sout0_A_1 c i a1 h1 a2 h2 a3 h3 a4 h4 a5 h5 a6 h6 a7 h7 a8 h8 a9 h9 a10 h10 hc0 hc1 x0 x1 x2 x3 = accSq i x0 x1 x2 x3 k0_pay4 := by
  unfold sout0_A_1
  rw [View.read_writes_eq_canon _ _ _ (scover0_A_1 c i a1 h1 a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h8.read_unread, h9.read_unread, h10.read_unread, View.ld_unit_zero (S := S2048x128) hz, View.ld_unit_zero (S := S1x1) hz]

theorem sA2 (hc0 : cond0_0 i) (hc1 : ¬cond0_1 i) :
    sout0_A_2 c i a1 h1 a2 h2 a3 h3 a4 h4 a5 h5 a6 h6 a7 h7 a8 h8 a9 h9 a10 h10 hc0 hc1 x0 x1 x2 x3 = accCnt i x0 x1 k0_pay5 := by
  unfold sout0_A_2
  rw [View.read_writes_eq_canon _ _ _ (scover0_A_2 c i a1 h1 a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h8.read_unread, h9.read_unread, h10.read_unread, View.ld_unit_zero (S := S2048x128) hz, View.ld_unit_zero (S := S1x1) hz]

/-! ## A middle point: the block's sums are added to what the point before left -/

theorem sB0 (hc0 : ¬cond0_0 i) (hc1 : ¬cond0_1 i) :
    sout0_B_0 c i a1 h1 a2 h2 a3 h3 a4 h4 a5 h5 a6 h6 a7 h7 a8 h8 a9 h9 a10 h10 hc0 hc1 x0 x1 x2 x3 xs0 xs1 xs2 = accLg i x0 x1 x2 x3 xs0 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz]
  simp only [View.readAt_eq_ld, h1.read_unread, h2.read_unread, h3.read_unread, h4.read_unread, h8.read_unread, h9.read_unread, h10.read_unread, View.ld_unit_zero (S := S2048x128) hz, View.ld_unit_zero (S := S1x1) hz]

theorem sB1 (hc0 : ¬cond0_0 i) (hc1 : ¬cond0_1 i) :
    sout0_B_1 c i a1 h1 a2 h2 a3 h3 a4 h4 a5 h5 a6 h6 a7 h7 a8 h8 a9 h9 a10 h10 hc0 hc1 x0 x1 x2 x3 xs0 xs1 xs2 = accSq i x0 x1 x2 x3 xs1 := by
  unfold sout0_B_1
  rw [View.read_writes_eq_canon _ _ _ (scover0_B_1 c i a1 h1 a2 h2 a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz]
  simp only [View.readAt_eq_ld, h1.read_unread, h2.read_unread, h3.read_unread, h4.read_unread, h8.read_unread, h9.read_unread, h10.read_unread, View.ld_unit_zero (S := S2048x128) hz, View.ld_unit_zero (S := S1x1) hz]

theorem sB2 (hc0 : ¬cond0_0 i) (hc1 : ¬cond0_1 i) :
    sout0_B_2 c i a1 h1 a2 h2 a3 h3 a4 h4 a5 h5 a6 h6 a7 h7 a8 h8 a9 h9 a10 h10 hc0 hc1 x0 x1 x2 x3 xs0 xs1 xs2 = accCnt i x0 x1 xs2 := by
  unfold sout0_B_2
  rw [View.read_writes_eq_canon _ _ _ (scover0_B_2 c i a1 h1 a2 h2 a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz]
  simp only [View.readAt_eq_ld, h1.read_unread, h2.read_unread, h3.read_unread, h4.read_unread, h8.read_unread, h9.read_unread, h10.read_unread, View.ld_unit_zero (S := S2048x128) hz, View.ld_unit_zero (S := S1x1) hz]

/-! ## The last point: the same, and the three results are the accumulators' new contents -/

theorem sC0 (hc0 : ¬cond0_0 i) (hc1 : cond0_1 i) :
    sout0_C_0 c i a1 h1 a2 h2 a3 h3 a4 h4 a5 h5 a6 h6 a7 h7 a8 h8 a9 h9 a10 h10 hc0 hc1 x0 x1 x2 x3 xs0 xs1 xs2 = accLg i x0 x1 x2 x3 xs0 := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz]
  simp only [View.readAt_eq_ld, h1.read_unread, h2.read_unread, h3.read_unread, h4.read_unread, h8.read_unread, h9.read_unread, h10.read_unread, View.ld_unit_zero (S := S2048x128) hz, View.ld_unit_zero (S := S1x1) hz]

theorem sC1 (hc0 : ¬cond0_0 i) (hc1 : cond0_1 i) :
    sout0_C_1 c i a1 h1 a2 h2 a3 h3 a4 h4 a5 h5 a6 h6 a7 h7 a8 h8 a9 h9 a10 h10 hc0 hc1 x0 x1 x2 x3 xs0 xs1 xs2 = accSq i x0 x1 x2 x3 xs1 := by
  unfold sout0_C_1
  rw [View.read_writes_eq_canon _ _ _ (scover0_C_1 c i a1 h1 a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz]
  simp only [View.readAt_eq_ld, h1.read_unread, h2.read_unread, h3.read_unread, h4.read_unread, h8.read_unread, h9.read_unread, h10.read_unread, View.ld_unit_zero (S := S2048x128) hz, View.ld_unit_zero (S := S1x1) hz]

theorem sC2 (hc0 : ¬cond0_0 i) (hc1 : cond0_1 i) :
    sout0_C_2 c i a1 h1 a2 h2 a3 h3 a4 h4 a5 h5 a6 h6 a7 h7 a8 h8 a9 h9 a10 h10 hc0 hc1 x0 x1 x2 x3 xs0 xs1 xs2 = accCnt i x0 x1 xs2 := by
  unfold sout0_C_2
  rw [View.read_writes_eq_canon _ _ _ (scover0_C_2 c i a1 h1 a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz]
  simp only [View.readAt_eq_ld, h1.read_unread, h2.read_unread, h3.read_unread, h4.read_unread, h8.read_unread, h9.read_unread, h10.read_unread, View.ld_unit_zero (S := S2048x128) hz, View.ld_unit_zero (S := S1x1) hz]

theorem oC4 (hc0 : ¬cond0_0 i) (hc1 : cond0_1 i) :
    out0_C_4 c i a1 h1 a2 h2 a3 h3 a4 h4 a5 h5 a6 h6 a7 h7 a8 h8 a9 h9 a10 h10 hc0 hc1 x0 x1 x2 x3 xs0 xs1 xs2 = accLg i x0 x1 x2 x3 xs0 := by
  unfold out0_C_4
  rw [View.read_writes_eq_canon _ _ _ (cover0_C_4 c i a1 h1 a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h8.read_unread, h9.read_unread, h10.read_unread, View.ld_unit_zero (S := S2048x128) hz, View.ld_unit_zero (S := S1x1) hz]

theorem oC5 (hc0 : ¬cond0_0 i) (hc1 : cond0_1 i) :
    out0_C_5 c i a1 h1 a2 h2 a3 h3 a4 h4 a5 h5 a6 h6 a7 h7 a8 h8 a9 h9 a10 h10 hc0 hc1 x0 x1 x2 x3 xs0 xs1 xs2 = accSq i x0 x1 x2 x3 xs1 := by
  unfold out0_C_5
  rw [View.read_writes_eq_canon _ _ _ (cover0_C_5 c i a1 h1 a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h8.read_unread, h9.read_unread, h10.read_unread, View.ld_unit_zero (S := S2048x128) hz, View.ld_unit_zero (S := S1x1) hz]

theorem oC6 (hc0 : ¬cond0_0 i) (hc1 : cond0_1 i) :
    out0_C_6 c i a1 h1 a2 h2 a3 h3 a4 h4 a5 h5 a6 h6 a7 h7 a8 h8 a9 h9 a10 h10 hc0 hc1 x0 x1 x2 x3 xs0 xs1 xs2 = accCnt i x0 x1 xs2 := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h8.read_unread, h9.read_unread, h10.read_unread, View.ld_unit_zero (S := S2048x128) hz, View.ld_unit_zero (S := S1x1) hz]

end
end Cert.KernelIdeal.KBody
end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.KBlock.lean ====
import proofs.«129107_j71382356459609_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«129107_j71382356459609_1_alg».proof.Proof.Spec
import proofs.«129107_j71382356459609_1_alg».proof.Proof.KBody
import proofs.«129107_j71382356459609_1_alg».proof.Proof.LibKeepdimsColumn

set_option maxRecDepth 16384

noncomputable section

open Idealize.ShloMosaic Idealize.ShloMosaic.TcCoe Idealize.SL.Sem
open Idealize.ShloMosaic.Pipeline (Dat)

/-! # One block's three partial sums, entry by entry

A block is a 2048 × 128 tile of each of the four gathered arrays (ga, gb, pa, pb).  Entry (r, l) of the block at grid
point i is pair number (2048·i + r)·128 + l when that number is below 9 932 024 and padding otherwise; the kernel
computes that comparison as a bit.  Each accumulator receives its previous contents plus the sum, over the rows and then
the lanes of the block, of the pair's term where the bit is set and 0 elsewhere. -/

namespace Cert.KernelIdeal.KBlock
open Cert.KernelIdeal Cert.KernelIdeal.Gen Cert.KernelIdeal.KBody Cert.RankSpec Idealize.ShloMosaic.ValueIdx

/-- The bit "entry (r, l) of the block at grid point i is a pair, not padding". -/
def validBit (i : grid0.Coords) (r : Fin 2048) (l : Fin 128) : BitVec 1 := k0_pay9 i (ix2 r l)

/-- The sum over rows, then lanes, of a 2048 × 128 block, as the kernel takes it: a lane sum per row, the column of row
    sums summed, the result a 1 × 1 array. -/
def tot (v : FVec Ideal S2048x128 .f32) : FVec Ideal S1x1 .f32 :=
  shapeCast S1x1 (multiReduction .add [0] S1 (shapeCast S2048x1 (multiReduction .add [1] S2048 v 0x00000000#32
    reduces_S2048x128_S2048 (.inl rfl) rfl) shapeCasts_S2048_S2048x1) 0x00000000#32 reduces_S2048x1_S1 (.inl rfl) rfl) shapeCasts_S1_S1x1

theorem tot_apply (v : FVec Ideal S2048x128 .f32) (j : S1x1.Idx) :
    tot v j = ∑ r : Fin 2048, ∑ l : Fin 128, v (ix2 r l) := by
  obtain ⟨a, b, rfl⟩ : ∃ (a b : Fin 1), j = ix2 a b := ⟨j 0, j 1, eq_ix2 j⟩
  unfold tot
  refine (Cert.KeepdimsColumn.shapeCast_a_a1_apply _ shapeCasts_S1_S1x1 a b).trans ?_
  refine (Ideal.multiReduction_add_single _ 0x00000000#32 reduces_S2048x1_S1 (.inl rfl) rfl (ix1 a)).trans ?_
  show ∑ r : Fin 2048, _ = _
  refine Finset.sum_congr rfl fun r _ => ?_
  have e1 : reduces_S2048x1_S1.lift (ix1 a) r = ix2 r (0 : Fin 1) := by
    funext d; refine Fin.ext ?_
    match d with
    | ⟨0, _⟩ => rfl
    | ⟨1, _⟩ => show a.val = 0; omega
  rw [e1]
  refine (Cert.KeepdimsColumn.shapeCast_a_a1_apply _ shapeCasts_S2048_S2048x1 r 0).trans ?_
  refine (Ideal.multiReduction_add_single v 0x00000000#32 reduces_S2048x128_S2048 (.inl rfl) rfl (ix1 r)).trans ?_
  show ∑ l : Fin 128, _ = _
  refine Finset.sum_congr rfl fun l _ => ?_
  have e2 : reduces_S2048x128_S2048.lift (ix1 r) l = ix2 r l := by
    funext d; refine Fin.ext ?_
    match d with
    | ⟨0, _⟩ => rfl
    | ⟨1, _⟩ => rfl
  rw [e2]

/-! ## The block's pointwise values -/

variable (i : grid0.Coords) (x0 x1 x2 x3 : Vec Ideal S2048x128 .f32) (r : Fin 2048) (l : Fin 128)

theorem pay6_apply : k0_pay6 (F := Ideal) x0 x1 (ix2 r l) = tgt (x0 (ix2 r l)) (x1 (ix2 r l)) := by
  unfold k0_pay6
  simp only [shapeCast_self]
  rfl

theorem pay7_apply : k0_pay7 (F := Ideal) x2 x3 (ix2 r l) = x2 (ix2 r l) - x3 (ix2 r l) := by
  unfold k0_pay7
  simp only [shapeCast_self]
  rfl

theorem pay8_apply : k0_pay8 (F := Ideal) x0 x1 (ix2 r l) = nzb (x0 (ix2 r l)) (x1 (ix2 r l)) := by
  unfold k0_pay8
  show FloatOps.cmpf .one (k0_pay6 (F := Ideal) x0 x1 (ix2 r l)) _ = _
  rw [pay6_apply]
  rfl

theorem pay10_apply : k0_pay10 (F := Ideal) i x0 x1 (ix2 r l) = IntOp.andi (nzb (x0 (ix2 r l)) (x1 (ix2 r l))) (validBit i r l) := by
  unfold k0_pay10
  show IntOp.andi (k0_pay8 (F := Ideal) x0 x1 (ix2 r l)) _ = _
  rw [pay8_apply]
  rfl

theorem pay11_apply : k0_pay11 (F := Ideal) i x0 x1 (ix2 r l)
    = IntOp.andi (IntOp.xori (nzb (x0 (ix2 r l)) (x1 (ix2 r l))) 1#1) (validBit i r l) := by
  unfold k0_pay11
  show IntOp.andi (IntOp.xori (k0_pay8 (F := Ideal) x0 x1 (ix2 r l)) _) _ = _
  rw [pay8_apply]
  rfl

/-- A selection bit that is the conjunction of a pair's bit and the validity bit: on a valid entry the pair's bit
    selects, on padding the alternative is taken. -/
theorem select_andi (b v : BitVec 1) (x y : R) :
    Scalar.select (IntOp.andi b v) x y = Scalar.select v (Scalar.select b x y) y := by
  rcases BitVec.eq_zero_or_eq_one b with h | h <;> rcases BitVec.eq_zero_or_eq_one v with h' | h' <;> subst h <;> subst h' <;> rfl

/-! ## The three accumulators after a block -/

variable (xs : Vec Ideal S1x1 .f32) (j : S1x1.Idx)

theorem accLg_apply : accLg (F := Ideal) i x0 x1 x2 x3 xs j
    = xs j + ∑ r : Fin 2048, ∑ l : Fin 128,
        Scalar.select (validBit i r l) (lgTerm (x0 (ix2 r l)) (x1 (ix2 r l)) (x2 (ix2 r l)) (x3 (ix2 r l))) zero := by
  show k0_pay14 (F := Ideal) _ _ _ xs j = _
  unfold k0_pay14
  simp only [shapeCast_self]
  show xs j + tot _ j = _
  rw [tot_apply]
  refine congrArg (xs j + ·) (Finset.sum_congr rfl fun r _ => Finset.sum_congr rfl fun l _ => ?_)
  show Scalar.select (k0_pay10 (F := Ideal) i x0 x1 (ix2 r l)) _ _ = _
  rw [pay10_apply, select_andi]
  refine congrArg (fun z => Scalar.select (validBit i r l) z zero) ?_
  show Scalar.select _ (splus ((zero - k0_pay6 (F := Ideal) x0 x1 (ix2 r l)) * k0_pay7 (F := Ideal) x2 x3 (ix2 r l))) zero = _
  rw [pay6_apply, pay7_apply]
  rfl

theorem accSq_apply : accSq (F := Ideal) i x0 x1 x2 x3 xs j
    = xs j + ∑ r : Fin 2048, ∑ l : Fin 128,
        Scalar.select (validBit i r l) (sqTerm (x0 (ix2 r l)) (x1 (ix2 r l)) (x2 (ix2 r l)) (x3 (ix2 r l))) zero := by
  show k0_pay1 (F := Ideal) (k0_pay12 (F := Ideal) _ _) xs j = _
  unfold k0_pay1 k0_pay12
  simp only [shapeCast_self]
  show xs j + tot _ j = _
  rw [tot_apply]
  refine congrArg (xs j + ·) (Finset.sum_congr rfl fun r _ => Finset.sum_congr rfl fun l _ => ?_)
  show Scalar.select (k0_pay11 (F := Ideal) i x0 x1 (ix2 r l)) (k0_pay7 (F := Ideal) x2 x3 (ix2 r l) * k0_pay7 (F := Ideal) x2 x3 (ix2 r l)) _ = _
  rw [pay11_apply, select_andi, pay7_apply]
  rfl

theorem accCnt_apply : accCnt (F := Ideal) i x0 x1 xs j
    = xs j + ∑ r : Fin 2048, ∑ l : Fin 128,
        Scalar.select (validBit i r l) (cntTerm (x0 (ix2 r l)) (x1 (ix2 r l))) zero := by
  show k0_pay2 (F := Ideal) (k0_pay13 (F := Ideal) _) xs j = _
  unfold k0_pay2 k0_pay13
  simp only [shapeCast_self]
  show xs j + tot _ j = _
  rw [tot_apply]
  refine congrArg (xs j + ·) (Finset.sum_congr rfl fun r _ => Finset.sum_congr rfl fun l _ => ?_)
  show Scalar.select (k0_pay10 (F := Ideal) i x0 x1 (ix2 r l)) _ _ = _
  rw [pay10_apply, select_andi]
  rfl

/-- The reset value of each accumulator is 0. -/
theorem pay3_apply : k0_pay3 (F := Ideal) j = 0 := by
  unfold k0_pay3; simp only [shapeCast_self]; exact Ideal.ofBits_zero_f32
theorem pay4_apply : k0_pay4 (F := Ideal) j = 0 := by
  unfold k0_pay4; simp only [shapeCast_self]; exact Ideal.ofBits_zero_f32
theorem pay5_apply : k0_pay5 (F := Ideal) j = 0 := by
  unfold k0_pay5; simp only [shapeCast_self]; exact Ideal.ofBits_zero_f32

end Cert.KernelIdeal.KBlock
end
-- ==== Proof.KAccum.lean ====
import proofs.«129107_j71382356459609_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«129107_j71382356459609_1_alg».proof.Proof.KBody

set_option maxRecDepth 16384

noncomputable section

open Idealize.ShloMosaic Idealize.ShloMosaic.TcCoe Idealize.SL.Sem
open Idealize.ShloMosaic.Pipeline (Dat)

/-! # The accumulators and the results, point by point

After grid point n the k-th accumulator holds the k-th block function (the previous contents plus the block's partial
sum) iterated over the points 0 … n from 0; at the last point the k-th result holds the same.  Here each step is one
equation between what a point leaves and the block function of what the point before left; the sums are opened in
the next module. -/

namespace Cert.KernelIdeal.KAccum
open Cert.KernelIdeal Cert.KernelIdeal.Gen Cert.KernelIdeal.KBody

variable (m : (ℓ : Loc nD τ sig) → Buf (Elt Ideal) ℓ) (c : Dev nD)

/-- The first point: accumulator 0 is the block function of the reset value. -/
theorem first0 (t : Fin cfg0.N) (h0 : t.val % 38 = 0) (h1 : ¬t.val % 38 = 37) :
    (outsAt0 m c t.val t.isLt).2.2.2.1 = accLg (F := Ideal) (grid0.coords t) (iblk m c 0 t) (iblk m c 1 t) (iblk m c 2 t) (iblk m c 3 t) (k0_pay3 (F := Ideal)) := by
  rw [outsAt0_A m c t h0 h1]
  dsimp only
  exact sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))

/-- A middle point: accumulator 0 is the block function of what the point before left. -/
theorem mid0 (t : Fin cfg0.N) (h0 : ¬t.val % 38 = 0) (h1 : ¬t.val % 38 = 37) :
    (outsAt0 m c t.val t.isLt).2.2.2.1 = accLg (F := Ideal) (grid0.coords t) (iblk m c 0 t) (iblk m c 1 t) (iblk m c 2 t) (iblk m c 3 t) (outsAt0 m c (t.val - 1) (Nat.lt_of_le_of_lt (Nat.sub_le _ _) t.isLt)).2.2.2.1 := by
  rw [outsAt0_B m c t h0 h1]
  dsimp only
  exact sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- The last point: accumulator 0 likewise, -/
theorem last0 (t : Fin cfg0.N) (h0 : ¬t.val % 38 = 0) (h1 : t.val % 38 = 37) :
    (outsAt0 m c t.val t.isLt).2.2.2.1 = accLg (F := Ideal) (grid0.coords t) (iblk m c 0 t) (iblk m c 1 t) (iblk m c 2 t) (iblk m c 3 t) (outsAt0 m c (t.val - 1) (Nat.lt_of_le_of_lt (Nat.sub_le _ _) t.isLt)).2.2.2.1 := by
  rw [outsAt0_C m c t h0 h1]
  dsimp only
  exact sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-- and result 0 holds the same contents. -/
theorem out0 (t : Fin cfg0.N) (h0 : ¬t.val % 38 = 0) (h1 : t.val % 38 = 37) :
    (outsAt0 m c t.val t.isLt).1 = accLg (F := Ideal) (grid0.coords t) (iblk m c 0 t) (iblk m c 1 t) (iblk m c 2 t) (iblk m c 3 t) (outsAt0 m c (t.val - 1) (Nat.lt_of_le_of_lt (Nat.sub_le _ _) t.isLt)).2.2.2.1 := by
  rw [outsAt0_C m c t h0 h1]
  dsimp only
  exact oC4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-- The first point: accumulator 1 is the block function of the reset value. -/
theorem first1 (t : Fin cfg0.N) (h0 : t.val % 38 = 0) (h1 : ¬t.val % 38 = 37) :
    (outsAt0 m c t.val t.isLt).2.2.2.2.1 = accSq (F := Ideal) (grid0.coords t) (iblk m c 0 t) (iblk m c 1 t) (iblk m c 2 t) (iblk m c 3 t) (k0_pay4 (F := Ideal)) := by
  rw [outsAt0_A m c t h0 h1]
  dsimp only
  exact sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))

/-- A middle point: accumulator 1 is the block function of what the point before left. -/
theorem mid1 (t : Fin cfg0.N) (h0 : ¬t.val % 38 = 0) (h1 : ¬t.val % 38 = 37) :
    (outsAt0 m c t.val t.isLt).2.2.2.2.1 = accSq (F := Ideal) (grid0.coords t) (iblk m c 0 t) (iblk m c 1 t) (iblk m c 2 t) (iblk m c 3 t) (outsAt0 m c (t.val - 1) (Nat.lt_of_le_of_lt (Nat.sub_le _ _) t.isLt)).2.2.2.2.1 := by
  rw [outsAt0_B m c t h0 h1]
  dsimp only
  exact sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- The last point: accumulator 1 likewise, -/
theorem last1 (t : Fin cfg0.N) (h0 : ¬t.val % 38 = 0) (h1 : t.val % 38 = 37) :
    (outsAt0 m c t.val t.isLt).2.2.2.2.1 = accSq (F := Ideal) (grid0.coords t) (iblk m c 0 t) (iblk m c 1 t) (iblk m c 2 t) (iblk m c 3 t) (outsAt0 m c (t.val - 1) (Nat.lt_of_le_of_lt (Nat.sub_le _ _) t.isLt)).2.2.2.2.1 := by
  rw [outsAt0_C m c t h0 h1]
  dsimp only
  exact sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-- and result 1 holds the same contents. -/
theorem out1 (t : Fin cfg0.N) (h0 : ¬t.val % 38 = 0) (h1 : t.val % 38 = 37) :
    (outsAt0 m c t.val t.isLt).2.1 = accSq (F := Ideal) (grid0.coords t) (iblk m c 0 t) (iblk m c 1 t) (iblk m c 2 t) (iblk m c 3 t) (outsAt0 m c (t.val - 1) (Nat.lt_of_le_of_lt (Nat.sub_le _ _) t.isLt)).2.2.2.2.1 := by
  rw [outsAt0_C m c t h0 h1]
  dsimp only
  exact oC5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-- The first point: accumulator 2 is the block function of the reset value. -/
theorem first2 (t : Fin cfg0.N) (h0 : t.val % 38 = 0) (h1 : ¬t.val % 38 = 37) :
    (outsAt0 m c t.val t.isLt).2.2.2.2.2 = accCnt (F := Ideal) (grid0.coords t) (iblk m c 0 t) (iblk m c 1 t) (k0_pay5 (F := Ideal)) := by
  rw [outsAt0_A m c t h0 h1]
  dsimp only
  exact sA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))

/-- A middle point: accumulator 2 is the block function of what the point before left. -/
theorem mid2 (t : Fin cfg0.N) (h0 : ¬t.val % 38 = 0) (h1 : ¬t.val % 38 = 37) :
    (outsAt0 m c t.val t.isLt).2.2.2.2.2 = accCnt (F := Ideal) (grid0.coords t) (iblk m c 0 t) (iblk m c 1 t) (outsAt0 m c (t.val - 1) (Nat.lt_of_le_of_lt (Nat.sub_le _ _) t.isLt)).2.2.2.2.2 := by
  rw [outsAt0_B m c t h0 h1]
  dsimp only
  exact sB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))

/-- The last point: accumulator 2 likewise, -/
theorem last2 (t : Fin cfg0.N) (h0 : ¬t.val % 38 = 0) (h1 : t.val % 38 = 37) :
    (outsAt0 m c t.val t.isLt).2.2.2.2.2 = accCnt (F := Ideal) (grid0.coords t) (iblk m c 0 t) (iblk m c 1 t) (outsAt0 m c (t.val - 1) (Nat.lt_of_le_of_lt (Nat.sub_le _ _) t.isLt)).2.2.2.2.2 := by
  rw [outsAt0_C m c t h0 h1]
  dsimp only
  exact sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-- and result 2 holds the same contents. -/
theorem out2 (t : Fin cfg0.N) (h0 : ¬t.val % 38 = 0) (h1 : t.val % 38 = 37) :
    (outsAt0 m c t.val t.isLt).2.2.1 = accCnt (F := Ideal) (grid0.coords t) (iblk m c 0 t) (iblk m c 1 t) (outsAt0 m c (t.val - 1) (Nat.lt_of_le_of_lt (Nat.sub_le _ _) t.isLt)).2.2.2.2.2 := by
  rw [outsAt0_C m c t h0 h1]
  dsimp only
  exact oC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

end Cert.KernelIdeal.KAccum
end
-- ==== Proof.KSum.lean ====
import proofs.«129107_j71382356459609_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«129107_j71382356459609_1_alg».proof.Proof.KBlock
import proofs.«129107_j71382356459609_1_alg».proof.Proof.KAccum

set_option maxRecDepth 16384

noncomputable section

open Idealize.ShloMosaic Idealize.ShloMosaic.TcCoe Idealize.SL.Sem
open Idealize.ShloMosaic.Pipeline (Dat)

/-! # The accumulators are running sums over the grid points

Block t's partial sum of each kind is the sum over its 2048 × 128 entries of the pair's term where the entry is a pair
and 0 where it is padding.  After point n each accumulator holds the sum of the partial sums of blocks 0 … n (the reset
value 0 at the first point, then one addition per point), and at the last point, 37, each result holds the sum over all
38 blocks. -/

namespace Cert.KernelIdeal.KSum
open Cert.KernelIdeal Cert.KernelIdeal.Gen Cert.KernelIdeal.KBody Cert.KernelIdeal.KBlock Cert.KernelIdeal.KAccum
open Cert.RankSpec Idealize.ShloMosaic.ValueIdx

variable (m : (ℓ : Loc nD τ sig) → Buf (Elt Ideal) ℓ) (c : Dev nD)

theorem hN : cfg0.N = 38 := N_0

/-- Block n's partial sum of kind 0 (0 for n outside the grid). -/
def blkLg (n : ℕ) : R :=
  if h : n < cfg0.N then
    ∑ r : Fin 2048, ∑ l : Fin 128, Scalar.select (validBit (grid0.coords ⟨n, h⟩) r l) (lgTerm (iblk m c 0 ⟨n, h⟩ (ix2 r l)) (iblk m c 1 ⟨n, h⟩ (ix2 r l)) (iblk m c 2 ⟨n, h⟩ (ix2 r l)) (iblk m c 3 ⟨n, h⟩ (ix2 r l))) zero
  else 0

/-- Accumulator 0 after point n is the sum of the partial sums of blocks 0 … n. -/
theorem acc0_eq : ∀ (n : ℕ) (h : n < cfg0.N) (j : S1x1.Idx),
    (outsAt0 m c n h).2.2.2.1 j = ∑ t ∈ Finset.range (n + 1), blkLg m c t
  | 0, h, j => by
    refine (congrFun (first0 m c ⟨0, h⟩ rfl (by show ¬ 0 % 38 = 37; decide)) j).trans ?_
    refine (accLg_apply (grid0.coords ⟨0, h⟩) (iblk m c 0 ⟨0, h⟩) (iblk m c 1 ⟨0, h⟩) (iblk m c 2 ⟨0, h⟩) (iblk m c 3 ⟨0, h⟩) (k0_pay3 (F := Ideal)) j).trans ?_
    rw [pay3_apply, zero_add, Finset.sum_range_one]
    unfold blkLg; rw [dif_pos h]
  | n + 1, h, j => by
    have h38 : n + 1 < 38 := lt_of_lt_of_eq h (hN)
    have h0 : ¬(⟨n + 1, h⟩ : Fin cfg0.N).val % 38 = 0 := by dsimp only; omega
    have ih := acc0_eq n (Nat.lt_of_succ_lt h) j
    rw [Finset.sum_range_succ, ← ih]
    by_cases h1 : (⟨n + 1, h⟩ : Fin cfg0.N).val % 38 = 37
    · refine (congrFun (last0 m c ⟨n + 1, h⟩ h0 h1) j).trans ?_
      refine (accLg_apply (grid0.coords ⟨n + 1, h⟩) (iblk m c 0 ⟨n + 1, h⟩) (iblk m c 1 ⟨n + 1, h⟩) (iblk m c 2 ⟨n + 1, h⟩) (iblk m c 3 ⟨n + 1, h⟩) _ j).trans ?_
      exact congrArg (_ + ·) (by unfold blkLg; rw [dif_pos h])
    · refine (congrFun (mid0 m c ⟨n + 1, h⟩ h0 h1) j).trans ?_
      refine (accLg_apply (grid0.coords ⟨n + 1, h⟩) (iblk m c 0 ⟨n + 1, h⟩) (iblk m c 1 ⟨n + 1, h⟩) (iblk m c 2 ⟨n + 1, h⟩) (iblk m c 3 ⟨n + 1, h⟩) _ j).trans ?_
      exact congrArg (_ + ·) (by unfold blkLg; rw [dif_pos h])

/-- Result 0 after a last point n + 1 is the sum over the blocks 0 … n + 1. -/
theorem res0_eq (n : ℕ) (h : n + 1 < cfg0.N) (hl : (n + 1) % 38 = 37) (j : S1x1.Idx) :
    (outsAt0 m c (n + 1) h).1 j = ∑ t ∈ Finset.range (n + 1 + 1), blkLg m c t := by
  have h38 : n + 1 < 38 := lt_of_lt_of_eq h (hN)
  have h0 : ¬(⟨n + 1, h⟩ : Fin cfg0.N).val % 38 = 0 := by dsimp only; omega
  have ih := acc0_eq m c n (Nat.lt_of_succ_lt h) j
  rw [Finset.sum_range_succ, ← ih]
  refine (congrFun (out0 m c ⟨n + 1, h⟩ h0 hl) j).trans ?_
  refine (accLg_apply (grid0.coords ⟨n + 1, h⟩) (iblk m c 0 ⟨n + 1, h⟩) (iblk m c 1 ⟨n + 1, h⟩) (iblk m c 2 ⟨n + 1, h⟩) (iblk m c 3 ⟨n + 1, h⟩) _ j).trans ?_
  exact congrArg (_ + ·) (by unfold blkLg; rw [dif_pos h])

/-- Block n's partial sum of kind 1 (0 for n outside the grid). -/
def blkSq (n : ℕ) : R :=
  if h : n < cfg0.N then
    ∑ r : Fin 2048, ∑ l : Fin 128, Scalar.select (validBit (grid0.coords ⟨n, h⟩) r l) (sqTerm (iblk m c 0 ⟨n, h⟩ (ix2 r l)) (iblk m c 1 ⟨n, h⟩ (ix2 r l)) (iblk m c 2 ⟨n, h⟩ (ix2 r l)) (iblk m c 3 ⟨n, h⟩ (ix2 r l))) zero
  else 0

/-- Accumulator 1 after point n is the sum of the partial sums of blocks 0 … n. -/
theorem acc1_eq : ∀ (n : ℕ) (h : n < cfg0.N) (j : S1x1.Idx),
    (outsAt0 m c n h).2.2.2.2.1 j = ∑ t ∈ Finset.range (n + 1), blkSq m c t
  | 0, h, j => by
    refine (congrFun (first1 m c ⟨0, h⟩ rfl (by show ¬ 0 % 38 = 37; decide)) j).trans ?_
    refine (accSq_apply (grid0.coords ⟨0, h⟩) (iblk m c 0 ⟨0, h⟩) (iblk m c 1 ⟨0, h⟩) (iblk m c 2 ⟨0, h⟩) (iblk m c 3 ⟨0, h⟩) (k0_pay4 (F := Ideal)) j).trans ?_
    rw [pay4_apply, zero_add, Finset.sum_range_one]
    unfold blkSq; rw [dif_pos h]
  | n + 1, h, j => by
    have h38 : n + 1 < 38 := lt_of_lt_of_eq h (hN)
    have h0 : ¬(⟨n + 1, h⟩ : Fin cfg0.N).val % 38 = 0 := by dsimp only; omega
    have ih := acc1_eq n (Nat.lt_of_succ_lt h) j
    rw [Finset.sum_range_succ, ← ih]
    by_cases h1 : (⟨n + 1, h⟩ : Fin cfg0.N).val % 38 = 37
    · refine (congrFun (last1 m c ⟨n + 1, h⟩ h0 h1) j).trans ?_
      refine (accSq_apply (grid0.coords ⟨n + 1, h⟩) (iblk m c 0 ⟨n + 1, h⟩) (iblk m c 1 ⟨n + 1, h⟩) (iblk m c 2 ⟨n + 1, h⟩) (iblk m c 3 ⟨n + 1, h⟩) _ j).trans ?_
      exact congrArg (_ + ·) (by unfold blkSq; rw [dif_pos h])
    · refine (congrFun (mid1 m c ⟨n + 1, h⟩ h0 h1) j).trans ?_
      refine (accSq_apply (grid0.coords ⟨n + 1, h⟩) (iblk m c 0 ⟨n + 1, h⟩) (iblk m c 1 ⟨n + 1, h⟩) (iblk m c 2 ⟨n + 1, h⟩) (iblk m c 3 ⟨n + 1, h⟩) _ j).trans ?_
      exact congrArg (_ + ·) (by unfold blkSq; rw [dif_pos h])

/-- Result 1 after a last point n + 1 is the sum over the blocks 0 … n + 1. -/
theorem res1_eq (n : ℕ) (h : n + 1 < cfg0.N) (hl : (n + 1) % 38 = 37) (j : S1x1.Idx) :
    (outsAt0 m c (n + 1) h).2.1 j = ∑ t ∈ Finset.range (n + 1 + 1), blkSq m c t := by
  have h38 : n + 1 < 38 := lt_of_lt_of_eq h (hN)
  have h0 : ¬(⟨n + 1, h⟩ : Fin cfg0.N).val % 38 = 0 := by dsimp only; omega
  have ih := acc1_eq m c n (Nat.lt_of_succ_lt h) j
  rw [Finset.sum_range_succ, ← ih]
  refine (congrFun (out1 m c ⟨n + 1, h⟩ h0 hl) j).trans ?_
  refine (accSq_apply (grid0.coords ⟨n + 1, h⟩) (iblk m c 0 ⟨n + 1, h⟩) (iblk m c 1 ⟨n + 1, h⟩) (iblk m c 2 ⟨n + 1, h⟩) (iblk m c 3 ⟨n + 1, h⟩) _ j).trans ?_
  exact congrArg (_ + ·) (by unfold blkSq; rw [dif_pos h])

/-- Block n's partial sum of kind 2 (0 for n outside the grid). -/
def blkCnt (n : ℕ) : R :=
  if h : n < cfg0.N then
    ∑ r : Fin 2048, ∑ l : Fin 128, Scalar.select (validBit (grid0.coords ⟨n, h⟩) r l) (cntTerm (iblk m c 0 ⟨n, h⟩ (ix2 r l)) (iblk m c 1 ⟨n, h⟩ (ix2 r l))) zero
  else 0

/-- Accumulator 2 after point n is the sum of the partial sums of blocks 0 … n. -/
theorem acc2_eq : ∀ (n : ℕ) (h : n < cfg0.N) (j : S1x1.Idx),
    (outsAt0 m c n h).2.2.2.2.2 j = ∑ t ∈ Finset.range (n + 1), blkCnt m c t
  | 0, h, j => by
    refine (congrFun (first2 m c ⟨0, h⟩ rfl (by show ¬ 0 % 38 = 37; decide)) j).trans ?_
    refine (accCnt_apply (grid0.coords ⟨0, h⟩) (iblk m c 0 ⟨0, h⟩) (iblk m c 1 ⟨0, h⟩) (k0_pay5 (F := Ideal)) j).trans ?_
    rw [pay5_apply, zero_add, Finset.sum_range_one]
    unfold blkCnt; rw [dif_pos h]
  | n + 1, h, j => by
    have h38 : n + 1 < 38 := lt_of_lt_of_eq h (hN)
    have h0 : ¬(⟨n + 1, h⟩ : Fin cfg0.N).val % 38 = 0 := by dsimp only; omega
    have ih := acc2_eq n (Nat.lt_of_succ_lt h) j
    rw [Finset.sum_range_succ, ← ih]
    by_cases h1 : (⟨n + 1, h⟩ : Fin cfg0.N).val % 38 = 37
    · refine (congrFun (last2 m c ⟨n + 1, h⟩ h0 h1) j).trans ?_
      refine (accCnt_apply (grid0.coords ⟨n + 1, h⟩) (iblk m c 0 ⟨n + 1, h⟩) (iblk m c 1 ⟨n + 1, h⟩) _ j).trans ?_
      exact congrArg (_ + ·) (by unfold blkCnt; rw [dif_pos h])
    · refine (congrFun (mid2 m c ⟨n + 1, h⟩ h0 h1) j).trans ?_
      refine (accCnt_apply (grid0.coords ⟨n + 1, h⟩) (iblk m c 0 ⟨n + 1, h⟩) (iblk m c 1 ⟨n + 1, h⟩) _ j).trans ?_
      exact congrArg (_ + ·) (by unfold blkCnt; rw [dif_pos h])

/-- Result 2 after a last point n + 1 is the sum over the blocks 0 … n + 1. -/
theorem res2_eq (n : ℕ) (h : n + 1 < cfg0.N) (hl : (n + 1) % 38 = 37) (j : S1x1.Idx) :
    (outsAt0 m c (n + 1) h).2.2.1 j = ∑ t ∈ Finset.range (n + 1 + 1), blkCnt m c t := by
  have h38 : n + 1 < 38 := lt_of_lt_of_eq h (hN)
  have h0 : ¬(⟨n + 1, h⟩ : Fin cfg0.N).val % 38 = 0 := by dsimp only; omega
  have ih := acc2_eq m c n (Nat.lt_of_succ_lt h) j
  rw [Finset.sum_range_succ, ← ih]
  refine (congrFun (out2 m c ⟨n + 1, h⟩ h0 hl) j).trans ?_
  refine (accCnt_apply (grid0.coords ⟨n + 1, h⟩) (iblk m c 0 ⟨n + 1, h⟩) (iblk m c 1 ⟨n + 1, h⟩) _ j).trans ?_
  exact congrArg (_ + ·) (by unfold blkCnt; rw [dif_pos h])

end Cert.KernelIdeal.KSum
end
-- ==== Proof.KFinal.lean ====
import proofs.«129107_j71382356459609_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«129107_j71382356459609_1_alg».proof.Proof.KSum

set_option maxRecDepth 16384

noncomputable section

open Idealize.ShloMosaic Idealize.ShloMosaic.TcCoe Idealize.SL.Sem
open Idealize.ShloMosaic.Pipeline (Dat)

/-! # The three 1 × 1 result arrays after the region

Each result window is written back once, after the last grid point, and its one block is the whole 1 × 1 array; so
each result array ends holding what the last point left in its staging buffer: the sum over all 38 blocks. -/

namespace Cert.KernelIdeal.KFinal
open Cert.KernelIdeal Cert.KernelIdeal.Gen Cert.KernelIdeal.KSum Cert.RankSpec Idealize.ShloMosaic.ValueIdx

variable (m : (ℓ : Loc nD τ sig) → Buf (Elt Ideal) ℓ) (c : Dev nD)

/-- The last grid point. -/
abbrev tLast : Fin cfg0.N := ⟨36 + 1, by rw [show cfg0.N = 38 from N_0]; decide⟩

/-- What the last point leaves in result 0's staging buffer, as contents of the result array. -/
abbrev res0 : Buf (Elt Ideal) ((c : Thread nD τ).loc main_v40_0) := (outsAt0 m c tLast.val tLast.isLt).1

set_option maxHeartbeats 4000000 in
/-- The last point's block of result 0 is the whole 1 × 1 array: cutting a staging buffer's contents to the block and
    reading the array's contents through the block are the same function. -/
theorem cut_read0 (X : Vec Ideal S1x1 .f32) :
    (cfg0.win 4).cut (grid0.coords tLast) X = ((cfg0.win 4).blk tLast).view.read (Elt Ideal) (X : Buf (Elt Ideal) ((c : Thread nD τ).loc main_v40_0)) := by
  have hz' : (fun a => win0_4.index tLast a * main_v40_0.ty.shape.size a) = fun _ => 0 := funext fun a => by fin_cases a <;> decide
  exact (Memref.read_access_unit_zero (Elt Ideal) main_v40_0 hz' (fun a => by rw [congrFun hz' a]; simp) X).symm

set_option maxHeartbeats 4000000 in
theorem flushed0_eq (t : Fin cfg0.N) (hf : (cfg0.win 4).flush t = true) :
    (dats m 0 c).flushed 4 t = ((cfg0.win 4).blk t).view.read (Elt Ideal) (res0 m c) := by
  have hN : cfg0.N = 38 := N_0
  have h37 : t.val = 37 := by have := (flush0_4 t).mp hf; have := t.isLt; omega
  obtain rfl : t = tLast := Fin.ext h37
  show (cfg0.win 4).cut (grid0.coords tLast) ((dats m 0 c).after 4 tLast)
    = ((cfg0.win 4).blk tLast).view.read (Elt Ideal) ((outsAt0 m c tLast.val tLast.isLt).1)
  rw [after0_4]
  generalize outsAt0 m c tLast.val tLast.isLt = T
  exact cut_read0 T.1

set_option maxHeartbeats 4000000 in
/-- Result array 0 after the region. -/
theorem final0 : (dats m 0 c).arrAt 4 cfg0.N = res0 m c :=
  (dats m 0 c).arrAt_eq_of_cover 4 (res0 m c) (flushed0_eq m c) fun i =>
    ⟨tLast, (flush0_4 tLast).mpr rfl, by
      show i ∈ ((View.whole main_v40_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- Its one entry is the sum over all 38 blocks. -/
theorem res0_apply (j : S1x1.Idx) : res0 m c j = ∑ t ∈ Finset.range 38, blkLg m c t :=
  res0_eq m c 36 tLast.isLt rfl j

/-- What the last point leaves in result 1's staging buffer, as contents of the result array. -/
abbrev res1 : Buf (Elt Ideal) ((c : Thread nD τ).loc main_v40_1) := (outsAt0 m c tLast.val tLast.isLt).2.1

set_option maxHeartbeats 4000000 in
/-- The last point's block of result 1 is the whole 1 × 1 array: cutting a staging buffer's contents to the block and
    reading the array's contents through the block are the same function. -/
theorem cut_read1 (X : Vec Ideal S1x1 .f32) :
    (cfg0.win 5).cut (grid0.coords tLast) X = ((cfg0.win 5).blk tLast).view.read (Elt Ideal) (X : Buf (Elt Ideal) ((c : Thread nD τ).loc main_v40_1)) := by
  have hz' : (fun a => win0_5.index tLast a * main_v40_1.ty.shape.size a) = fun _ => 0 := funext fun a => by fin_cases a <;> decide
  exact (Memref.read_access_unit_zero (Elt Ideal) main_v40_1 hz' (fun a => by rw [congrFun hz' a]; simp) X).symm

set_option maxHeartbeats 4000000 in
theorem flushed1_eq (t : Fin cfg0.N) (hf : (cfg0.win 5).flush t = true) :
    (dats m 0 c).flushed 5 t = ((cfg0.win 5).blk t).view.read (Elt Ideal) (res1 m c) := by
  have hN : cfg0.N = 38 := N_0
  have h37 : t.val = 37 := by have := (flush0_5 t).mp hf; have := t.isLt; omega
  obtain rfl : t = tLast := Fin.ext h37
  show (cfg0.win 5).cut (grid0.coords tLast) ((dats m 0 c).after 5 tLast)
    = ((cfg0.win 5).blk tLast).view.read (Elt Ideal) ((outsAt0 m c tLast.val tLast.isLt).2.1)
  rw [after0_5]
  generalize outsAt0 m c tLast.val tLast.isLt = T
  exact cut_read1 T.2.1

set_option maxHeartbeats 4000000 in
/-- Result array 1 after the region. -/
theorem final1 : (dats m 0 c).arrAt 5 cfg0.N = res1 m c :=
  (dats m 0 c).arrAt_eq_of_cover 5 (res1 m c) (flushed1_eq m c) fun i =>
    ⟨tLast, (flush0_5 tLast).mpr rfl, by
      show i ∈ ((View.whole main_v40_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- Its one entry is the sum over all 38 blocks. -/
theorem res1_apply (j : S1x1.Idx) : res1 m c j = ∑ t ∈ Finset.range 38, blkSq m c t :=
  res1_eq m c 36 tLast.isLt rfl j

/-- What the last point leaves in result 2's staging buffer, as contents of the result array. -/
abbrev res2 : Buf (Elt Ideal) ((c : Thread nD τ).loc main_v40_2) := (outsAt0 m c tLast.val tLast.isLt).2.2.1

set_option maxHeartbeats 4000000 in
/-- The last point's block of result 2 is the whole 1 × 1 array: cutting a staging buffer's contents to the block and
    reading the array's contents through the block are the same function. -/
theorem cut_read2 (X : Vec Ideal S1x1 .f32) :
    (cfg0.win 6).cut (grid0.coords tLast) X = ((cfg0.win 6).blk tLast).view.read (Elt Ideal) (X : Buf (Elt Ideal) ((c : Thread nD τ).loc main_v40_2)) := by
  have hz' : (fun a => win0_6.index tLast a * main_v40_2.ty.shape.size a) = fun _ => 0 := funext fun a => by fin_cases a <;> decide
  exact (Memref.read_access_unit_zero (Elt Ideal) main_v40_2 hz' (fun a => by rw [congrFun hz' a]; simp) X).symm

set_option maxHeartbeats 4000000 in
theorem flushed2_eq (t : Fin cfg0.N) (hf : (cfg0.win 6).flush t = true) :
    (dats m 0 c).flushed 6 t = ((cfg0.win 6).blk t).view.read (Elt Ideal) (res2 m c) := by
  have hN : cfg0.N = 38 := N_0
  have h37 : t.val = 37 := by have := (flush0_6 t).mp hf; have := t.isLt; omega
  obtain rfl : t = tLast := Fin.ext h37
  show (cfg0.win 6).cut (grid0.coords tLast) ((dats m 0 c).after 6 tLast)
    = ((cfg0.win 6).blk tLast).view.read (Elt Ideal) ((outsAt0 m c tLast.val tLast.isLt).2.2.1)
  rw [after0_6]
  generalize outsAt0 m c tLast.val tLast.isLt = T
  exact cut_read2 T.2.2.1

set_option maxHeartbeats 4000000 in
/-- Result array 2 after the region. -/
theorem final2 : (dats m 0 c).arrAt 6 cfg0.N = res2 m c :=
  (dats m 0 c).arrAt_eq_of_cover 6 (res2 m c) (flushed2_eq m c) fun i =>
    ⟨tLast, (flush0_6 tLast).mpr rfl, by
      show i ∈ ((View.whole main_v40_2).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

/-- Its one entry is the sum over all 38 blocks. -/
theorem res2_apply (j : S1x1.Idx) : res2 m c j = ∑ t ∈ Finset.range 38, blkCnt m c t :=
  res2_eq m c 36 tLast.isLt rfl j

end Cert.KernelIdeal.KFinal
end
-- ==== Proof.KTail.lean ====
import proofs.«129107_j71382356459609_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.StableHlo.Run
import proofs.«129107_j71382356459609_1_alg».proof.Proof.Spec

set_option maxRecDepth 16384

noncomputable section

open Idealize.ShloMosaic Idealize.ShloMosaic.TcCoe Idealize.SL.Sem
open Idealize.ShloMosaic.Pipeline (Dat)

/-! # The host operations after the region

After the region the host reads the three 1 × 1 results as scalars (the two sums and the count of ranked pairs),
subtracts the count from the number of pairs, divides each sum by its count (replaced by 1 when below 1), and selects:
the second mean alone when no pair is ranked, the first alone when every pair is ranked, their sum otherwise.  That is
the specification's `finish` of the three entries. -/

namespace Cert.KernelIdeal.KTail
open Cert.KernelIdeal Cert.KernelIdeal.Gen Cert.RankSpec Idealize.ShloMosaic.ValueIdx

/-- The tail's operations as one function of the three result arrays. -/
def tailFn (s0 s1 s2 : S1x1.Idx → R) : S_.Idx → R :=
  select (cmpf .oeq (shapeCast S_ s2 shapeCasts_S1x1_S_) (constant (F := Ideal) S_ .f32 0x00000000#32)) (Host.divf (shapeCast S_ s1 shapeCasts_S1x1_S_) (maximumf (subf (constant (F := Ideal) S_ .f32 0x4B178CF8#32) (shapeCast S_ s2 shapeCasts_S1x1_S_)) (constant (F := Ideal) S_ .f32 0x3F800000#32))) (select (cmpf .oeq (subf (constant (F := Ideal) S_ .f32 0x4B178CF8#32) (shapeCast S_ s2 shapeCasts_S1x1_S_)) (constant (F := Ideal) S_ .f32 0x00000000#32)) (Host.divf (shapeCast S_ s0 shapeCasts_S1x1_S_) (maximumf (shapeCast S_ s2 shapeCasts_S1x1_S_) (constant (F := Ideal) S_ .f32 0x3F800000#32))) (addf (Host.divf (shapeCast S_ s0 shapeCasts_S1x1_S_) (maximumf (shapeCast S_ s2 shapeCasts_S1x1_S_) (constant (F := Ideal) S_ .f32 0x3F800000#32))) (Host.divf (shapeCast S_ s1 shapeCasts_S1x1_S_) (maximumf (subf (constant (F := Ideal) S_ .f32 0x4B178CF8#32) (shapeCast S_ s2 shapeCasts_S1x1_S_)) (constant (F := Ideal) S_ .f32 0x3F800000#32)))))

theorem tailFn_apply (s0 s1 s2 : S1x1.Idx → R) (i : S_.Idx) :
    tailFn s0 s1 s2 i = finish (s0 (ix2 (0 : Fin 1) (0 : Fin 1))) (s1 (ix2 (0 : Fin 1) (0 : Fin 1))) (s2 (ix2 (0 : Fin 1) (0 : Fin 1))) := by
  have e : ∀ s : S1x1.Idx → R, shapeCast S_ s shapeCasts_S1x1_S_ i = s (ix2 (0 : Fin 1) (0 : Fin 1)) := fun s =>
    shapeCast_apply s shapeCasts_S1x1_S_ i (ix2 (0 : Fin 1) (0 : Fin 1)) (by
      have h1 := (S1x1.rowMajor (ix2 (0 : Fin 1) (0 : Fin 1))).isLt
      have h2 := (S_.rowMajor i).isLt
      have n1 : S1x1.numel = 1 := by decide
      have n2 : S_.numel = 1 := by decide
      omega)
  unfold tailFn
  show Scalar.select (FloatOps.cmpf .oeq (shapeCast S_ s2 shapeCasts_S1x1_S_ i) _) _ _ = _
  simp only [select_apply, cmpf_apply, Host.divf, maximumf, subf, addf, constant_apply, e]
  rfl

variable (m : (ℓ : Loc nD τ sig) → Buf (Elt Ideal) ℓ) (c : Dev nD)

set_option maxHeartbeats 4000000 in
/-- The tail's operations run from any buffer contents W: the result buffer holds the tail function of W's three
    result arrays. -/
theorem tail_after (W : Valuation τ sig (Elt Ideal)) :
    StableHlo.after ([hostOps1, hostOps1_1, hostOps1_2] : List (List (HloOp τ sig (Elt Ideal)))).flatten W (Proc.devRef .tc main_v53)
      = tailFn (W (Proc.devRef .tc main_v40_0)) (W (Proc.devRef .tc main_v40_1)) (W (Proc.devRef .tc main_v40_2)) := by
  simp only [hostOps1, hostOps1_1, hostOps1_2, List.flatten_cons, List.flatten_nil, List.append_nil, List.cons_append, List.nil_append]
  after_results_simp
  rfl

/-- The program's result buffer after the tail, from the three result arrays as the region leaves them. -/
theorem tail_eq :
    Pipeline.afterTail₀ cfgs (dats m) 0 (V0 m) [hostOps1, hostOps1_1, hostOps1_2] c main_v53
      = tailFn ((dats m 0 c).arrAt 4 cfg0.N) ((dats m 0 c).arrAt 5 cfg0.N) ((dats m 0 c).arrAt 6 cfg0.N) := by
  have e4 : Pipeline.withArrays spec0 c (V0 m c) (fun w => (dats m 0 c).arrAt w cfg0.N) (Proc.devRef .tc main_v40_0)
      = (dats m 0 c).arrAt 4 cfg0.N := Pipeline.withArrays_arr spec0 launch0.win.arr_inj c _ _ 4
  have e5 : Pipeline.withArrays spec0 c (V0 m c) (fun w => (dats m 0 c).arrAt w cfg0.N) (Proc.devRef .tc main_v40_1)
      = (dats m 0 c).arrAt 5 cfg0.N := Pipeline.withArrays_arr spec0 launch0.win.arr_inj c _ _ 5
  have e6 : Pipeline.withArrays spec0 c (V0 m c) (fun w => (dats m 0 c).arrAt w cfg0.N) (Proc.devRef .tc main_v40_2)
      = (dats m 0 c).arrAt 6 cfg0.N := Pipeline.withArrays_arr spec0 launch0.win.arr_inj c _ _ 6
  unfold Pipeline.afterTail₀
  refine (tail_after (Pipeline.withArrays spec0 c (V0 m c) fun w => (dats m 0 c).arrAt w cfg0.N)).trans ?_
  rw [e4, e5, e6]

end Cert.KernelIdeal.KTail
end
-- ==== Proof.RefGather.lean ====
/-
  Two shape operations read at an index, over variables (no program is imported).

  (1) The gather of a flat array `x : [N]` at start indices `idx : [K, 1]` (offset axes none, axis 0 collapsed, start
      index map [0], the index vector on axis 1, slices of one element): element `k` of the result is `x` at the
      start index `idx[k, 0]`, read as a signed integer and clamped into `[0, N - 1]`.
  (2) The concatenation along axis 0 of `a : [n₁]` and `b : [n₂]`: element `k` is `a k` when `k < n₁`, and
      `b (k - n₁)` otherwise.
-/
import proofs.«129107_j71382356459609_1_alg».proof.Proof.Spec
import Idealize.ShloMosaic.Lib.ValueIdx
import Idealize.ShloMosaic.Lib.Pipeline.Value

noncomputable section

namespace Cert.RefGather

open Idealize.ShloMosaic Idealize.ShloMosaic.ValueIdx

variable {α : Type}

/-! ## The gather of a flat array at a column of start indices -/

/-- The dimension numbers of `x[idx]` for an operand `[N]`, start indices `[K, 1]` and a result `[K]`. -/
abbrev colDims (N K : Nat) (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- Element `k` of the gather is the operand at the start index `idx[k, 0]`, read signed and clamped into
    `[0, N - 1]`: the one operand axis is collapsed and not a batching axis, so the operand index is the clamped
    start alone, and the start-indices index that result index `k` reads for component 0 is `(k, 0)`. -/
theorem gather_col_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K) :
    Host.gather (colDims N K wf) x idx (ix1 k)
      = x (ix1 ⟨min (idx (ix2 k (0 : Fin 1))).toInt.toNat (N - 1), by omega⟩) := by
  unfold Host.gather
  congr 1
  funext a
  obtain rfl : a = 0 := Subsingleton.elim _ _
  refine Fin.ext ?_
  show (colDims N K wf).start (ix1 k) idx 0 + (colDims N K wf).batchCoord (ix1 k) 0
      + (colDims N K wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N K wf).startIndexMap from List.mem_singleton.mpr rfl)]
  have hsi : (colDims N K wf).siIdx (ix1 k) ⟨List.idxOf (0 : Fin 1) (colDims N K wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-! ## A two-piece concatenation of flat arrays -/

/-- Element `k` of the concatenation of `a : [n₁]` and `b : [n₂]` along axis 0 (`n = n₁ + n₂`). -/
theorem concat_flat_apply {n₁ n₂ n : Nat} (hn : n = n₁ + n₂)
    (h : Shape.Concatenates [(⟨1, ![n₁]⟩ : Shape), ⟨1, ![n₂]⟩] ⟨1, ![n]⟩ 0)
    (a : (⟨1, ![n₁]⟩ : Shape).Idx → α) (b : (⟨1, ![n₂]⟩ : Shape).Idx → α) (k : Fin n) :
    concatenate ⟨1, ![n]⟩ 0 [⟨⟨1, ![n₁]⟩, a⟩, ⟨⟨1, ![n₂]⟩, b⟩] h (ix1 k)
      = if hk : k.val < n₁ then a (ix1 ⟨k.val, hk⟩)
        else b (ix1 ⟨k.val - n₁, by have := k.isLt; omega⟩) := by
  split
  · next hk =>
    exact concatenate_pair_apply_left (t := ⟨1, ![n]⟩) (s₁ := ⟨1, ![n₁]⟩) (s₂ := ⟨1, ![n₂]⟩) (0 : Fin 1) a b h (ix1 k) rfl
      (ix1 ⟨k.val, hk⟩) (fun c => by obtain rfl : c = 0 := Subsingleton.elim _ _; rfl)
  · next hk =>
    exact concatenate_pair_apply_right (t := ⟨1, ![n]⟩) (s₁ := ⟨1, ![n₁]⟩) (s₂ := ⟨1, ![n₂]⟩) (0 : Fin 1) a b h (ix1 k) rfl rfl
      (ix1 ⟨k.val - n₁, by have := k.isLt; omega⟩)
      (fun c hc => absurd (Subsingleton.elim _ _) hc)
      (by show k.val - n₁ + n₁ = k.val; omega)

end Cert.RefGather

end
-- ==== Proof.KTiled.lean ====
import proofs.«129107_j71382356459609_1_alg».proof.KernelIdeal
import proofs.«129107_j71382356459609_1_alg».proof.Proof.Gen.KernelIdeal
import Idealize.ShloMosaic.Lib.Pipeline.Value
import Idealize.ShloMosaic.Lib.ValueIdx
import Idealize.ShloMosaic.Lib.KernelVsHost
import proofs.«129107_j71382356459609_1_alg».proof.Proof.Spec
import proofs.«129107_j71382356459609_1_alg».proof.Proof.RefGather

set_option maxRecDepth 16384

noncomputable section

open Idealize.ShloMosaic

/-! # The four arrays the region reads, entry by entry

Before the region the host gathers each depth map at the pairs' pixels (the two index arrays concatenated, a negative
index shifted by the map's length, the index clamped into the map), pads the 9 932 024 gathered values to
9 961 472 = 77 824 · 128 with a fill value, and lays them out as 77 824 rows of 128.  Entry (R, l) of that array is
therefore the gathered value of pair number 128·R + l when that number is below 9 932 024, and the fill value otherwise. -/

namespace Cert.KernelIdeal.KTiled
open Cert.KernelIdeal Cert.RankSpec Idealize.ShloMosaic.ValueIdx Cert.KernelIdeal.Facts₀

/-- A depth map gathered at the concatenated, normalised indices, padded with `fill`, as 77 824 rows of 128. -/
def tiled (x : S1x1x3072x3072.Idx → R) (a : S943718.Idx → BitVec 32) (b : S8988306.Idx → BitVec 32) (fill : BitVec 32) :
    S77824x128.Idx → R :=
  shapeCast S77824x128
    (pad S9961472 ![0] ![29448] ![0]
      (Host.gather gather_S9437184_S9932024x1_S9932024_n_0_n_n_0_1_1 (shapeCast S9437184 x shapeCasts_S1x1x3072x3072_S9437184)
        (broadcastInDim S9932024x1 ![0] bcast_S9932024_S9932024x1_0
          (select (cmpi .slt (concatenate S9932024 0 [⟨S943718, a⟩, ⟨S8988306, b⟩] concatenates_S943718_S8988306_S9932024_d0) (broadcastInDim S9932024 ![] bcast_S_S9932024 (constantI S_ 32 0#32)))
            (addi (concatenate S9932024 0 [⟨S943718, a⟩, ⟨S8988306, b⟩] concatenates_S943718_S8988306_S9932024_d0) (broadcastInDim S9932024 ![] bcast_S_S9932024 (constantI S_ 32 9437184#32))) (concatenate S9932024 0 [⟨S943718, a⟩, ⟨S8988306, b⟩] concatenates_S943718_S8988306_S9932024_d0))))
      (id (constant (F := Ideal) S_ .f32 fill)) pads_S9932024_S9961472_0294480 h_S_)
    shapeCasts_S9961472_S77824x128

/-! ## The two outer layers: the pad to 9 961 472 and the layout as 77 824 rows of 128 -/

/-- Position n of the padded array is the array's entry n below 9 932 024 and the padding value from there on:
    the padding is all at the high end (29 448 entries) and there is none between entries. -/
theorem pad_apply (y : S9932024.Idx → R) (v : S_.Idx → R) (n : Fin 9961472) :
    pad S9961472 ![0] ![29448] ![0] y v pads_S9932024_S9961472_0294480 h_S_ (ix1 n)
      = if h : n.val < 9932024 then y (ix1 ⟨n.val, h⟩) else v (Shape.Idx.first h_S_) := by
  by_cases h : n.val < 9932024
  · rw [dif_pos h]
    refine pad_apply_of_inside _ _ _ y v _ h_S_ (ix1 n) (ix1 ⟨n.val, h⟩) fun a => ?_
    obtain rfl : a = 0 := Subsingleton.elim _ _
    show n.val = 0 + n.val * (0 + 1)
    omega
  · rw [dif_neg h]
    refine pad_apply_of_not_inside _ _ _ y v _ h_S_ (ix1 n) 0 fun hin => h ?_
    have h3 : (n.val - 0) / (0 + 1) < 9932024 := hin.2.2
    omega

/-- Entry (R, l) of the 77 824 × 128 layout is position 128 R + l of the flat array. -/
theorem tile_apply (z : S9961472.Idx → R) (Rw : Fin 77824) (l : Fin 128) :
    shapeCast S77824x128 z shapeCasts_S9961472_S77824x128 (ix2 Rw l)
      = z (ix1 ⟨Rw.val * 128 + l.val, by have := Rw.isLt; have := l.isLt; omega⟩) := by
  refine shapeCast_apply z _ (ix2 Rw l) (ix1 ⟨Rw.val * 128 + l.val, by have := Rw.isLt; have := l.isLt; omega⟩) ?_
  rw [Shape.rowMajor_val_one, Shape.rowMajor_val_two]
  rfl

/-! ## The inner layers: the index word of a pair and the gathered value -/

/-- The concatenation of the two index arrays, as the program states it. -/
abbrev cat (a : S943718.Idx → BitVec 32) (b : S8988306.Idx → BitVec 32) : S9932024.Idx → BitVec 32 :=
  concatenate S9932024 0 [⟨S943718, a⟩, ⟨S8988306, b⟩] concatenates_S943718_S8988306_S9932024_d0

/-- Pair k's entry of the concatenation is its index word: the first array below 943 718, the second after. -/
theorem cat_apply (a : S943718.Idx → BitVec 32) (b : S8988306.Idx → BitVec 32) (k : Fin 9932024) :
    cat a b (ix1 k) = catIdx a b k :=
  Cert.RefGather.concat_flat_apply (n₁ := 943718) (n₂ := 8988306) (n := 9932024) (by norm_num)
    concatenates_S943718_S8988306_S9932024_d0 a b k

/-- A scalar word broadcast over the pairs reads that word at every pair. -/
theorem bcast_word (c : BitVec 32) (k : Fin 9932024) :
    broadcastInDim S9932024 ![] bcast_S_S9932024 (constantI S_ 32 c) (ix1 k) = c := by
  unfold broadcastInDim
  rfl

/-- The normalised index array at pair k: a negative word shifted by the map's length 9 437 184. -/
theorem norm_apply (a : S943718.Idx → BitVec 32) (b : S8988306.Idx → BitVec 32) (k : Fin 9932024) :
    select (cmpi .slt (cat a b) (broadcastInDim S9932024 ![] bcast_S_S9932024 (constantI S_ 32 0#32)))
        (addi (cat a b) (broadcastInDim S9932024 ![] bcast_S_S9932024 (constantI S_ 32 9437184#32))) (cat a b) (ix1 k)
      = normIdx (catIdx a b k) := by
  show Scalar.select (IntOp.cmpi .slt (cat a b (ix1 k)) (broadcastInDim S9932024 ![] bcast_S_S9932024 (constantI S_ 32 0#32) (ix1 k)))
      (IntOp.addi (cat a b (ix1 k)) (broadcastInDim S9932024 ![] bcast_S_S9932024 (constantI S_ 32 9437184#32) (ix1 k)))
      (cat a b (ix1 k)) = _
  rw [bcast_word, bcast_word, cat_apply]
  rfl

/-- The column of start indices at (k, 0) is the array's entry k. -/
theorem col_apply (w : S9932024.Idx → BitVec 32) (k : Fin 9932024) :
    broadcastInDim S9932024x1 ![0] bcast_S9932024_S9932024x1_0 w (ix2 k (0 : Fin 1)) = w (ix1 k) := by
  refine broadcastInDim_apply _ _ w (ix2 k (0 : Fin 1)) (ix1 k) fun c => ?_
  obtain rfl : c = 0 := Subsingleton.elim _ _
  rw [if_neg (show ¬ S9932024.size 0 = 1 from by decide)]
  rfl

/-- The gather of the flat depth map at a column of start indices, at pair k: the map at the start index read signed
    and clamped into the map. -/
theorem gather_apply (y : S9437184.Idx → R) (idx : S9932024x1.Idx → BitVec 32) (k : Fin 9932024) :
    Host.gather gather_S9437184_S9932024x1_S9932024_n_0_n_n_0_1_1 y idx (ix1 k)
      = y (ix1 (clampIdx (idx (ix2 k (0 : Fin 1))))) :=
  Cert.RefGather.gather_col_apply (N := 9437184) (K := 9932024) (by norm_num)
    gather_S9437184_S9932024x1_S9932024_n_0_n_n_0_1_1_wf y idx k

/-! ## The array entry by entry -/

/-- ENTRY (R, l) OF THE TILED ARRAY: the gathered value of pair 128 R + l when that number is below 9 932 024, and the
    fill value at the padded positions. -/
theorem tiled_apply (x : S1x1x3072x3072.Idx → R) (a : S943718.Idx → BitVec 32) (b : S8988306.Idx → BitVec 32)
    (fill : BitVec 32) (Rw : Fin 77824) (l : Fin 128) :
    tiled x a b fill (ix2 Rw l)
      = if h : Rw.val * 128 + l.val < 9932024 then Cert.RankSpec.gat x a b ⟨Rw.val * 128 + l.val, h⟩
        else Ideal.ofBits .f32 fill := by
  unfold tiled
  rw [tile_apply, pad_apply]
  by_cases h : Rw.val * 128 + l.val < 9932024
  · rw [dif_pos h, dif_pos h, gather_apply, col_apply, norm_apply]
    rfl
  · rw [dif_neg h, dif_neg h]
    rfl

end Cert.KernelIdeal.KTiled
end
-- ==== Proof.KHost.lean ====
import proofs.«129107_j71382356459609_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.StableHlo.Run
import proofs.«129107_j71382356459609_1_alg».proof.Proof.KTiled

set_option maxRecDepth 16384

noncomputable section

open Idealize.ShloMosaic Idealize.ShloMosaic.TcCoe Idealize.SL.Sem
open Idealize.ShloMosaic.Pipeline (Dat)

/-! # The region's four input arrays and their blocks

When the region is entered its four input arrays are the four gathered, padded, 77 824 × 128 arrays of the
specification's vocabulary (ground truth at the first and second pixels, prediction at the first and second pixels;
the ground-truth arrays padded with 1, the prediction arrays with 0).  Window w's block at grid point t is rows
2048·t … 2048·t + 2047 of array w. -/

namespace Cert.KernelIdeal.KHost
open Cert.KernelIdeal Cert.KernelIdeal.Gen Cert.KernelIdeal.KTiled Cert.RankSpec Idealize.ShloMosaic.ValueIdx

variable (m : (ℓ : Loc nD τ sig) → Buf (Elt Ideal) ℓ) (c : Dev nD)

set_option maxHeartbeats 32000000 in
/-- The host operations before the region, run from any buffer contents W, leave array 0 of the region at the
    gathered, padded, tiled array of W's argument arrays. -/
theorem pre_main_v36 (W : Valuation τ sig (Elt Ideal)) :
    StableHlo.after ([hostOps0, hostOps0_1, hostOps0_2, hostOps0_3, hostOps0_4, hostOps0_5, hostOps0_6, hostOps0_7, hostOps0_8] : List (List (HloOp τ sig (Elt Ideal)))).flatten W (Proc.devRef .tc main_v36)
      = tiled (W (Proc.devRef .tc main_arg1)) (W (Proc.devRef .tc main_arg2)) (W (Proc.devRef .tc main_arg4)) 0x3F800000#32 := by
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

theorem V_main_v36 : (V m c main_v36 : S77824x128.Idx → R)
    = tiled (m ((c : Thread nD τ).loc main_arg1)) (m ((c : Thread nD τ).loc main_arg2)) (m ((c : Thread nD τ).loc main_arg4)) 0x3F800000#32 :=
  pre_main_v36 (fun b => m (c, b))

theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (r, l) of window 0's block at point t is entry (2048·t + r, l) of its array. -/
theorem iblk0_apply (t : Fin cfg0.N) (r : Fin 2048) (l : Fin 128) (Rw : Fin 77824) (hR : Rw.val = 2048 * t.val + r.val) :
    iblk m c 0 t (ix2 r l) = V m c main_v36 (ix2 Rw l) := by
  unfold iblk
  rw [View.read_apply]
  show V m c main_v36 _ = V m c main_v36 _
  refine congrArg (V m c main_v36) (funext fun a => Fin.ext ?_)
  match a with
  | ⟨0, _⟩ => show win0_0.index t 0 * 2048 + 1 * r.val = Rw.val; rw [(idx_facts0 t).1, hR]; omega
  | ⟨1, _⟩ => show win0_0.index t 1 * 128 + 1 * l.val = l.val; rw [(idx_facts0 t).2]; omega

set_option maxHeartbeats 32000000 in
/-- The host operations before the region, run from any buffer contents W, leave array 1 of the region at the
    gathered, padded, tiled array of W's argument arrays. -/
theorem pre_main_v37 (W : Valuation τ sig (Elt Ideal)) :
    StableHlo.after ([hostOps0, hostOps0_1, hostOps0_2, hostOps0_3, hostOps0_4, hostOps0_5, hostOps0_6, hostOps0_7, hostOps0_8] : List (List (HloOp τ sig (Elt Ideal)))).flatten W (Proc.devRef .tc main_v37)
      = tiled (W (Proc.devRef .tc main_arg1)) (W (Proc.devRef .tc main_arg3)) (W (Proc.devRef .tc main_arg5)) 0x3F800000#32 := by
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

theorem V_main_v37 : (V m c main_v37 : S77824x128.Idx → R)
    = tiled (m ((c : Thread nD τ).loc main_arg1)) (m ((c : Thread nD τ).loc main_arg3)) (m ((c : Thread nD τ).loc main_arg5)) 0x3F800000#32 :=
  pre_main_v37 (fun b => m (c, b))

theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry (r, l) of window 1's block at point t is entry (2048·t + r, l) of its array. -/
theorem iblk1_apply (t : Fin cfg0.N) (r : Fin 2048) (l : Fin 128) (Rw : Fin 77824) (hR : Rw.val = 2048 * t.val + r.val) :
    iblk m c 1 t (ix2 r l) = V m c main_v37 (ix2 Rw l) := by
  unfold iblk
  rw [View.read_apply]
  show V m c main_v37 _ = V m c main_v37 _
  refine congrArg (V m c main_v37) (funext fun a => Fin.ext ?_)
  match a with
  | ⟨0, _⟩ => show win0_1.index t 0 * 2048 + 1 * r.val = Rw.val; rw [(idx_facts1 t).1, hR]; omega
  | ⟨1, _⟩ => show win0_1.index t 1 * 128 + 1 * l.val = l.val; rw [(idx_facts1 t).2]; omega

set_option maxHeartbeats 32000000 in
/-- The host operations before the region, run from any buffer contents W, leave array 2 of the region at the
    gathered, padded, tiled array of W's argument arrays. -/
theorem pre_main_v38 (W : Valuation τ sig (Elt Ideal)) :
    StableHlo.after ([hostOps0, hostOps0_1, hostOps0_2, hostOps0_3, hostOps0_4, hostOps0_5, hostOps0_6, hostOps0_7, hostOps0_8] : List (List (HloOp τ sig (Elt Ideal)))).flatten W (Proc.devRef .tc main_v38)
      = tiled (W (Proc.devRef .tc main_arg0)) (W (Proc.devRef .tc main_arg2)) (W (Proc.devRef .tc main_arg4)) 0x00000000#32 := by
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

theorem V_main_v38 : (V m c main_v38 : S77824x128.Idx → R)
    = tiled (m ((c : Thread nD τ).loc main_arg0)) (m ((c : Thread nD τ).loc main_arg2)) (m ((c : Thread nD τ).loc main_arg4)) 0x00000000#32 :=
  pre_main_v38 (fun b => m (c, b))

theorem idx_facts2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Entry (r, l) of window 2's block at point t is entry (2048·t + r, l) of its array. -/
theorem iblk2_apply (t : Fin cfg0.N) (r : Fin 2048) (l : Fin 128) (Rw : Fin 77824) (hR : Rw.val = 2048 * t.val + r.val) :
    iblk m c 2 t (ix2 r l) = V m c main_v38 (ix2 Rw l) := by
  unfold iblk
  rw [View.read_apply]
  show V m c main_v38 _ = V m c main_v38 _
  refine congrArg (V m c main_v38) (funext fun a => Fin.ext ?_)
  match a with
  | ⟨0, _⟩ => show win0_2.index t 0 * 2048 + 1 * r.val = Rw.val; rw [(idx_facts2 t).1, hR]; omega
  | ⟨1, _⟩ => show win0_2.index t 1 * 128 + 1 * l.val = l.val; rw [(idx_facts2 t).2]; omega

set_option maxHeartbeats 32000000 in
/-- The host operations before the region, run from any buffer contents W, leave array 3 of the region at the
    gathered, padded, tiled array of W's argument arrays. -/
theorem pre_main_v39 (W : Valuation τ sig (Elt Ideal)) :
    StableHlo.after ([hostOps0, hostOps0_1, hostOps0_2, hostOps0_3, hostOps0_4, hostOps0_5, hostOps0_6, hostOps0_7, hostOps0_8] : List (List (HloOp τ sig (Elt Ideal)))).flatten W (Proc.devRef .tc main_v39)
      = tiled (W (Proc.devRef .tc main_arg0)) (W (Proc.devRef .tc main_arg3)) (W (Proc.devRef .tc main_arg5)) 0x00000000#32 := by
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

theorem V_main_v39 : (V m c main_v39 : S77824x128.Idx → R)
    = tiled (m ((c : Thread nD τ).loc main_arg0)) (m ((c : Thread nD τ).loc main_arg3)) (m ((c : Thread nD τ).loc main_arg5)) 0x00000000#32 :=
  pre_main_v39 (fun b => m (c, b))

theorem idx_facts3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Entry (r, l) of window 3's block at point t is entry (2048·t + r, l) of its array. -/
theorem iblk3_apply (t : Fin cfg0.N) (r : Fin 2048) (l : Fin 128) (Rw : Fin 77824) (hR : Rw.val = 2048 * t.val + r.val) :
    iblk m c 3 t (ix2 r l) = V m c main_v39 (ix2 Rw l) := by
  unfold iblk
  rw [View.read_apply]
  show V m c main_v39 _ = V m c main_v39 _
  refine congrArg (V m c main_v39) (funext fun a => Fin.ext ?_)
  match a with
  | ⟨0, _⟩ => show win0_3.index t 0 * 2048 + 1 * r.val = Rw.val; rw [(idx_facts3 t).1, hR]; omega
  | ⟨1, _⟩ => show win0_3.index t 1 * 128 + 1 * l.val = l.val; rw [(idx_facts3 t).2]; omega

end Cert.KernelIdeal.KHost
end
-- ==== Proof.PairSums.lean ====
/-
  Two facts about the padded grid of pairs, with no program in sight.

  The pairs are laid out on a grid of 38 tiles of 2048 rows of 128 lanes: position (t, r, l) holds pair number
  (2048 t + r) · 128 + l.  The grid has 38 · 2048 · 128 = 9 961 472 positions, 29 448 more than there are pairs;
  a position past the last pair contributes nothing.

  * `sum_grid`: summing over the grid, with 0 at the padded positions, is summing over the pairs.
  * `valid_word`: the 32-bit signed test "position number < 9 932 024", computed in 32-bit words from the three
    coordinates, is the test on the natural numbers: nothing wraps, every word stays below 2³¹.
-/
import Mathlib.Algebra.BigOperators.Fin
import Mathlib.Algebra.BigOperators.Intervals
import Idealize.ShloMosaic.PureOps.Ideal

namespace Cert.RankSpec

open Idealize.ShloMosaic
open scoped BigOperators

/-! ## The grid sum -/

section GridSum
variable {A : Type*} [AddCommMonoid A]

/-- A rectangle of a rows of b entries, read row after row, is the first a · b naturals. -/
theorem sum_range_rect (a b : ℕ) (g : ℕ → A) :
    ∑ i ∈ Finset.range a, ∑ j ∈ Finset.range b, g (i * b + j) = ∑ n ∈ Finset.range (a * b), g n := by
  induction a with
  | zero => simp
  | succ a ih => rw [Finset.sum_range_succ, ih, Nat.succ_mul, Finset.sum_range_add]

/-- The same with the two coordinates bounded by their types. -/
theorem sum_fin_rect (a b : ℕ) (g : ℕ → A) :
    ∑ i : Fin a, ∑ j : Fin b, g (i.val * b + j.val) = ∑ n ∈ Finset.range (a * b), g n := by
  rw [← sum_range_rect, ← Fin.sum_univ_eq_sum_range (fun i => ∑ j ∈ Finset.range b, g (i * b + j)) a]
  exact Finset.sum_congr rfl fun i _ => Fin.sum_univ_eq_sum_range (fun j => g (i.val * b + j)) b

/-- A box of a tiles of b rows of c lanes, position (t, r, l) numbered (b t + r) c + l, is the first a b c naturals. -/
theorem sum_fin_box (a b c : ℕ) (g : ℕ → A) :
    ∑ t : Fin a, ∑ r : Fin b, ∑ l : Fin c, g ((b * t.val + r.val) * c + l.val)
      = ∑ n ∈ Finset.range (a * b * c), g n := by
  rw [← sum_range_rect (a * b) c g, ← sum_fin_rect a b (fun m => ∑ l ∈ Finset.range c, g (m * c + l))]
  refine Finset.sum_congr rfl fun t _ => Finset.sum_congr rfl fun r _ => ?_
  rw [Nat.mul_comm b t.val]
  exact Fin.sum_univ_eq_sum_range (fun l => g ((t.val * b + r.val) * c + l)) c

/-- A sum over the first N + M naturals of a function that is f below N and 0 from N on is the sum of f. -/
theorem sum_range_pad (N M : ℕ) (f : Fin N → A) :
    ∑ n ∈ Finset.range (N + M), (if h : n < N then f ⟨n, h⟩ else 0) = ∑ k : Fin N, f k := by
  rw [Finset.sum_range_add, Finset.sum_eq_zero (s := Finset.range M), add_zero,
    ← Fin.sum_univ_eq_sum_range (fun n => if h : n < N then f ⟨n, h⟩ else 0) N]
  · exact Finset.sum_congr rfl fun k _ => by rw [dif_pos k.isLt]
  · intro x _
    rw [dif_neg (by omega)]

/-- THE GRID SUM: over the 38 × 2048 × 128 grid, position (t, r, l) holding pair (2048 t + r) · 128 + l when that
    number is below 9 932 024 and nothing otherwise, the sum is the sum over the pairs. -/
theorem sum_grid (f : Fin 9932024 → A) :
    ∑ t : Fin 38, ∑ r : Fin 2048, ∑ l : Fin 128,
        (if h : (2048 * t.val + r.val) * 128 + l.val < 9932024 then f ⟨(2048 * t.val + r.val) * 128 + l.val, h⟩ else 0)
      = ∑ k : Fin 9932024, f k := by
  have e := sum_fin_box 38 2048 128 (fun n => if h : n < 9932024 then f ⟨n, h⟩ else 0)
  rw [show 38 * 2048 * 128 = 9932024 + 29448 from by norm_num, sum_range_pad] at e
  exact e

end GridSum

/-! ## The validity bit -/

section ValidWord

/-- A 32-bit word of a natural below 2³¹ reads, signed, as that natural. -/
theorem toInt_ofNat_of_lt (n : ℕ) (h : n < 2147483648) : (BitVec.ofNat 32 n).toInt = (n : ℤ) := by
  rw [BitVec.toInt_eq_toNat_of_lt (by rw [BitVec.toNat_ofNat]; omega), BitVec.toNat_ofNat]
  omega

/-- Signed comparison of the words of two naturals below 2³¹ is the comparison of the naturals. -/
theorem slt_ofNat (m n : ℕ) (hm : m < 2147483648) (hn : n < 2147483648) :
    (BitVec.ofNat 32 m).slt (BitVec.ofNat 32 n) = decide (m < n) := by
  rw [BitVec.slt_eq_decide, toInt_ofNat_of_lt m hm, toInt_ofNat_of_lt n hn]
  exact decide_eq_decide.2 Nat.cast_lt

/-- The position number computed in 32-bit words is the word of the position number. -/
theorem pos_word (t r l : ℕ) :
    IntOp.addi (IntOp.muli (IntOp.addi (IntOp.muli (BitVec.ofNat 32 t) 2048#32) (BitVec.ofNat 32 r)) 128#32) (BitVec.ofNat 32 l)
      = BitVec.ofNat 32 ((2048 * t + r) * 128 + l) := by
  unfold IntOp.addi IntOp.muli
  rw [BitVec.ofNat_add, BitVec.ofNat_mul, BitVec.ofNat_add, Nat.mul_comm 2048 t, BitVec.ofNat_mul]

/-- THE VALIDITY BIT: for a position (t, r, l) of the grid the 32-bit signed test "position number < 9 932 024" is
    the test on the naturals. -/
theorem valid_word (t r l : ℕ) (ht : t < 38) (hr : r < 2048) (hl : l < 128) :
    IntOp.cmpi .slt
        (IntOp.addi (IntOp.muli (IntOp.addi (IntOp.muli (BitVec.ofNat 32 t) 2048#32) (BitVec.ofNat 32 r)) 128#32) (BitVec.ofNat 32 l))
        9932024#32
      = if (2048 * t + r) * 128 + l < 9932024 then 1#1 else 0#1 := by
  rw [pos_word]
  show BitVec.ofBool ((BitVec.ofNat 32 ((2048 * t + r) * 128 + l)).slt (BitVec.ofNat 32 9932024)) = _
  rw [slt_ofNat _ _ (by omega) (by omega)]
  by_cases h : (2048 * t + r) * 128 + l < 9932024
  · rw [if_pos h, decide_eq_true h]; rfl
  · rw [if_neg h, decide_eq_false h]; rfl

/-- The bit is 1 exactly at the positions that hold a pair … -/
theorem valid_word_eq_one (t r l : ℕ) (ht : t < 38) (hr : r < 2048) (hl : l < 128) :
    IntOp.cmpi .slt
        (IntOp.addi (IntOp.muli (IntOp.addi (IntOp.muli (BitVec.ofNat 32 t) 2048#32) (BitVec.ofNat 32 r)) 128#32) (BitVec.ofNat 32 l))
        9932024#32 = 1#1
      ↔ (2048 * t + r) * 128 + l < 9932024 := by
  rw [valid_word t r l ht hr hl]
  by_cases h : (2048 * t + r) * 128 + l < 9932024
  · simp [h]
  · simp [h]

/-- … and 0 exactly at the padded ones. -/
theorem valid_word_eq_zero (t r l : ℕ) (ht : t < 38) (hr : r < 2048) (hl : l < 128) :
    IntOp.cmpi .slt
        (IntOp.addi (IntOp.muli (IntOp.addi (IntOp.muli (BitVec.ofNat 32 t) 2048#32) (BitVec.ofNat 32 r)) 128#32) (BitVec.ofNat 32 l))
        9932024#32 = 0#1
      ↔ ¬ (2048 * t + r) * 128 + l < 9932024 := by
  rw [valid_word t r l ht hr hl]
  by_cases h : (2048 * t + r) * 128 + l < 9932024
  · simp [h]
  · simp [h]

end ValidWord

end Cert.RankSpec
-- ==== Proof.KValid.lean ====
/-
  The validity bit of the kernel's body is the test on the pair number.

  At grid point t the body computes, at entry (r, l) of its 2048 × 128 block, the 32-bit words
  ((t · 2048 + r) · 128 + l) from the grid coordinate and the row and lane numbers, and compares the result, signed,
  with 9 932 024.  The grid has one axis of 38 points, so point t has coordinate t; with t < 38, r < 2048, l < 128
  no word reaches 2³¹, and the bit is 1 exactly when the pair number (2048 t + r) · 128 + l is below 9 932 024.
-/
import proofs.«129107_j71382356459609_1_alg».proof.Proof.KBlock
import proofs.«129107_j71382356459609_1_alg».proof.Proof.PairSums

set_option maxRecDepth 16384

noncomputable section

open Idealize.ShloMosaic

namespace Cert.KernelIdeal.KValid
open Cert.KernelIdeal Cert.KernelIdeal.Gen Cert.KernelIdeal.KBlock Idealize.ShloMosaic.ValueIdx

/-- The grid has 38 points. -/
theorem lt_38 (t : Fin cfg0.N) : t.val < 38 := by
  have h := t.isLt
  have e : cfg0.N = 38 := N_0
  omega

/-- On the one-axis grid of 38 points, point t has coordinate t: the axis has stride 1 and t < 38. -/
theorem coords_val (t : Fin cfg0.N) : ((grid0.coords t) 0).val = t.val := by
  show t.val / grid0.stride 0 % 38 = t.val
  rw [show grid0.stride 0 = 1 from by decide, Nat.div_one]
  exact Nat.mod_eq_of_lt (lt_38 t)

/-- The bit at entry (r, l) of the block at grid point i, as one expression in 32-bit words: the two index arrays read
    the row and the lane, and every operation is entry by entry. -/
theorem validBit_word (i : grid0.Coords) (r : Fin 2048) (l : Fin 128) :
    validBit i r l
      = IntOp.cmpi .slt
          (IntOp.addi (IntOp.muli (IntOp.addi (IntOp.muli (BitVec.ofNat 32 (i 0).val) 2048#32) (BitVec.ofNat 32 r.val)) 128#32)
            (BitVec.ofNat 32 l.val)) 9932024#32 := by
  unfold validBit k0_pay9
  show IntOp.cmpi .slt
      (IntOp.addi (IntOp.muli (IntOp.addi (Scalar.muli (BitVec.ofNat 32 (i 0).val) 2048#32)
          (iota .tc S2048x128 32 [0] iota_S2048x128_d0_w32 (ix2 r l))) 128#32)
        (iota .tc S2048x128 32 [1] iota_S2048x128_d1_w32 (ix2 r l))) 9932024#32 = _
  rw [iota_single_apply, iota_single_apply]
  rfl

/-- THE VALIDITY BIT at grid point t, row r, lane l: 1 when pair number (2048 t + r) · 128 + l exists, 0 on padding. -/
theorem validBit_eq (t : Fin cfg0.N) (r : Fin 2048) (l : Fin 128) :
    validBit (grid0.coords t) r l = if (2048 * t.val + r.val) * 128 + l.val < 9932024 then 1#1 else 0#1 := by
  rw [validBit_word, coords_val]
  exact Cert.RankSpec.valid_word t.val r.val l.val (lt_38 t) r.isLt l.isLt

end Cert.KernelIdeal.KValid
end
-- ==== Proof.KGrid.lean ====
/-
  The grid assembly: the kernel's three sums over its 38 × 2048 × 128 grid are the three sums over the pairs.

  Entry (r, l) of block t of a tiled array is entry (2048 t + r, l) of the 77 824 × 128 array, that is the gathered
  value of pair number (2048 t + r) · 128 + l when that number is below 9 932 024.  The kernel adds a pair's term where
  the validity bit is 1 and 0 where it is 0, so whatever the fill words are they are never read: a term is selected
  only at a position that holds a pair.  Summing over the grid, with 0 at the padded positions, is summing over the
  pairs.
-/
import proofs.«129107_j71382356459609_1_alg».proof.Proof.KTiled
import proofs.«129107_j71382356459609_1_alg».proof.Proof.PairSums
import proofs.«129107_j71382356459609_1_alg».proof.Proof.Spec
import Idealize.ShloMosaic.PureOps.Ideal.Laws

set_option maxRecDepth 16384

noncomputable section

open Idealize.ShloMosaic
open scoped BigOperators

namespace Cert.KernelIdeal.KGrid
open Cert.KernelIdeal Cert.KernelIdeal.KTiled Cert.RankSpec Idealize.ShloMosaic.ValueIdx

/-- The validity bit of position (t, r, l): 1 when pair number (2048 t + r) · 128 + l exists. -/
abbrev vb (t : Fin 38) (r : Fin 2048) (l : Fin 128) : BitVec 1 :=
  if (2048 * t.val + r.val) * 128 + l.val < 9932024 then 1#1 else 0#1

/-- Row r of block t is row 2048 t + r of the 77 824 rows. -/
abbrev row (t : Fin 38) (r : Fin 2048) : Fin 77824 :=
  ⟨2048 * t.val + r.val, by have := t.isLt; have := r.isLt; omega⟩

/-- At a position that holds a pair the tiled array holds that pair's gathered value, whatever the fill word. -/
theorem tiled_row (x : S1x1x3072x3072.Idx → R) (a : S943718.Idx → BitVec 32) (b : S8988306.Idx → BitVec 32)
    (fill : BitVec 32) (t : Fin 38) (r : Fin 2048) (l : Fin 128) (h : (2048 * t.val + r.val) * 128 + l.val < 9932024) :
    tiled x a b fill (ix2 (row t r) l) = gat x a b ⟨(2048 * t.val + r.val) * 128 + l.val, h⟩ := by
  rw [tiled_apply]
  exact dif_pos h

/-- THE ASSEMBLY, for any term: if the grid's term at every position that holds a pair is that pair's term, the sum
    over the grid of the term where the validity bit is 1 and of 0 elsewhere is the sum over the pairs. -/
theorem sum_select_grid (F : Fin 38 → Fin 2048 → Fin 128 → R) (f : Fin 9932024 → R)
    (hF : ∀ (t : Fin 38) (r : Fin 2048) (l : Fin 128) (h : (2048 * t.val + r.val) * 128 + l.val < 9932024),
      F t r l = f ⟨(2048 * t.val + r.val) * 128 + l.val, h⟩) :
    ∑ t : Fin 38, ∑ r : Fin 2048, ∑ l : Fin 128, Scalar.select (vb t r l) (F t r l) zero = ∑ k : Fin 9932024, f k := by
  rw [← sum_grid f]
  refine Finset.sum_congr rfl fun t _ => Finset.sum_congr rfl fun r _ => Finset.sum_congr rfl fun l _ => ?_
  unfold vb
  by_cases h : (2048 * t.val + r.val) * 128 + l.val < 9932024
  · rw [if_pos h, dif_pos h, select_one, hF t r l h]
  · rw [if_neg h, dif_neg h, select_zero]
    exact Ideal.ofBits_zero_f32

variable (p g : S1x1x3072x3072.Idx → R) (a2 a3 : S943718.Idx → BitVec 32) (a4 a5 : S8988306.Idx → BitVec 32)
  (f0 f1 f2 f3 : BitVec 32)

/-- The ranked pairs' sum over the grid is the sum over the pairs. -/
theorem sumLg_grid :
    ∑ t : Fin 38, ∑ r : Fin 2048, ∑ l : Fin 128, Scalar.select (vb t r l)
        (lgTerm (tiled g a2 a4 f0 (ix2 (row t r) l)) (tiled g a3 a5 f1 (ix2 (row t r) l))
          (tiled p a2 a4 f2 (ix2 (row t r) l)) (tiled p a3 a5 f3 (ix2 (row t r) l))) zero
      = sumLg p g a2 a3 a4 a5 :=
  sum_select_grid _ (fun k => lgTerm (gat g a2 a4 k) (gat g a3 a5 k) (gat p a2 a4 k) (gat p a3 a5 k)) fun t r l h => by
    rw [tiled_row g a2 a4 f0 t r l h, tiled_row g a3 a5 f1 t r l h, tiled_row p a2 a4 f2 t r l h, tiled_row p a3 a5 f3 t r l h]

/-- The unranked pairs' sum over the grid is the sum over the pairs. -/
theorem sumSq_grid :
    ∑ t : Fin 38, ∑ r : Fin 2048, ∑ l : Fin 128, Scalar.select (vb t r l)
        (sqTerm (tiled g a2 a4 f0 (ix2 (row t r) l)) (tiled g a3 a5 f1 (ix2 (row t r) l))
          (tiled p a2 a4 f2 (ix2 (row t r) l)) (tiled p a3 a5 f3 (ix2 (row t r) l))) zero
      = sumSq p g a2 a3 a4 a5 :=
  sum_select_grid _ (fun k => sqTerm (gat g a2 a4 k) (gat g a3 a5 k) (gat p a2 a4 k) (gat p a3 a5 k)) fun t r l h => by
    rw [tiled_row g a2 a4 f0 t r l h, tiled_row g a3 a5 f1 t r l h, tiled_row p a2 a4 f2 t r l h, tiled_row p a3 a5 f3 t r l h]

/-- The count of ranked pairs over the grid is the count over the pairs. -/
theorem sumCnt_grid :
    ∑ t : Fin 38, ∑ r : Fin 2048, ∑ l : Fin 128, Scalar.select (vb t r l)
        (cntTerm (tiled g a2 a4 f0 (ix2 (row t r) l)) (tiled g a3 a5 f1 (ix2 (row t r) l))) zero
      = sumCnt g a2 a3 a4 a5 :=
  sum_select_grid _ (fun k => cntTerm (gat g a2 a4 k) (gat g a3 a5 k)) fun t r l h => by
    rw [tiled_row g a2 a4 f0 t r l h, tiled_row g a3 a5 f1 t r l h]

/-! ## The outer sum over a range of naturals -/

/-- A sum over the first n naturals of a function that agrees, below n, with a function of the bounded number is
    that function's sum. -/
theorem sum_range_of_fin (n : ℕ) (F : ℕ → R) (G : Fin n → R) (h : ∀ (t : ℕ) (ht : t < n), F t = G ⟨t, ht⟩) :
    ∑ t ∈ Finset.range n, F t = ∑ t : Fin n, G t := by
  rw [Finset.sum_range]
  exact Finset.sum_congr rfl fun t _ => h t.val t.isLt

end Cert.KernelIdeal.KGrid
end
-- ==== Proof.KBridge.lean ====
/-
  The seam: the kernel's sums over its blocks are the specification's sums over the pairs.

  Block t's partial sum of each kind runs over the entries (r, l) of the four blocks the kernel reads at grid point t.
  Entry (r, l) of window w's block at point t is entry (2048 t + r, l) of the region's array w, and that array is the
  gathered, padded, tiled array of the specification: ground truth at the first and at the second pixel for windows
  0 and 1, prediction at the first and at the second pixel for windows 2 and 3.  The bit that guards the entry is the
  test "pair number (2048 t + r) · 128 + l exists".  So block t's partial sum is the grid's inner double sum at t, and
  the sum over the 38 blocks is the sum over the pairs.
-/
import proofs.«129107_j71382356459609_1_alg».proof.Proof.KSum
import proofs.«129107_j71382356459609_1_alg».proof.Proof.KHost
import proofs.«129107_j71382356459609_1_alg».proof.Proof.KValid
import proofs.«129107_j71382356459609_1_alg».proof.Proof.KGrid

set_option maxRecDepth 16384

noncomputable section

open Idealize.ShloMosaic Idealize.ShloMosaic.TcCoe Idealize.SL.Sem
open Idealize.ShloMosaic.Pipeline (Dat)
open scoped BigOperators

namespace Cert.KernelIdeal.KBridge
open Cert.KernelIdeal Cert.KernelIdeal.Gen Cert.KernelIdeal.KSum Cert.KernelIdeal.KHost Cert.KernelIdeal.KValid
open Cert.KernelIdeal.KGrid Cert.KernelIdeal.KBlock Cert.KernelIdeal.KTiled Cert.RankSpec Idealize.ShloMosaic.ValueIdx

/-! ## Two congruences, over plain values -/

/-- A guarded term of four values depends only on the bit and the four values. -/
theorem select4_congr (T : R → R → R → R → R) {v v' : BitVec 1} {x0 x0' x1 x1' x2 x2' x3 x3' : R}
    (hv : v = v') (h0 : x0 = x0') (h1 : x1 = x1') (h2 : x2 = x2') (h3 : x3 = x3') :
    Scalar.select v (T x0 x1 x2 x3) zero = Scalar.select v' (T x0' x1' x2' x3') zero := by
  subst hv h0 h1 h2 h3; rfl

/-- A guarded term of two values depends only on the bit and the two values. -/
theorem select2_congr (T : R → R → R) {v v' : BitVec 1} {x0 x0' x1 x1' : R}
    (hv : v = v') (h0 : x0 = x0') (h1 : x1 = x1') :
    Scalar.select v (T x0 x1) zero = Scalar.select v' (T x0' x1') zero := by
  subst hv h0 h1; rfl

variable (m : (ℓ : Loc nD τ sig) → Buf (Elt Ideal) ℓ) (c : Dev nD)

/-! ## One entry of each window's block, in the specification's vocabulary -/

section Entry
variable (n : ℕ) (h : n < cfg0.N) (h38 : n < 38) (r : Fin 2048) (l : Fin 128)

/-- Window 0: ground truth at the first pixel, padded with 1. -/
theorem ent0 : iblk m c 0 ⟨n, h⟩ (ix2 r l)
    = tiled (m ((c : Thread nD τ).loc main_arg1)) (m ((c : Thread nD τ).loc main_arg2)) (m ((c : Thread nD τ).loc main_arg4))
        0x3F800000#32 (ix2 (row ⟨n, h38⟩ r) l) :=
  (iblk0_apply m c ⟨n, h⟩ r l (row ⟨n, h38⟩ r) rfl).trans (congrFun (V_main_v36 m c) (ix2 (row ⟨n, h38⟩ r) l))

/-- Window 1: ground truth at the second pixel, padded with 1. -/
theorem ent1 : iblk m c 1 ⟨n, h⟩ (ix2 r l)
    = tiled (m ((c : Thread nD τ).loc main_arg1)) (m ((c : Thread nD τ).loc main_arg3)) (m ((c : Thread nD τ).loc main_arg5))
        0x3F800000#32 (ix2 (row ⟨n, h38⟩ r) l) :=
  (iblk1_apply m c ⟨n, h⟩ r l (row ⟨n, h38⟩ r) rfl).trans (congrFun (V_main_v37 m c) (ix2 (row ⟨n, h38⟩ r) l))

/-- Window 2: prediction at the first pixel, padded with 0. -/
theorem ent2 : iblk m c 2 ⟨n, h⟩ (ix2 r l)
    = tiled (m ((c : Thread nD τ).loc main_arg0)) (m ((c : Thread nD τ).loc main_arg2)) (m ((c : Thread nD τ).loc main_arg4))
        0x00000000#32 (ix2 (row ⟨n, h38⟩ r) l) :=
  (iblk2_apply m c ⟨n, h⟩ r l (row ⟨n, h38⟩ r) rfl).trans (congrFun (V_main_v38 m c) (ix2 (row ⟨n, h38⟩ r) l))

/-- Window 3: prediction at the second pixel, padded with 0. -/
theorem ent3 : iblk m c 3 ⟨n, h⟩ (ix2 r l)
    = tiled (m ((c : Thread nD τ).loc main_arg0)) (m ((c : Thread nD τ).loc main_arg3)) (m ((c : Thread nD τ).loc main_arg5))
        0x00000000#32 (ix2 (row ⟨n, h38⟩ r) l) :=
  (iblk3_apply m c ⟨n, h⟩ r l (row ⟨n, h38⟩ r) rfl).trans (congrFun (V_main_v39 m c) (ix2 (row ⟨n, h38⟩ r) l))

/-- The guard of the entry is the test on the pair number. -/
theorem entv : validBit (grid0.coords ⟨n, h⟩) r l = vb ⟨n, h38⟩ r l :=
  validBit_eq ⟨n, h⟩ r l

end Entry

/-! ## One block's partial sums are the grid's inner sums -/

section Block
variable (n : ℕ) (h38 : n < 38)

theorem blkLg_eq : blkLg m c n
    = ∑ r : Fin 2048, ∑ l : Fin 128, Scalar.select (vb ⟨n, h38⟩ r l)
        (lgTerm
          (tiled (m ((c : Thread nD τ).loc main_arg1)) (m ((c : Thread nD τ).loc main_arg2)) (m ((c : Thread nD τ).loc main_arg4)) 0x3F800000#32 (ix2 (row ⟨n, h38⟩ r) l))
          (tiled (m ((c : Thread nD τ).loc main_arg1)) (m ((c : Thread nD τ).loc main_arg3)) (m ((c : Thread nD τ).loc main_arg5)) 0x3F800000#32 (ix2 (row ⟨n, h38⟩ r) l))
          (tiled (m ((c : Thread nD τ).loc main_arg0)) (m ((c : Thread nD τ).loc main_arg2)) (m ((c : Thread nD τ).loc main_arg4)) 0x00000000#32 (ix2 (row ⟨n, h38⟩ r) l))
          (tiled (m ((c : Thread nD τ).loc main_arg0)) (m ((c : Thread nD τ).loc main_arg3)) (m ((c : Thread nD τ).loc main_arg5)) 0x00000000#32 (ix2 (row ⟨n, h38⟩ r) l))) zero := by
  have h : n < cfg0.N := lt_of_lt_of_eq h38 hN.symm
  unfold blkLg
  rw [dif_pos h]
  exact Finset.sum_congr rfl fun r _ => Finset.sum_congr rfl fun l _ =>
    select4_congr lgTerm (entv n h h38 r l) (ent0 m c n h h38 r l) (ent1 m c n h h38 r l) (ent2 m c n h h38 r l) (ent3 m c n h h38 r l)

theorem blkSq_eq : blkSq m c n
    = ∑ r : Fin 2048, ∑ l : Fin 128, Scalar.select (vb ⟨n, h38⟩ r l)
        (sqTerm
          (tiled (m ((c : Thread nD τ).loc main_arg1)) (m ((c : Thread nD τ).loc main_arg2)) (m ((c : Thread nD τ).loc main_arg4)) 0x3F800000#32 (ix2 (row ⟨n, h38⟩ r) l))
          (tiled (m ((c : Thread nD τ).loc main_arg1)) (m ((c : Thread nD τ).loc main_arg3)) (m ((c : Thread nD τ).loc main_arg5)) 0x3F800000#32 (ix2 (row ⟨n, h38⟩ r) l))
          (tiled (m ((c : Thread nD τ).loc main_arg0)) (m ((c : Thread nD τ).loc main_arg2)) (m ((c : Thread nD τ).loc main_arg4)) 0x00000000#32 (ix2 (row ⟨n, h38⟩ r) l))
          (tiled (m ((c : Thread nD τ).loc main_arg0)) (m ((c : Thread nD τ).loc main_arg3)) (m ((c : Thread nD τ).loc main_arg5)) 0x00000000#32 (ix2 (row ⟨n, h38⟩ r) l))) zero := by
  have h : n < cfg0.N := lt_of_lt_of_eq h38 hN.symm
  unfold blkSq
  rw [dif_pos h]
  exact Finset.sum_congr rfl fun r _ => Finset.sum_congr rfl fun l _ =>
    select4_congr sqTerm (entv n h h38 r l) (ent0 m c n h h38 r l) (ent1 m c n h h38 r l) (ent2 m c n h h38 r l) (ent3 m c n h h38 r l)

theorem blkCnt_eq : blkCnt m c n
    = ∑ r : Fin 2048, ∑ l : Fin 128, Scalar.select (vb ⟨n, h38⟩ r l)
        (cntTerm
          (tiled (m ((c : Thread nD τ).loc main_arg1)) (m ((c : Thread nD τ).loc main_arg2)) (m ((c : Thread nD τ).loc main_arg4)) 0x3F800000#32 (ix2 (row ⟨n, h38⟩ r) l))
          (tiled (m ((c : Thread nD τ).loc main_arg1)) (m ((c : Thread nD τ).loc main_arg3)) (m ((c : Thread nD τ).loc main_arg5)) 0x3F800000#32 (ix2 (row ⟨n, h38⟩ r) l))) zero := by
  have h : n < cfg0.N := lt_of_lt_of_eq h38 hN.symm
  unfold blkCnt
  rw [dif_pos h]
  exact Finset.sum_congr rfl fun r _ => Finset.sum_congr rfl fun l _ =>
    select2_congr cntTerm (entv n h h38 r l) (ent0 m c n h h38 r l) (ent1 m c n h h38 r l)

end Block

/-! ## The sums over the 38 blocks -/

/-- THE RANKED PAIRS' SUM: the 38 blocks' partial sums add up to the sum over the pairs. -/
theorem totLg : ∑ t ∈ Finset.range 38, blkLg m c t
    = sumLg (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (sum_range_of_fin 38 (blkLg m c) _ fun t ht => blkLg_eq m c t ht).trans
    (sumLg_grid (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      0x3F800000#32 0x3F800000#32 0x00000000#32 0x00000000#32)

/-- THE UNRANKED PAIRS' SUM. -/
theorem totSq : ∑ t ∈ Finset.range 38, blkSq m c t
    = sumSq (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (sum_range_of_fin 38 (blkSq m c) _ fun t ht => blkSq_eq m c t ht).trans
    (sumSq_grid (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      0x3F800000#32 0x3F800000#32 0x00000000#32 0x00000000#32)

/-- THE COUNT OF RANKED PAIRS. -/
theorem totCnt : ∑ t ∈ Finset.range 38, blkCnt m c t
    = sumCnt (m ((c : Thread nD τ).loc main_arg1)) (m ((c : Thread nD τ).loc main_arg2))
        (m ((c : Thread nD τ).loc main_arg3)) (m ((c : Thread nD τ).loc main_arg4)) (m ((c : Thread nD τ).loc main_arg5)) :=
  (sum_range_of_fin 38 (blkCnt m c) _ fun t ht => blkCnt_eq m c t ht).trans
    (sumCnt_grid (m ((c : Thread nD τ).loc main_arg1)) (m ((c : Thread nD τ).loc main_arg2))
      (m ((c : Thread nD τ).loc main_arg3)) (m ((c : Thread nD τ).loc main_arg4)) (m ((c : Thread nD τ).loc main_arg5))
      0x3F800000#32 0x3F800000#32)

end Cert.KernelIdeal.KBridge
end
-- ==== Proof.KValue.lean ====
import proofs.«129107_j71382356459609_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«129107_j71382356459609_1_alg».proof.Proof.KFinal
import proofs.«129107_j71382356459609_1_alg».proof.Proof.KTail
import proofs.«129107_j71382356459609_1_alg».proof.Proof.KBridge

set_option maxRecDepth 16384

noncomputable section

open Idealize.ShloMosaic Idealize.ShloMosaic.TcCoe Idealize.SL.Sem
open Idealize.ShloMosaic.Pipeline (Dat)

/-! # The kernel program's result is the specification's loss

The region leaves in its three 1 × 1 results the sums over all 38 blocks, which are the specification's three sums over
the pairs; the host operations after the region turn them into the loss.  The argument arrays end unchanged. -/

namespace Cert.KernelIdeal.KValue
open Cert.KernelIdeal Cert.KernelIdeal.Gen Cert.KernelIdeal.KFinal Cert.KernelIdeal.KTail Cert.KernelIdeal.KBridge
open Cert.RankSpec Idealize.ShloMosaic.ValueIdx

variable (m : (ℓ : Loc nD τ sig) → Buf (Elt Ideal) ℓ) (ρ : Dev nD → PrngReg)

/-- The loss of core c's argument arrays, as contents of the result buffer. -/
abbrev result (c : Dev nD) : Buf (Elt Ideal) ((c : Thread nD τ).loc main_v53) :=
  fun _ => loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem result_eq (c : Dev nD) :
    Pipeline.afterTail₀ cfgs (dats m) 0 (V0 m) [hostOps1, hostOps1_1, hostOps1_2] c main_v53 = result m c := by
  refine (tail_eq m c).trans ?_
  funext i
  refine (tailFn_apply _ _ _ i).trans ?_
  rw [final0 m c, final1 m c, final2 m c, res0_apply m c, res1_apply m c, res2_apply m c, totLg m c, totSq m c, totCnt m c]
  rfl

/-- The run of the kernel program at the ideal values: the result buffer ends at the loss of the argument arrays, which
    end unchanged. -/
theorem run : θ_run defs (onTc (τ := τ) (main (F := Ideal))) ⟨m, fun _ => 0, ρ⟩ (fun r => ∀ c : Dev nD,
      r.2.mem ((c.tc : Thread nD τ).loc main_v53) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v53 (Pipeline.mem_restRefs_of main_v53 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue
end
-- ==== Proof.RefValue.lean ====
/-
  THE REFERENCE'S VALUE: the reference program's result is the specification's loss of the argument arrays.

  Pair k of the 9 932 024 pairs: the reference gathers the flattened maps at the normalised index words of the
  random-sampling arrays (943 718 entries) and of the object arrays (8 988 306 entries) separately, forms the target
  on each part and concatenates; the specification gathers at the concatenated index word. The two read the same
  element, since a concatenation along axis 0 reads its first piece at k < 943 718 and its second at k - 943 718
  otherwise. On the extended reals the per-pair terms agree: the reference's "not equal" test is the ordered one, its
  negations are differences from 0, and selecting 0 on a bit is selecting the other operand on the flipped bit. The
  count of ranked pairs is the same integer reduction over the same words, and the two float sums are the initial 0
  plus the sums over all pairs.
-/
import proofs.«129107_j71382356459609_1_alg».proof.Proof.Spec
import proofs.«129107_j71382356459609_1_alg».proof.Proof.RefRead
import proofs.«129107_j71382356459609_1_alg».proof.Proof.RefGather
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.RankSpec Cert.RefGather

/-! ## One pair, as the reference writes it -/

/-- The zero word is the extended real 0. -/
theorem zero_eq : zero = (0 : R) := Ideal.ofBits_zero_f32

/-- A negation is the difference from zero. -/
theorem zero_sub_eq (t : R) : zero - t = -t := by rw [zero_eq, zero_sub]

/-- On the extended reals "unordered or not equal" and "ordered and not equal" are the same test. -/
theorem une_eq_one (a b : R) : FloatOps.cmpf .une a b = FloatOps.cmpf .one a b := rfl

/-- The index normalisation, as the select the reference writes. -/
theorem normIdx_eq (b : BitVec 32) :
    Scalar.select (IntOp.cmpi .slt b 0#32) (IntOp.addi b 9437184#32) b = normIdx b := rfl

/-- The target from the two quotients, with the host's division and the literal words. -/
theorem tgt_eq (ga gb : R) :
    Scalar.select (FloatOps.cmpf .oge (FloatOps.hostDivf ga gb) (FloatOps.ofBits (F := Ideal) .f32 0x3F933333#32))
        (FloatOps.ofBits (F := Ideal) .f32 0x3F800000#32)
        (Scalar.select (FloatOps.cmpf .ogt (FloatOps.hostDivf gb ga) (FloatOps.ofBits (F := Ideal) .f32 0x3F933333#32))
          (FloatOps.ofBits (F := Ideal) .f32 0xBF800000#32) (FloatOps.ofBits (F := Ideal) .f32 0x00000000#32))
      = tgt ga gb := rfl

/-- The ranked pair's term with the negations written as negations: -t for 0 - t, and -|y| for 0 - |y|. -/
theorem lgTerm_eq (ga gb pa pb : R) :
    Scalar.select (FloatOps.cmpf .une (tgt ga gb) zero)
        (Scalar.select
          (FloatOps.cmpf .une ((-(tgt ga gb)) * (pa - pb) - zero) ((-(tgt ga gb)) * (pa - pb) - zero))
          ((-(tgt ga gb)) * (pa - pb) + zero)
          (max ((-(tgt ga gb)) * (pa - pb)) zero
            + Ideal.log1p (Ideal.exp (-(FloatOps.absf ((-(tgt ga gb)) * (pa - pb) - zero))))))
        zero
      = lgTerm ga gb pa pb := by
  unfold lgTerm splus nzb
  rw [zero_sub_eq (tgt ga gb), zero_sub_eq]
  rfl

/-- The unranked pair's term: selecting 0 on the bit is selecting the square on the flipped bit. -/
theorem sqTerm_eq (ga gb pa pb : R) :
    Scalar.select (FloatOps.cmpf .une (tgt ga gb) zero) zero ((pa - pb) * (pa - pb)) = sqTerm ga gb pa pb := by
  unfold sqTerm nzb
  rw [une_eq_one]
  generalize FloatOps.cmpf .one (tgt ga gb) zero = c
  rcases BitVec.eq_zero_or_eq_one c with h | h
  · subst h; rfl
  · subst h; rfl

/-! ## The pixel of an index word -/

/-- A depth map read flat at the pixel an index word names (shifted if negative, then clamped). -/
def pix (x : SMap.Idx → R) (b : BitVec 32) : R := shapeCast SPix x (by decide) (ix1 (clampIdx (normIdx b)))

theorem gat_eq_pix (x : SMap.Idx → R) (a : SRand.Idx → BitVec 32) (b : SObj.Idx → BitVec 32) (k : Fin nPair) :
    gat x a b k = pix x (catIdx a b k) := rfl

/-- Reading at the concatenated index word is reading part one below 943 718 and part two above. -/
theorem pix_catIdx (x : SMap.Idx → R) (a : SRand.Idx → BitVec 32) (b : SObj.Idx → BitVec 32) (k : Fin nPair) :
    pix x (catIdx a b k)
      = if h : k.val < 943718 then pix x (a (ix1 ⟨k.val, h⟩))
        else pix x (b (ix1 ⟨k.val - 943718, by have h1 : k.val < 9932024 := k.isLt; have h2 : ¬ k.val < 943718 := h; show k.val - 943718 < 8988306; omega⟩)) := by
  unfold catIdx
  split <;> rfl

/-- The gather of the flattened map at a column of index words (the words broadcast from `[K]` to `[K, 1]`) reads,
    at `k`, the flattened map at word `k` clamped: the column's entry `(k, 0)` is word `k`. -/
theorem gather_clamp {K : Nat}
    (wf : GatherDims.WF ⟨1, ![9437184]⟩ ⟨2, ![K, 1]⟩ ⟨1, ![K]⟩ [] [0] [] [0] [] 1 ![1])
    (hc : SMap.ShapeCasts SPix)
    (hb : (⟨1, ![K]⟩ : Shape).BroadcastsInDim ⟨2, ![K, 1]⟩ (![0] : Fin 1 → Fin 2))
    (x : SMap.Idx → R) (wd : (⟨1, ![K]⟩ : Shape).Idx → BitVec 32) (k : Fin K) :
    Host.gather (colDims 9437184 K wf) (shapeCast SPix x hc) (broadcastInDim ⟨2, ![K, 1]⟩ ![0] hb wd) (ix1 k)
      = shapeCast SPix x (by decide) (ix1 (clampIdx (wd (ix1 k)))) := by
  rw [gather_col_apply (by decide) wf]
  have e : broadcastInDim ⟨2, ![K, 1]⟩ ![0] hb wd (ix2 k (0 : Fin 1)) = wd (ix1 k) :=
    broadcastInDim_apply _ hb wd (ix2 k (0 : Fin 1)) (ix1 k) (fun a => by
      obtain rfl : a = 0 := Subsingleton.elim _ _
      show k.val = if K = 1 then 0 else k.val
      split
      · have := k.isLt; omega
      · rfl)
  refine congrArg (shapeCast SPix x hc) (congrArg ix1 (Fin.ext ?_))
  show min _ _ = min _ _
  rw [e]

/-! ## The scalar tail -/

/-- The loss from the two sums `A`, `B` and the integer count `N`, as the reference's last operations write it. -/
theorem finishR_eq (A B : R) (N : BitVec 32) :
    Scalar.select (IntOp.cmpi .eq N 0#32)
        (FloatOps.hostDivf B (FloatOps.sitofp (F := Ideal) .f32 (IntOp.maxsi (IntOp.subi 9932024#32 N) 1#32)))
        (Scalar.select (IntOp.cmpi .eq (IntOp.subi 9932024#32 N) 0#32)
          (FloatOps.hostDivf A (FloatOps.sitofp (F := Ideal) .f32 (IntOp.maxsi N 1#32)))
          (FloatOps.addf (FloatOps.hostDivf A (FloatOps.sitofp (F := Ideal) .f32 (IntOp.maxsi N 1#32)))
            (FloatOps.hostDivf B (FloatOps.sitofp (F := Ideal) .f32 (IntOp.maxsi (IntOp.subi 9932024#32 N) 1#32)))))
      = finishR A B N := rfl

/-! ## A sum over a rank-1 index set -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The reference's stages at an index -/

section Stages

open Cert.ReferenceIdeal Cert.ReferenceIdeal.Gen Cert.ReferenceIdeal.Read

variable (x0 x1 : S1x1x3072x3072.Idx → Ideal .f32) (x2 x3 : S943718.Idx → BitVec 32)
  (x4 x5 : S8988306.Idx → BitVec 32)

/-! ### The normalised index words: each is `normIdx` of the argument's word -/

theorem v6_at (k : Fin 943718) : val_main_v6 (F := Ideal) x2 (ix1 k) = normIdx (x2 (ix1 k)) := by
  simp only [val_main_v6_apply, val_main_v3_apply, val_main_v2_apply, val_main_c_apply, val_main_v5_apply,
    val_main_v4_apply, val_main_c_0_apply]
  rfl

theorem v13_at (k : Fin 943718) : val_main_v13 (F := Ideal) x3 (ix1 k) = normIdx (x3 (ix1 k)) := by
  simp only [val_main_v13_apply, val_main_v10_apply, val_main_v9_apply, val_main_c_1_apply, val_main_v12_apply,
    val_main_v11_apply, val_main_c_2_apply]
  rfl

theorem v29_at (k : Fin 8988306) : val_main_v29 (F := Ideal) x4 (ix1 k) = normIdx (x4 (ix1 k)) := by
  simp only [val_main_v29_apply, val_main_v26_apply, val_main_v25_apply, val_main_c_7_apply, val_main_v28_apply,
    val_main_v27_apply, val_main_c_8_apply]
  rfl

theorem v36_at (k : Fin 8988306) : val_main_v36 (F := Ideal) x5 (ix1 k) = normIdx (x5 (ix1 k)) := by
  simp only [val_main_v36_apply, val_main_v33_apply, val_main_v32_apply, val_main_c_9_apply, val_main_v35_apply,
    val_main_v34_apply, val_main_c_10_apply]
  rfl

theorem v52_at (k : Fin 943718) : val_main_v52 (F := Ideal) x2 (ix1 k) = normIdx (x2 (ix1 k)) := by
  simp only [val_main_v52_apply, val_main_v49_apply, val_main_v48_apply, val_main_c_16_apply, val_main_v51_apply,
    val_main_v50_apply, val_main_c_17_apply]
  rfl

theorem v59_at (k : Fin 8988306) : val_main_v59 (F := Ideal) x4 (ix1 k) = normIdx (x4 (ix1 k)) := by
  simp only [val_main_v59_apply, val_main_v56_apply, val_main_v55_apply, val_main_c_18_apply, val_main_v58_apply,
    val_main_v57_apply, val_main_c_19_apply]
  rfl

theorem v67_at (k : Fin 943718) : val_main_v67 (F := Ideal) x3 (ix1 k) = normIdx (x3 (ix1 k)) := by
  simp only [val_main_v67_apply, val_main_v64_apply, val_main_v63_apply, val_main_c_20_apply, val_main_v66_apply,
    val_main_v65_apply, val_main_c_21_apply]
  rfl

theorem v74_at (k : Fin 8988306) : val_main_v74 (F := Ideal) x5 (ix1 k) = normIdx (x5 (ix1 k)) := by
  simp only [val_main_v74_apply, val_main_v71_apply, val_main_v70_apply, val_main_c_22_apply, val_main_v73_apply,
    val_main_v72_apply, val_main_c_23_apply]
  rfl

/-! ### The gathers: each reads the flattened map at the pixel its index word names -/

theorem v8_at (k : Fin 943718) : val_main_v8 (F := Ideal) x1 x2 (ix1 k) = pix x1 (x2 (ix1 k)) := by
  unfold val_main_v8 val_main_v1 val_main_v7
  refine (gather_clamp gather_S9437184_S943718x1_S943718_n_0_n_n_0_1_1_wf shapeCasts_S1x1x3072x3072_S9437184
    bcast_S943718_S943718x1_0 x1 (val_main_v6 (F := Ideal) x2) k).trans ?_
  rw [v6_at]
  rfl

theorem v15_at (k : Fin 943718) : val_main_v15 (F := Ideal) x1 x3 (ix1 k) = pix x1 (x3 (ix1 k)) := by
  unfold val_main_v15 val_main_v1 val_main_v14
  refine (gather_clamp gather_S9437184_S943718x1_S943718_n_0_n_n_0_1_1_wf shapeCasts_S1x1x3072x3072_S9437184
    bcast_S943718_S943718x1_0 x1 (val_main_v13 (F := Ideal) x3) k).trans ?_
  rw [v13_at]
  rfl

theorem v31_at (k : Fin 8988306) : val_main_v31 (F := Ideal) x1 x4 (ix1 k) = pix x1 (x4 (ix1 k)) := by
  unfold val_main_v31 val_main_v1 val_main_v30
  refine (gather_clamp gather_S9437184_S8988306x1_S8988306_n_0_n_n_0_1_1_wf shapeCasts_S1x1x3072x3072_S9437184
    bcast_S8988306_S8988306x1_0 x1 (val_main_v29 (F := Ideal) x4) k).trans ?_
  rw [v29_at]
  rfl

theorem v38_at (k : Fin 8988306) : val_main_v38 (F := Ideal) x1 x5 (ix1 k) = pix x1 (x5 (ix1 k)) := by
  unfold val_main_v38 val_main_v1 val_main_v37
  refine (gather_clamp gather_S9437184_S8988306x1_S8988306_n_0_n_n_0_1_1_wf shapeCasts_S1x1x3072x3072_S9437184
    bcast_S8988306_S8988306x1_0 x1 (val_main_v36 (F := Ideal) x5) k).trans ?_
  rw [v36_at]
  rfl

theorem v54_at (k : Fin 943718) : val_main_v54 (F := Ideal) x0 x2 (ix1 k) = pix x0 (x2 (ix1 k)) := by
  unfold val_main_v54 val_main_v0 val_main_v53
  refine (gather_clamp gather_S9437184_S943718x1_S943718_n_0_n_n_0_1_1_wf shapeCasts_S1x1x3072x3072_S9437184
    bcast_S943718_S943718x1_0 x0 (val_main_v52 (F := Ideal) x2) k).trans ?_
  rw [v52_at]
  rfl

theorem v61_at (k : Fin 8988306) : val_main_v61 (F := Ideal) x0 x4 (ix1 k) = pix x0 (x4 (ix1 k)) := by
  unfold val_main_v61 val_main_v0 val_main_v60
  refine (gather_clamp gather_S9437184_S8988306x1_S8988306_n_0_n_n_0_1_1_wf shapeCasts_S1x1x3072x3072_S9437184
    bcast_S8988306_S8988306x1_0 x0 (val_main_v59 (F := Ideal) x4) k).trans ?_
  rw [v59_at]
  rfl

theorem v69_at (k : Fin 943718) : val_main_v69 (F := Ideal) x0 x3 (ix1 k) = pix x0 (x3 (ix1 k)) := by
  unfold val_main_v69 val_main_v0 val_main_v68
  refine (gather_clamp gather_S9437184_S943718x1_S943718_n_0_n_n_0_1_1_wf shapeCasts_S1x1x3072x3072_S9437184
    bcast_S943718_S943718x1_0 x0 (val_main_v67 (F := Ideal) x3) k).trans ?_
  rw [v67_at]
  rfl

theorem v76_at (k : Fin 8988306) : val_main_v76 (F := Ideal) x0 x5 (ix1 k) = pix x0 (x5 (ix1 k)) := by
  unfold val_main_v76 val_main_v0 val_main_v75
  refine (gather_clamp gather_S9437184_S8988306x1_S8988306_n_0_n_n_0_1_1_wf shapeCasts_S1x1x3072x3072_S9437184
    bcast_S8988306_S8988306x1_0 x0 (val_main_v74 (F := Ideal) x5) k).trans ?_
  rw [v74_at]
  rfl

/-! ### The targets of the two parts -/

theorem v24_at (k : Fin 943718) :
    val_main_v24 (F := Ideal) x1 x2 x3 (ix1 k) = tgt (pix x1 (x2 (ix1 k))) (pix x1 (x3 (ix1 k))) := by
  simp only [val_main_v24_apply, val_main_v23_apply, val_main_v18_apply, val_main_v16_apply, val_main_v17_apply,
    val_main_cst_apply, val_main_call1_v0_apply, val_main_cst_6_apply, val_main_v22_apply, val_main_v21_apply,
    val_main_v19_apply, val_main_v20_apply, val_main_cst_3_apply, val_main_call0_v0_apply, val_main_cst_4_apply,
    val_main_call0_v1_apply, val_main_cst_5_apply, v8_at, v15_at]
  exact tgt_eq (pix x1 (x2 (ix1 k))) (pix x1 (x3 (ix1 k)))

theorem v47_at (k : Fin 8988306) :
    val_main_v47 (F := Ideal) x1 x4 x5 (ix1 k) = tgt (pix x1 (x4 (ix1 k))) (pix x1 (x5 (ix1 k))) := by
  simp only [val_main_v47_apply, val_main_v46_apply, val_main_v41_apply, val_main_v39_apply, val_main_v40_apply,
    val_main_cst_11_apply, val_main_call3_v0_apply, val_main_cst_15_apply, val_main_v45_apply, val_main_v44_apply,
    val_main_v42_apply, val_main_v43_apply, val_main_cst_12_apply, val_main_call2_v0_apply, val_main_cst_13_apply,
    val_main_call2_v1_apply, val_main_cst_14_apply, v31_at, v38_at]
  exact tgt_eq (pix x1 (x4 (ix1 k))) (pix x1 (x5 (ix1 k)))

/-! ### The concatenations: pair `k` reads part one below 943 718 and part two above -/

theorem v62_at (k : Fin 9932024) : val_main_v62 (F := Ideal) x0 x2 x4 (ix1 k) = gat x0 x2 x4 k := by
  unfold val_main_v62
  refine (concat_flat_apply (by decide) concatenates_S943718_S8988306_S9932024_d0 _ _ k).trans ?_
  rw [gat_eq_pix, pix_catIdx]
  by_cases h : k.val < 943718
  · rw [dif_pos h, dif_pos h]; exact v54_at x0 x2 ⟨k.val, h⟩
  · rw [dif_neg h, dif_neg h]; exact v61_at x0 x4 _

theorem v77_at (k : Fin 9932024) : val_main_v77 (F := Ideal) x0 x3 x5 (ix1 k) = gat x0 x3 x5 k := by
  unfold val_main_v77
  refine (concat_flat_apply (by decide) concatenates_S943718_S8988306_S9932024_d0 _ _ k).trans ?_
  rw [gat_eq_pix, pix_catIdx]
  by_cases h : k.val < 943718
  · rw [dif_pos h, dif_pos h]; exact v69_at x0 x3 ⟨k.val, h⟩
  · rw [dif_neg h, dif_neg h]; exact v76_at x0 x5 _

theorem v78_at (k : Fin 9932024) :
    val_main_v78 (F := Ideal) x1 x2 x3 x4 x5 (ix1 k) = tgt (gat x1 x2 x4 k) (gat x1 x3 x5 k) := by
  unfold val_main_v78
  refine (concat_flat_apply (by decide) concatenates_S943718_S8988306_S9932024_d0 _ _ k).trans ?_
  rw [gat_eq_pix, gat_eq_pix, pix_catIdx, pix_catIdx]
  by_cases h : k.val < 943718
  · rw [dif_pos h, dif_pos h, dif_pos h]; exact v24_at x1 x2 x3 ⟨k.val, h⟩
  · rw [dif_neg h, dif_neg h, dif_neg h]; exact v47_at x1 x4 x5 _

/-! ### The per-pair terms -/

theorem v79_at (k : Fin 9932024) :
    val_main_v79 (F := Ideal) x0 x2 x3 x4 x5 (ix1 k) = gat x0 x2 x4 k - gat x0 x3 x5 k := by
  rw [val_main_v79_apply, v62_at, v77_at]
  rfl

theorem v81_at (k : Fin 9932024) :
    val_main_v81 (F := Ideal) x1 x2 x3 x4 x5 (ix1 k)
      = FloatOps.cmpf .une (tgt (gat x1 x2 x4 k) (gat x1 x3 x5 k)) zero := by
  rw [val_main_v81_apply, v78_at, val_main_v80_apply, val_main_cst_24_apply]
  rfl

theorem v88_at (k : Fin 9932024) :
    val_main_v88 (F := Ideal) x0 x1 x2 x3 x4 x5 (ix1 k)
      = lgTerm (gat x1 x2 x4 k) (gat x1 x3 x5 k) (gat x0 x2 x4 k) (gat x0 x3 x5 k) := by
  simp only [val_main_v88_apply, val_main_v87_apply, val_main_call4_v4_apply, val_main_call4_v3_apply,
    val_main_call4_v2_apply, val_main_call4_cst_apply, val_main_call4_v6_apply, val_main_call4_v5_apply,
    val_main_call4_v11_apply, val_main_call4_v1_apply, val_main_call4_v0_apply, val_main_call4_v10_apply,
    val_main_call4_v9_apply, val_main_call4_v8_apply, val_main_call4_v7_apply, val_main_v86_apply,
    val_main_v85_apply, val_main_call5_v1_apply, val_main_call5_v0_apply, val_main_cst_27_apply, v81_at, v78_at,
    v79_at]
  exact lgTerm_eq (gat x1 x2 x4 k) (gat x1 x3 x5 k) (gat x0 x2 x4 k) (gat x0 x3 x5 k)

theorem v94_at (k : Fin 9932024) :
    val_main_v94 (F := Ideal) x0 x1 x2 x3 x4 x5 (ix1 k)
      = sqTerm (gat x1 x2 x4 k) (gat x1 x3 x5 k) (gat x0 x2 x4 k) (gat x0 x3 x5 k) := by
  simp only [val_main_v94_apply, val_main_call6_v1_apply, val_main_call6_v0_apply, val_main_cst_30_apply,
    val_main_v93_apply, v81_at, v79_at]
  exact sqTerm_eq (gat x1 x2 x4 k) (gat x1 x3 x5 k) (gat x0 x2 x4 k) (gat x0 x3 x5 k)

/-! ### The count's operand, and the two sums -/

/-- The words the integer reduction adds up are the specification's. -/
theorem v82_eq : val_main_v82 (F := Ideal) x1 x2 x3 x4 x5 = nzWords x1 x2 x3 x4 x5 := by
  funext j
  obtain ⟨k, rfl⟩ : ∃ k : Fin 9932024, j = ix1 k := ⟨j 0, eq_ix1 j⟩
  rw [val_main_v82_apply, v81_at]
  rfl

/-- The integer reduction's initial value is the zero word. -/
theorem c25_eq : val_main_c_25 (F := Ideal) = fun _ : S_.Idx => 0#32 := rfl

/-- The count of ranked pairs is the specification's reduction. -/
theorem v83_at (i : S_.Idx) :
    val_main_v83 (F := Ideal) x1 x2 x3 x4 x5 i
      = Host.reduce IntOp.addi (nzWords x1 x2 x3 x4 x5) (fun _ : S_.Idx => 0#32) reducesTo_S9932024_S_d0 h_S_ ix0 := by
  obtain rfl : i = ix0 := eq_ix0 i
  unfold val_main_v83
  rw [v82_eq, c25_eq]

theorem v89_at (i : S_.Idx) :
    val_main_v89 (F := Ideal) x0 x1 x2 x3 x4 x5 i = zero + sumLg x0 x1 x2 x3 x4 x5 := by
  rw [val_main_v89_apply, val_main_cst_28_apply, sum_idx1]
  simp only [v88_at]
  rfl

theorem v95_at (i : S_.Idx) :
    val_main_v95 (F := Ideal) x0 x1 x2 x3 x4 x5 i = zero + sumSq x0 x1 x2 x3 x4 x5 := by
  rw [val_main_v95_apply, val_main_cst_31_apply, sum_idx1]
  simp only [v94_at]
  rfl

/-! ## The result -/

/-- THE REFERENCE'S VALUE is the specification's loss with the integer count. -/
theorem ref_value :
    val_main_v103 (F := Ideal) x0 x1 x2 x3 x4 x5
      = fun _ => lossR x0 x1 x2 x3 x4 x5 reducesTo_S9932024_S_d0 h_S_ := by
  funext i
  simp only [val_main_v103_apply, val_main_v102_apply, val_main_v101_apply, val_main_v100_apply, val_main_v99_apply,
    val_main_v98_apply, val_main_v97_apply, val_main_v96_apply, val_main_v92_apply, val_main_v91_apply,
    val_main_v90_apply, val_main_v84_apply, val_main_c_26_apply, val_main_c_29_apply, val_main_c_32_apply,
    val_main_c_33_apply, val_main_c_34_apply, v89_at, v95_at, v83_at]
  exact finishR_eq _ _ _

end Stages

end Cert.ReferenceIdeal.RefValue

end
-- ==== Proof.RefStage1.lean ====
/-
  The first 112 of the reference's 164 host operations, evaluated at the two arrays every later operation depends on.

  The 164 operations are run in order over the launch memory.  The first 112 end with the targets of all pairs (the
  concatenation of the targets of the randomly drawn and of the object-guided pairs) and the differences of the
  predicted depths of all pairs (a difference of two such concatenations); operations 113 to 164 read nothing written or
  given earlier except these two arrays.  Here: running one list of operations after another is running their
  concatenation; the 164 operations are the first 112 followed by the last 52; and from any memory the first 112 leave
  the two arrays at their staged value functions of the argument arrays.

  An operand of a concatenation is written inside a pair of a list; it is brought out as an ordinary argument before the
  operations that produce it are evaluated.  The operations of the called functions carry their values across an
  equation between a buffer's type and its value's type; the two types are equal, and the transports are removed.  What
  is then left to compare is small, and the staged value functions unfold one operation at a time against it.
-/
import proofs.«129107_j71382356459609_1_alg».proof.Proof.RefRun
import proofs.«129107_j71382356459609_1_alg».proof.Proof.RefRead

noncomputable section

namespace Cert.ReferenceIdeal.Read

open Cert.ReferenceIdeal Cert.ReferenceIdeal.Gen Idealize.ShloMosaic Idealize.ShloMosaic.TcCoe Idealize.SL.Sem Idealize.ShloMosaic.StableHlo
open Cert.ReferenceIdeal.Value (ops)

variable {F : FTy → Type} [FloatOps F]

/-! ## Running one list of operations after another -/

/-- The memory after a concatenation of two lists is the memory after the second list, run from the memory after the first. -/
theorem after_concat (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The 164 operations are the first 112 followed by the last 52. -/
theorem after_split (V : Valuation τ sig (Elt F)) :
    StableHlo.after (ops (F := F)) V = StableHlo.after ((ops (F := F)).drop 112) (StableHlo.after ((ops (F := F)).take 112) V) := by
  rw [← after_concat, List.take_append_drop]

/-! ## Stage 1: the two arrays after the first 112 operations -/

/-- The concatenation of a 943 718-entry and an 8 988 306-entry array, with the two arrays as ordinary arguments. -/
def cat2 {α : Type} (a : S943718.Idx → α) (b : S8988306.Idx → α) : S9932024.Idx → α :=
  concatenate S9932024 0 [⟨S943718, a⟩, ⟨S8988306, b⟩] concatenates_S943718_S8988306_S9932024_d0

theorem concat_cat2 {α : Type} (x : S943718.Idx → α) (y : S8988306.Idx → α) :
    concatenate S9932024 0 [⟨S943718, x⟩, ⟨S8988306, y⟩] concatenates_S943718_S8988306_S9932024_d0 = cat2 x y := rfl

set_option maxRecDepth 100000 in
set_option maxHeartbeats 0 in
/-- The targets of all pairs, after the first 112 operations, from any memory. -/
theorem stage1_v78 (W : Valuation τ sig (Elt F)) :
    StableHlo.after ((ops (F := F)).take 112) W (Proc.devRef .tc main_v78)
      = val_main_v78 (F := F) (W (Proc.devRef .tc main_arg1)) (W (Proc.devRef .tc main_arg2)) (W (Proc.devRef .tc main_arg3))
          (W (Proc.devRef .tc main_arg4)) (W (Proc.devRef .tc main_arg5)) := by
  simp only [List.take_succ_cons, List.take_zero]
  after_results_simp
  simp only [concat_cat2]
  after_results_simp
  simp only [cast_eq]
  unfold cat2
  rfl

set_option maxRecDepth 100000 in
set_option maxHeartbeats 0 in
/-- The differences of the predicted depths of all pairs, after the first 112 operations, from any memory. -/
theorem stage1_v79 (W : Valuation τ sig (Elt F)) :
    StableHlo.after ((ops (F := F)).take 112) W (Proc.devRef .tc main_v79)
      = val_main_v79 (F := F) (W (Proc.devRef .tc main_arg0)) (W (Proc.devRef .tc main_arg2)) (W (Proc.devRef .tc main_arg3))
          (W (Proc.devRef .tc main_arg4)) (W (Proc.devRef .tc main_arg5)) := by
  simp only [List.take_succ_cons, List.take_zero]
  after_results_simp
  simp only [concat_cat2]
  after_results_simp
  unfold cat2
  rfl

end Cert.ReferenceIdeal.Read

end
-- ==== Proof.RefStage2.lean ====
/-
  THE OPERATIONS AFTER THE TARGETS AND THE DIFFERENCES.

  Operations 113 to 164 of the reference read, of everything written before them, only the array of targets
  (main_v78) and the array of differences of the predicted depths (main_v79).  From any buffer contents that hold those
  two arrays, running these 52 operations leaves the result buffer at the value of the last stage.

  The run is cut where few buffers are read later: after the count of ranked pairs and the product of the negated
  target with the difference (operations 113–122), after the softplus and its selection (123–140), after the two sums
  and the first mean (141–153); the last part (154–164) is on scalars.  Each part is read from the contents of the
  buffers it reads to the contents of the buffers the later parts read; a buffer a part does not write keeps its
  contents.  An operation of a called function holds its value along an equation between a buffer's type and its
  value's type; the two types are equal, so the transport is the identity.
-/
import proofs.«129107_j71382356459609_1_alg».proof.Proof.RefRun
import proofs.«129107_j71382356459609_1_alg».proof.Proof.RefRead
import Idealize.ShloMosaic.Lib.StableHlo.Run

set_option maxRecDepth 16384

noncomputable section

namespace Cert.ReferenceIdeal.RefStage2

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

/-- Running two lists of operations one after the other is running their concatenation. -/
theorem after_append' {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- The last 52 operations, cut after operations 122, 140 and 153. -/
theorem split4 : (ops (F := F)).drop 112
    = ((ops (F := F)).drop 112).take 10 ++ (((ops (F := F)).drop 122).take 18 ++ (((ops (F := F)).drop 140).take 13 ++ (ops (F := F)).drop 153)) := rfl

set_option maxHeartbeats 4000000 in
/-- Operations 113–122, from contents holding the targets and the differences: the bits "target ≠ 0", their count as an
    integer, the count of the other pairs, and the product of the negated target with the difference; the differences
    are not written. -/
theorem seg1 (W : Valuation τ sig (Elt F)) (x0 x1 : (⟨S1x1x3072x3072, .f32⟩ : BufTy).Contents (Elt F)) (x2 x3 : (⟨S943718, .i32⟩ : BufTy).Contents (Elt F))
    (x4 x5 : (⟨S8988306, .i32⟩ : BufTy).Contents (Elt F))
    (h78 : W (Proc.devRef .tc main_v78) = val_main_v78 (F := F) x1 x2 x3 x4 x5) (h79 : W (Proc.devRef .tc main_v79) = val_main_v79 (F := F) x0 x2 x3 x4 x5) :
    StableHlo.after (((ops (F := F)).drop 112).take 10) W (Proc.devRef .tc main_v81) = val_main_v81 (F := F) x1 x2 x3 x4 x5 ∧ StableHlo.after (((ops (F := F)).drop 112).take 10) W (Proc.devRef .tc main_v83) = val_main_v83 (F := F) x1 x2 x3 x4 x5 ∧ StableHlo.after (((ops (F := F)).drop 112).take 10) W (Proc.devRef .tc main_v84) = val_main_v84 (F := F) x1 x2 x3 x4 x5
      ∧ StableHlo.after (((ops (F := F)).drop 112).take 10) W (Proc.devRef .tc main_v86) = val_main_v86 (F := F) x0 x1 x2 x3 x4 x5 ∧ StableHlo.after (((ops (F := F)).drop 112).take 10) W (Proc.devRef .tc main_v79) = val_main_v79 (F := F) x0 x2 x3 x4 x5 := by
  simp only [ops, List.drop_succ_cons, List.drop_zero, List.take_succ_cons, List.take_zero]
  refine ⟨?_, ?_, ?_, ?_, ?_⟩
  · unfold val_main_v81 val_main_v80 val_main_cst_24
    after_results_simp
    rw [h78]
  · unfold val_main_v83 val_main_c_25 val_main_v82 val_main_v81 val_main_v80 val_main_cst_24
    after_results_simp
    rw [h78]
  · unfold val_main_v84 val_main_c_26 val_main_v83 val_main_c_25 val_main_v82 val_main_v81 val_main_v80 val_main_cst_24
    after_results_simp
    rw [h78]
  · unfold val_main_v86 val_main_v85
    after_results_simp
    rw [h78, h79]
  · after_results_simp
    exact h79

set_option maxHeartbeats 4000000 in
/-- Operations 123–140: the softplus of the product and its selection on the bits; the bits, the differences and the
    two counts are not written. -/
theorem seg2 (W : Valuation τ sig (Elt F)) (x0 x1 : (⟨S1x1x3072x3072, .f32⟩ : BufTy).Contents (Elt F)) (x2 x3 : (⟨S943718, .i32⟩ : BufTy).Contents (Elt F))
    (x4 x5 : (⟨S8988306, .i32⟩ : BufTy).Contents (Elt F))
    (h86 : W (Proc.devRef .tc main_v86) = val_main_v86 (F := F) x0 x1 x2 x3 x4 x5) (h81 : W (Proc.devRef .tc main_v81) = val_main_v81 (F := F) x1 x2 x3 x4 x5) (h79 : W (Proc.devRef .tc main_v79) = val_main_v79 (F := F) x0 x2 x3 x4 x5)
    (h83 : W (Proc.devRef .tc main_v83) = val_main_v83 (F := F) x1 x2 x3 x4 x5) (h84 : W (Proc.devRef .tc main_v84) = val_main_v84 (F := F) x1 x2 x3 x4 x5) :
    StableHlo.after (((ops (F := F)).drop 122).take 18) W (Proc.devRef .tc main_v88) = val_main_v88 (F := F) x0 x1 x2 x3 x4 x5 ∧ StableHlo.after (((ops (F := F)).drop 122).take 18) W (Proc.devRef .tc main_v81) = val_main_v81 (F := F) x1 x2 x3 x4 x5 ∧ StableHlo.after (((ops (F := F)).drop 122).take 18) W (Proc.devRef .tc main_v79) = val_main_v79 (F := F) x0 x2 x3 x4 x5
      ∧ StableHlo.after (((ops (F := F)).drop 122).take 18) W (Proc.devRef .tc main_v83) = val_main_v83 (F := F) x1 x2 x3 x4 x5 ∧ StableHlo.after (((ops (F := F)).drop 122).take 18) W (Proc.devRef .tc main_v84) = val_main_v84 (F := F) x1 x2 x3 x4 x5 := by
  simp only [ops, List.drop_succ_cons, List.drop_zero, List.take_succ_cons, List.take_zero]
  refine ⟨?_, ?_, ?_, ?_, ?_⟩
  · unfold val_main_v88 val_main_call5_v1 val_main_call5_v0 val_main_cst_27 val_main_v87 val_main_call4_v11 val_main_call4_v10 val_main_call4_v9 val_main_call4_v8 val_main_call4_v7 val_main_call4_v6 val_main_call4_v5 val_main_call4_v4 val_main_call4_v3 val_main_call4_v2 val_main_call4_v1 val_main_call4_v0 val_main_call4_cst
    after_results_simp
    simp only [cast_eq]
    rw [h86, h81]
  · after_results_simp
    exact h81
  · after_results_simp
    exact h79
  · after_results_simp
    exact h83
  · after_results_simp
    exact h84

set_option maxHeartbeats 4000000 in
/-- Operations 141–153: the sum of the selected softplus terms divided by the count of ranked pairs (at least 1), and
    the sum of the selected squares of the differences; the two counts are not written. -/
theorem seg3 (W : Valuation τ sig (Elt F)) (x0 x1 : (⟨S1x1x3072x3072, .f32⟩ : BufTy).Contents (Elt F)) (x2 x3 : (⟨S943718, .i32⟩ : BufTy).Contents (Elt F))
    (x4 x5 : (⟨S8988306, .i32⟩ : BufTy).Contents (Elt F))
    (h88 : W (Proc.devRef .tc main_v88) = val_main_v88 (F := F) x0 x1 x2 x3 x4 x5) (h81 : W (Proc.devRef .tc main_v81) = val_main_v81 (F := F) x1 x2 x3 x4 x5) (h79 : W (Proc.devRef .tc main_v79) = val_main_v79 (F := F) x0 x2 x3 x4 x5)
    (h83 : W (Proc.devRef .tc main_v83) = val_main_v83 (F := F) x1 x2 x3 x4 x5) (h84 : W (Proc.devRef .tc main_v84) = val_main_v84 (F := F) x1 x2 x3 x4 x5) :
    StableHlo.after (((ops (F := F)).drop 140).take 13) W (Proc.devRef .tc main_v92) = val_main_v92 (F := F) x0 x1 x2 x3 x4 x5 ∧ StableHlo.after (((ops (F := F)).drop 140).take 13) W (Proc.devRef .tc main_v95) = val_main_v95 (F := F) x0 x1 x2 x3 x4 x5 ∧ StableHlo.after (((ops (F := F)).drop 140).take 13) W (Proc.devRef .tc main_v83) = val_main_v83 (F := F) x1 x2 x3 x4 x5 ∧ StableHlo.after (((ops (F := F)).drop 140).take 13) W (Proc.devRef .tc main_v84) = val_main_v84 (F := F) x1 x2 x3 x4 x5 := by
  simp only [ops, List.drop_succ_cons, List.drop_zero, List.take_succ_cons, List.take_zero]
  refine ⟨?_, ?_, ?_, ?_⟩
  · unfold val_main_v92 val_main_v91 val_main_v90 val_main_c_29 val_main_v89 val_main_cst_28
    after_results_simp
    rw [h88, h83]
  · unfold val_main_v95 val_main_cst_31 val_main_v94 val_main_call6_v1 val_main_call6_v0 val_main_cst_30 val_main_v93
    after_results_simp
    simp only [cast_eq]
    rw [h81, h79]
  · after_results_simp
    exact h83
  · after_results_simp
    exact h84

set_option maxHeartbeats 4000000 in
/-- Operations 154–164, all on scalars: the second mean, the two tests "a count is 0", and the selection of one mean or
    of their sum. -/
theorem seg4 (W : Valuation τ sig (Elt F)) (x0 x1 : (⟨S1x1x3072x3072, .f32⟩ : BufTy).Contents (Elt F)) (x2 x3 : (⟨S943718, .i32⟩ : BufTy).Contents (Elt F))
    (x4 x5 : (⟨S8988306, .i32⟩ : BufTy).Contents (Elt F))
    (h92 : W (Proc.devRef .tc main_v92) = val_main_v92 (F := F) x0 x1 x2 x3 x4 x5) (h95 : W (Proc.devRef .tc main_v95) = val_main_v95 (F := F) x0 x1 x2 x3 x4 x5) (h83 : W (Proc.devRef .tc main_v83) = val_main_v83 (F := F) x1 x2 x3 x4 x5) (h84 : W (Proc.devRef .tc main_v84) = val_main_v84 (F := F) x1 x2 x3 x4 x5) :
    StableHlo.after ((ops (F := F)).drop 153) W (Proc.devRef .tc main_v103) = val_main_v103 (F := F) x0 x1 x2 x3 x4 x5 := by
  simp only [ops, List.drop_succ_cons, List.drop_zero, List.take_succ_cons, List.take_zero]
  unfold val_main_v103 val_main_v102 val_main_v101 val_main_v100 val_main_c_34 val_main_v99 val_main_c_33 val_main_v98 val_main_v97 val_main_v96 val_main_c_32
  after_results_simp
  simp only [cast_eq]
  rw [h92, h95, h83, h84]

set_option maxHeartbeats 4000000 in
/-- THE LAST 52 OPERATIONS, from any buffer contents holding the array of targets and the array of differences, leave
    the result buffer at the last stage's value: the four parts one after the other, each handing the next the contents
    of the buffers it reads. -/
theorem stage2 (W₁ : Valuation τ sig (Elt F)) (x0 x1 : (⟨S1x1x3072x3072, .f32⟩ : BufTy).Contents (Elt F)) (x2 x3 : (⟨S943718, .i32⟩ : BufTy).Contents (Elt F))
    (x4 x5 : (⟨S8988306, .i32⟩ : BufTy).Contents (Elt F))
    (h78 : W₁ (Proc.devRef .tc main_v78) = val_main_v78 (F := F) x1 x2 x3 x4 x5) (h79 : W₁ (Proc.devRef .tc main_v79) = val_main_v79 (F := F) x0 x2 x3 x4 x5) :
    StableHlo.after ((Cert.ReferenceIdeal.Value.ops (F := F)).drop 112) W₁ (Proc.devRef .tc main_v103) = val_main_v103 (F := F) x0 x1 x2 x3 x4 x5 := by
  rw [split4, after_append', after_append', after_append']
  obtain ⟨a81, a83, a84, a86, a79⟩ := seg1 W₁ x0 x1 x2 x3 x4 x5 h78 h79
  obtain ⟨b88, b81, b79, b83, b84⟩ := seg2 _ x0 x1 x2 x3 x4 x5 a86 a81 a79 a83 a84
  obtain ⟨c92, c95, c83, c84⟩ := seg3 _ x0 x1 x2 x3 x4 x5 b88 b81 b79 b83 b84
  exact seg4 _ x0 x1 x2 x3 x4 x5 c92 c95 c83 c84

end Cert.ReferenceIdeal.RefStage2

end
-- ==== Proof.RefReadEq.lean ====
/-
  The reference's result, as the fold of its 164 host operations over the launch memory, is the staged value function
  of the six argument arrays.

  The fold is cut after operation 112.  Stage 1 evaluates the first 112 operations at the two arrays every later
  operation depends on, the targets of all pairs and the differences of their predicted depths; stage 2 evaluates the
  last 52 operations from any memory that holds those two arrays; and running the two lists one after the other is
  running all 164.  No comparison involves more than one of the two parts.
-/
import proofs.«129107_j71382356459609_1_alg».proof.Proof.RefStage1
import proofs.«129107_j71382356459609_1_alg».proof.Proof.RefStage2

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- THE REFERENCE'S RESULT: the fold of the 164 operations over the launch memory, read at the result buffer, is the staged
    value function of the six argument arrays. -/
theorem val_main_v103_eq (m : (ℓ : Loc nD τ sig) → Buf (Elt F) ℓ) (c : Dev nD) :
    Cert.ReferenceIdeal.Value.res_main_v103 m c = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.Value.res_main_v103
  rw [after_split]
  exact Cert.ReferenceIdeal.RefStage2.stage2 _ _ _ _ _ _ _ (stage1_v78 _) (stage1_v79 _)

end Cert.ReferenceIdeal.Read

end
-- ==== Proof.PairCount.lean ====
/-
  The count of ranked pairs, in integers and in extended reals.

  A pair is ranked when its target is not 0; c is the number of ranked pairs.  Three readings of c agree:

  * the 32-bit integer sum, from 0, of the ranked-pair bits widened to words is the word of c (`reduce_nzWords`):
    every summand is 0 or 1 and c ≤ 9 932 024 < 2³², so nothing wraps;
  * the extended-real sum of the terms 1 (ranked) and 0 (unranked) is c (`sumCnt_eq`);
  * the final formula computed from the integer c — tests on integers, 9 932 024 − c in integers, the maximum with 1
    in integers, conversions to reals only for the divisions — is the formula computed from the real c
    (`finishR_eq`): every integer that occurs lies in [0, 9 932 024], where conversion is exact.

  Together: the loss with the integer count is the loss (`lossR_eq`).
-/
import proofs.«129107_j71382356459609_1_alg».proof.Proof.Spec
import Idealize.ShloMosaic.PureOps.Reduce
import Mathlib.Algebra.BigOperators.Fin

noncomputable section

namespace Cert.RankSpec

open Idealize.ShloMosaic Idealize.ShloMosaic.ValueIdx
open scoped BigOperators

/-! ## The three constants -/

/-- The pattern of all zeros is 0. -/
theorem zero_eq : zero = 0 := by
  unfold zero; simp [Ideal.ofBits, Ideal.ieee]

/-- The pattern 0x3F800000 is 1. -/
theorem one_eq : one = 1 := by
  unfold one; simp [Ideal.ofBits, Ideal.ieee, -EReal.coe_mul]; norm_num

/-- The pattern 0x4B178CF8 is 9 932 024 = (2²³ + 1 543 416) · 2⁰. -/
theorem nPairR_eq : nPairR = ((9932024 : ℝ) : EReal) := by
  unfold nPairR; simp [Ideal.ofBits, Ideal.ieee, -EReal.coe_mul]

/-! ## The count -/

/-- The number of ranked pairs. -/
def nzCount (g : SMap.Idx → R) (a2 a3 : SRand.Idx → BitVec 32) (a4 a5 : SObj.Idx → BitVec 32) : ℕ :=
  (Finset.univ.filter fun k : Fin nPair => nzb (gat g a2 a4 k) (gat g a3 a5 k) = 1#1).card

/-- There are at most 9 932 024 ranked pairs. -/
theorem nzCount_le (g : SMap.Idx → R) (a2 a3 : SRand.Idx → BitVec 32) (a4 a5 : SObj.Idx → BitVec 32) :
    nzCount g a2 a3 a4 a5 ≤ 9932024 := by
  unfold nzCount
  exact (Finset.card_le_univ _).trans (le_of_eq (Fintype.card_fin _))

/-! ## The integer sum of the bits -/

/-- Adding up, from 0, words that are each the widening of a bit gives the word of the number of bits that are 1. -/
theorem fold_addi_bits {ι : Type} [DecidableEq ι] (S : Finset ι) (b : ι → BitVec 1) :
    S.fold IntOp.addi 0#32 (fun i => (b i).setWidth 32) = BitVec.ofNat 32 (S.filter fun i => b i = 1#1).card := by
  induction S using Finset.induction_on with
  | empty => rfl
  | insert a S ha ih =>
    rw [Finset.fold_insert ha, ih, Finset.filter_insert]
    rcases BitVec.eq_zero_or_eq_one (b a) with h0 | h1
    · rw [if_neg (by rw [h0]; decide), h0]
      show (0#1).setWidth 32 + _ = _
      rw [show (0#1).setWidth 32 = 0#32 from rfl, BitVec.zero_add]
    · rw [if_pos h1, h1, Finset.card_insert_of_notMem (fun hm => ha (Finset.mem_filter.1 hm).1)]
      show (1#1).setWidth 32 + _ = _
      rw [show (1#1).setWidth 32 = BitVec.ofNat 32 1 from rfl, ← BitVec.ofNat_add, Nat.add_comm]

/-- The rank-1 indices at whose coordinate a bit is 1 are as many as the coordinates at which it is 1. -/
theorem card_filter_idx1 {n : ℕ} (b : Fin n → BitVec 1) :
    (Finset.univ.filter fun i : (⟨1, ![n]⟩ : Shape).Idx => b (i 0) = 1#1).card
      = (Finset.univ.filter fun k : Fin n => b k = 1#1).card := by
  refine Finset.card_bij (fun i _ => (i 0 : Fin n)) ?_ ?_ ?_
  · intro i hi
    exact Finset.mem_filter.2 ⟨Finset.mem_univ _, (Finset.mem_filter.1 hi).2⟩
  · intro i _ j _ e
    rw [eq_ix1 i, eq_ix1 j]
    exact congrArg ix1 e
  · intro k hk
    exact ⟨ix1 k, Finset.mem_filter.2 ⟨Finset.mem_univ _, (Finset.mem_filter.1 hk).2⟩, rfl⟩

/-- THE INTEGER COUNT: the host's sum of the ranked-pair words from 0 is the word of the number of ranked pairs. -/
theorem reduce_nzWords (g : SMap.Idx → R) (a2 a3 : SRand.Idx → BitVec 32) (a4 a5 : SObj.Idx → BitVec 32)
    (h : SPair.ReducesTo [0] (⟨0, ![]⟩ : Shape)) (hu : 0 < (⟨0, ![]⟩ : Shape).numel) :
    Host.reduce IntOp.addi (nzWords g a2 a3 a4 a5) (fun _ : (⟨0, ![]⟩ : Shape).Idx => 0#32) h hu ix0
      = BitVec.ofNat 32 (nzCount g a2 a3 a4 a5) := by
  rw [Host.reduce_eq_fold, Finset.filter_true_of_mem (fun i _ => eq_ix0 (h.drop i))]
  show Finset.univ.fold IntOp.addi 0#32
      (fun i : SPair.Idx => (nzb (gat g a2 a4 (i 0)) (gat g a3 a5 (i 0))).setWidth 32) = _
  rw [fold_addi_bits]
  exact congrArg (BitVec.ofNat 32) (card_filter_idx1 fun k : Fin 9932024 => nzb (gat g a2 a4 k) (gat g a3 a5 k))

/-! ## The extended-real sum of the ones -/

/-- A sum of terms each 1 or 0 is the number of ones. -/
theorem sum_ite_one_zero {ι : Type} [DecidableEq ι] (S : Finset ι) (q : ι → Prop) [DecidablePred q] :
    ∑ k ∈ S, (if q k then (1 : EReal) else 0) = (((S.filter q).card : ℝ) : EReal) := by
  induction S using Finset.induction_on with
  | empty => simp
  | insert a S ha ih =>
    rw [Finset.sum_insert ha, ih, Finset.filter_insert]
    by_cases hq : q a
    · rw [if_pos hq, if_pos hq, Finset.card_insert_of_notMem (fun hm => ha (Finset.mem_filter.1 hm).1), Nat.cast_succ,
        EReal.coe_add, EReal.coe_one, add_comm]
    · rw [if_neg hq, if_neg hq, zero_add]

/-- THE REAL COUNT: the sum of the terms 1 for a ranked pair and 0 for an unranked one is the number of ranked pairs. -/
theorem sumCnt_eq (g : SMap.Idx → R) (a2 a3 : SRand.Idx → BitVec 32) (a4 a5 : SObj.Idx → BitVec 32) :
    sumCnt g a2 a3 a4 a5 = ((nzCount g a2 a3 a4 a5 : ℝ) : EReal) := by
  unfold sumCnt cntTerm nzCount Scalar.select
  rw [one_eq, zero_eq]
  exact sum_ite_one_zero Finset.univ fun k : Fin nPair => nzb (gat g a2 a4 k) (gat g a3 a5 k) = 1#1

/-! ## The final formula from the integer count -/

/-- A 32-bit word of a natural below 2³¹ reads, signed, as that natural. -/
theorem toInt_word (n : ℕ) (h : n < 2147483648) : (BitVec.ofNat 32 n).toInt = (n : ℤ) := by
  rw [BitVec.toInt_eq_toNat_of_lt (by rw [BitVec.toNat_ofNat]; omega), BitVec.toNat_ofNat]
  omega

/-- Signed comparison of the words of two naturals below 2³¹ is the comparison of the naturals. -/
theorem slt_word (m n : ℕ) (hm : m < 2147483648) (hn : n < 2147483648) :
    (BitVec.ofNat 32 m).slt (BitVec.ofNat 32 n) = decide (m < n) := by
  rw [BitVec.slt_eq_decide, toInt_word m hm, toInt_word n hn]
  exact decide_eq_decide.2 Nat.cast_lt

/-- The word of a natural below 2³² is the zero word only for 0. -/
theorem word_eq_zero (m : ℕ) (h : m < 4294967296) : BitVec.ofNat 32 m = 0#32 ↔ m = 0 := by
  constructor
  · intro e
    have e' := congrArg BitVec.toNat e
    rw [BitVec.toNat_ofNat, BitVec.toNat_ofNat] at e'
    omega
  · rintro rfl; rfl

/-- A denominator: the integer maximum with 1 of a count, converted, is the real maximum with 1 of the count. -/
theorem den_word (n : ℕ) (hn : n < 2147483648) :
    FloatOps.sitofp (F := Ideal) .f32 (IntOp.maxsi (BitVec.ofNat 32 n) 1#32) = max ((n : ℝ) : EReal) one := by
  rw [one_eq]
  show (((IntOp.maxsi (BitVec.ofNat 32 n) (BitVec.ofNat 32 1)).toInt : ℝ) : EReal) = _
  unfold IntOp.maxsi
  rw [slt_word 1 n (by omega) hn]
  by_cases h : 1 < n
  · rw [decide_eq_true h, if_pos rfl, toInt_word n hn, Int.cast_natCast, max_eq_left]
    rw [← EReal.coe_one, EReal.coe_le_coe_iff]
    exact_mod_cast h.le
  · rw [decide_eq_false h, if_neg (by simp), toInt_word 1 (by omega), max_eq_right]
    · simp
    · rw [← EReal.coe_one, EReal.coe_le_coe_iff]
      exact_mod_cast (Nat.le_of_not_lt h)

/-- The number of unranked pairs in integers. -/
theorem subi_word (c : ℕ) (hc : c ≤ 9932024) : IntOp.subi 9932024#32 (BitVec.ofNat 32 c) = BitVec.ofNat 32 (9932024 - c) := by
  unfold IntOp.subi
  apply BitVec.eq_of_toNat_eq
  rw [BitVec.toNat_sub, BitVec.toNat_ofNat, BitVec.toNat_ofNat, BitVec.toNat_ofNat]
  omega

/-- The number of unranked pairs in reals. -/
theorem nPairR_sub (c : ℕ) (hc : c ≤ 9932024) : nPairR - ((c : ℝ) : EReal) = (((9932024 - c : ℕ) : ℝ) : EReal) := by
  rw [nPairR_eq, ← EReal.coe_sub, Nat.cast_sub hc]
  norm_num

/-- A select on the integer test "the count is 0". -/
theorem select_word_eq_zero {α : Type} (m : ℕ) (h : m < 4294967296) (a b : α) :
    Scalar.select (IntOp.cmpi .eq (BitVec.ofNat 32 m) 0#32) a b = if m = 0 then a else b := by
  show (if BitVec.ofBool (BitVec.ofNat 32 m == 0#32) = 1#1 then a else b) = _
  by_cases hm : m = 0
  · subst hm; rfl
  · have hne : ¬ BitVec.ofNat 32 m = 0#32 := fun e => hm ((word_eq_zero m h).1 e)
    rw [if_neg hm, beq_eq_false_iff_ne.2 hne]; rfl

/-- A select on the real test "the count is 0". -/
theorem select_real_eq_zero {α : Type} (m : ℕ) (a b : α) :
    Scalar.select (FloatOps.cmpf .oeq (((m : ℝ) : EReal) : R) zero) a b = if m = 0 then a else b := by
  show (if BitVec.ofBool (decide ((((m : ℝ) : EReal)) = zero)) = 1#1 then a else b) = _
  rw [zero_eq]
  by_cases hm : m = 0
  · subst hm; simp
  · have hne : ¬ (((m : ℝ) : EReal)) = 0 := fun e => hm (Nat.cast_eq_zero.1 (EReal.coe_eq_zero.1 e))
    rw [if_neg hm, decide_eq_false hne]; rfl

/-- THE FINAL FORMULA: computed from the integer count c ≤ 9 932 024 it is the formula computed from the real c. -/
theorem finishR_eq (slg ssq : R) (c : ℕ) (hc : c ≤ 9932024) :
    finishR slg ssq (BitVec.ofNat 32 c) = finish slg ssq (((c : ℝ) : EReal)) := by
  unfold finishR finish
  rw [subi_word c hc, den_word c (by omega), den_word (9932024 - c) (by omega),
    select_word_eq_zero c (by omega), select_word_eq_zero (9932024 - c) (by omega),
    nPairR_sub c hc, select_real_eq_zero c, select_real_eq_zero (9932024 - c)]

/-- THE LOSS WITH THE INTEGER COUNT IS THE LOSS. -/
theorem lossR_eq (p g : SMap.Idx → R) (a2 a3 : SRand.Idx → BitVec 32) (a4 a5 : SObj.Idx → BitVec 32)
    (h : SPair.ReducesTo [0] (⟨0, ![]⟩ : Shape)) (hu : 0 < (⟨0, ![]⟩ : Shape).numel) :
    lossR p g a2 a3 a4 a5 h hu = loss p g a2 a3 a4 a5 := by
  unfold lossR loss
  rw [reduce_nzWords, zero_eq, zero_add, zero_add, finishR_eq _ _ _ (nzCount_le g a2 a3 a4 a5), sumCnt_eq]

end Cert.RankSpec

end
-- ==== Proof.lean ====
/-
  The certificate of the ranking-loss kernel against its reference, over the extended reals.

  Both programs gather the two depth maps at the pairs' pixels and compute, per pair, a target from the ratio of the
  ground-truth depths and the difference d of the predicted depths; the loss is the mean of softplus (-target · d) over
  the ranked pairs plus the mean of d² over the unranked ones.  The kernel program concatenates the index arrays first,
  pads the gathered arrays to 77 824 × 128 and sums 38 blocks of 2048 × 128 entries in three accumulators, masking the
  padding by the entry's flat position and counting the ranked pairs as a float sum; the reference works on the
  9 932 024 pairs directly and counts in 32-bit integers.  Both results are the specification's `loss`
  (Proof/Spec.lean) of the six argument arrays: the kernel's through its frame run read block by block
  (Proof/KValue.lean), the reference's through its run read one operation at a time (Proof/RefValue.lean) and the
  equality of the integer-count form with the float-count form (Proof/PairCount.lean).  The three frames are the
  generated frame runs; the idealization rewrote nothing.
-/
import proofs.«129107_j71382356459609_1_alg».proof.Defs
import proofs.«129107_j71382356459609_1_alg».proof.Proof.Gen.Kernel
import proofs.«129107_j71382356459609_1_alg».proof.Proof.Gen.Kernel.Frame
import proofs.«129107_j71382356459609_1_alg».proof.Proof.Gen.KernelIdeal
import proofs.«129107_j71382356459609_1_alg».proof.Proof.Gen.KernelIdeal.Frame
import proofs.«129107_j71382356459609_1_alg».proof.Proof.Gen.ReferenceIdeal
import proofs.«129107_j71382356459609_1_alg».proof.Proof.Gen.Pre_finite_inputs
import proofs.«129107_j71382356459609_1_alg».proof.Proof.KValue
import proofs.«129107_j71382356459609_1_alg».proof.Proof.RefValue
import proofs.«129107_j71382356459609_1_alg».proof.Proof.RefReadEq
import proofs.«129107_j71382356459609_1_alg».proof.Proof.PairCount

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel program's result is the loss of its argument arrays (the frame run read block by
    block) and the reference's is the integer-count form of the same loss of arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, Cert.ReferenceIdeal.RefValue.ref_value, Cert.RankSpec.lossR_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
